-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 90
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S50000x128, .f32⟩
  | .hbm, ⟨37, _⟩ => ⟨S1600000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S50000x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S50000x128, .f32⟩
  | .hbm, ⟨69, _⟩ => ⟨S1600000x1, .i32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S128x128, .f32⟩
  | .hbm, ⟨75, _⟩ => ⟨S1x128, .f32⟩
  | .hbm, ⟨76, _⟩ => ⟨S50000x128, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S_, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51_0 : Ref sig .tc := ⟨.hbm, 76, rfl⟩
abbrev main_v51_1 : Ref sig .tc := ⟨.hbm, 77, rfl⟩
abbrev main_v51_2 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v51_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v51_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v51_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S50000x128, .f32⟩
  | 27 => ⟨S1600000x1, .i32⟩
  | 28 => ⟨S50000x128, .f32⟩
  | 29 => ⟨S_, .f32⟩
  | 30 => ⟨S1600000, .f32⟩
  | 31 => ⟨S_, .f32⟩
  | 32 => ⟨S50000, .f32⟩
  | 33 => ⟨S1600000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S128x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S_, .f32⟩
  | 106 => ⟨S50000x128, .f32⟩
  | 107 => ⟨S1600000x1, .i32⟩
  | 108 => ⟨S50000x128, .f32⟩
  | 109 => ⟨S_, .f32⟩
  | 110 => ⟨S1600000, .f32⟩
  | 111 => ⟨S_, .f32⟩
  | 112 => ⟨S50000, .f32⟩
  | 113 => ⟨S1600000x1, .i32⟩
  | 114 => ⟨S50000, .f32⟩
  | 115 => ⟨S_, .f32⟩
  | 116 => ⟨S50000, .f32⟩
  | 117 => ⟨S50000, .f32⟩
  | 118 => ⟨S50000x1, .f32⟩
  | 119 => ⟨S50000x128, .f32⟩
  | 120 => ⟨S50000x128, .f32⟩
  | 121 => ⟨S128x128, .f32⟩
  | 122 => ⟨S50000x128, .f32⟩
  | 123 => ⟨S1x128, .f32⟩
  | 124 => ⟨S50000x128, .f32⟩
  | 125 => ⟨S50000x128, .f32⟩
  | 126 => ⟨S128x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_cst_3 : Ref sig .tc := ⟨.hbm, 71, rfl⟩
abbrev main_call0_v12 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_7 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call1_cst : Ref sig .tc := ⟨.hbm, 93, rfl⟩
abbrev main_call1_v0 : Ref sig .tc := ⟨.hbm, 94, rfl⟩
abbrev main_v50 : Ref sig .tc := ⟨.hbm, 95, rfl⟩
abbrev main_c_8 : Ref sig .tc := ⟨.hbm, 96, rfl⟩
abbrev main_v51 : Ref sig .tc := ⟨.hbm, 97, rfl⟩
abbrev main_v52 : Ref sig .tc := ⟨.hbm, 98, rfl⟩
abbrev main_c_9 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_10 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_11 : Ref sig .tc := ⟨.hbm, 109, rfl⟩
abbrev main_v61 : Ref sig .tc := ⟨.hbm, 110, rfl⟩
abbrev main_cst_12 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_13 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_14 : Ref sig .tc := ⟨.hbm, 129, rfl⟩
abbrev main_v78 : Ref sig .tc := ⟨.hbm, 130, rfl⟩
abbrev main_cst_15 : Ref sig .tc := ⟨.hbm, 131, rfl⟩
abbrev main_v79 : Ref sig .tc := ⟨.hbm, 132, rfl⟩
abbrev main_v80 : Ref sig .tc := ⟨.hbm, 133, rfl⟩
abbrev main_c_16 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_cst_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_v6 : Ref sig .tc := ⟨.hbm, 143, rfl⟩
abbrev main_call2_v7 : Ref sig .tc := ⟨.hbm, 144, rfl⟩
abbrev main_call2_cst_1 : Ref sig .tc := ⟨.hbm, 145, rfl⟩
abbrev main_call2_v8 : Ref sig .tc := ⟨.hbm, 146, rfl⟩
abbrev main_call2_cst_2 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_cst_3 : Ref sig .tc := ⟨.hbm, 151, rfl⟩
abbrev main_call2_v12 : Ref sig .tc := ⟨.hbm, 152, rfl⟩
abbrev main_call2_cst_4 : Ref sig .tc := ⟨.hbm, 153, rfl⟩
abbrev main_call2_call0_v0 : Ref sig .tc := ⟨.hbm, 154, rfl⟩
abbrev main_call2_call0_v1 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_cst_17 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_call3_cst : Ref sig .tc := ⟨.hbm, 173, rfl⟩
abbrev main_call3_v0 : Ref sig .tc := ⟨.hbm, 174, rfl⟩
abbrev main_v97 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run, with the contents of its result buffer in the post: every weakly fair execution of the
  program ends, nothing faults, the arguments end as launched, and the result buffer ends at what the last boundary
  of the fold through the program's segments — four stretches of host operations and four kernel regions — holds there.
-/
import proofs.«168245_j45801531245071_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_out : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Run

end
-- ==== Proof.Stats0Pieces.lean ====
import proofs.«168245_j45801531245071_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stats0

open Cert.KernelIdeal Cert.KernelIdeal.Gen

variable {F : FTy → Type} [FloatOps F]

theorem hz : (![0, 0] : Fin 2 → Nat) = fun _ => 0 := funext fun a => by fin_cases a <;> rfl

/-! What each case of the row-block body leaves in its three output buffers, as the body's own value terms:
    the block of pre-activations; the running column sums, started from zero at the first point and carried
    on from the previous point's contents afterwards; the same for the column sums of squares. -/

theorem blockA (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S2000x128 .f32) (x1 : Vec F S2000x128 .f32) (x2 : Vec F S128x128 .f32) (x3 : Vec F S1x128 .f32) (x4 : Vec F S128x128 .f32) :
    out0_A_5 c i arg1 harg1 arg2 harg2 arg3 harg3 arg4 harg4 arg5 harg5 arg6 harg6 arg7 harg7 arg8 harg8 hc0 x0 x1 x2 x3 x4 = k0_pay4 x0 x1 x2 x4 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem sumA (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S2000x128 .f32) (x1 : Vec F S2000x128 .f32) (x2 : Vec F S128x128 .f32) (x3 : Vec F S1x128 .f32) (x4 : Vec F S128x128 .f32) :
    out0_A_6 c i arg1 harg1 arg2 harg2 arg3 harg3 arg4 harg4 arg5 harg5 arg6 harg6 arg7 harg7 arg8 harg8 hc0 x0 x1 x2 x3 x4 = k0_pay5 x0 x1 x2 x4 x3 k0_pay2 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem sqA (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 : Vec F S2000x128 .f32) (x1 : Vec F S2000x128 .f32) (x2 : Vec F S128x128 .f32) (x3 : Vec F S1x128 .f32) (x4 : Vec F S128x128 .f32) :
    out0_A_7 c i arg1 harg1 arg2 harg2 arg3 harg3 arg4 harg4 arg5 harg5 arg6 harg6 arg7 harg7 arg8 harg8 hc0 x0 x1 x2 x3 x4 = k0_pay1 (k0_pay6 k0_pay3) (k0_pay7 x0 x1 x2 x4 x3) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem blockB (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S2000x128 .f32) (x1 : Vec F S2000x128 .f32) (x2 : Vec F S128x128 .f32) (x3 : Vec F S1x128 .f32) (x4 : Vec F S128x128 .f32) (xo6 : Vec F S1x128 .f32) (xo7 : Vec F S1x128 .f32) :
    out0_B_5 c i arg1 harg1 arg2 harg2 arg3 harg3 arg4 harg4 arg5 harg5 arg6 harg6 arg7 harg7 arg8 harg8 hc0 x0 x1 x2 x3 x4 xo6 xo7 = k0_pay4 x0 x1 x2 x4 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem sumB (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S2000x128 .f32) (x1 : Vec F S2000x128 .f32) (x2 : Vec F S128x128 .f32) (x3 : Vec F S1x128 .f32) (x4 : Vec F S128x128 .f32) (xo6 : Vec F S1x128 .f32) (xo7 : Vec F S1x128 .f32) :
    out0_B_6 c i arg1 harg1 arg2 harg2 arg3 harg3 arg4 harg4 arg5 harg5 arg6 harg6 arg7 harg7 arg8 harg8 hc0 x0 x1 x2 x3 x4 xo6 xo7 = k0_pay5 x0 x1 x2 x4 x3 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem sqB (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 : Vec F S2000x128 .f32) (x1 : Vec F S2000x128 .f32) (x2 : Vec F S128x128 .f32) (x3 : Vec F S1x128 .f32) (x4 : Vec F S128x128 .f32) (xo6 : Vec F S1x128 .f32) (xo7 : Vec F S1x128 .f32) :
    out0_B_7 c i arg1 harg1 arg2 harg2 arg3 harg3 arg4 harg4 arg5 harg5 arg6 harg6 arg7 harg7 arg8 harg8 hc0 x0 x1 x2 x3 x4 xo6 xo7 = k0_pay1 (k0_pay6 xo7) (k0_pay7 x0 x1 x2 x4 x3) := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

end Cert.KernelIdeal.Stats0
end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«168245_j45801531245071_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«168245_j45801531245071_1_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.LibRowStretch.lean ====
/-
  A one-row matrix stretched down the rows, on a block of consecutive rows.

  Stretching a 1 × C row down R rows gives the block of R consecutive rows (from any row o) of the same row stretched
  down N rows by the host's broadcast along both axes: every row of either is the one row. At the ideal values,
  symbolic extents.
-/
import proofs.«168245_j45801531245071_1_alg».proof.Proof.LibBlockOfWhole

noncomputable section

namespace Cert.Blocks

open Idealize.ShloMosaic Idealize.ShloMosaic.ValueIdx Cert.Lib.PlainDot Cert.Bridge

variable {R N C : Nat}

/-- A one-row matrix stretched down R rows is the row block of the row stretched down N rows. -/
theorem rowStretch_rowBlk {φ : FTy} (o : Nat) (h : o + R ≤ N) (M : FVec Ideal ⟨2, ![1, C]⟩ φ)
    (hb : (⟨2, ![1, C]⟩ : Shape).Broadcasts ⟨2, ![R, C]⟩)
    (hB : (⟨2, ![1, C]⟩ : Shape).BroadcastsInDim ⟨2, ![N, C]⟩ ![0, 1]) :
    broadcastTo ⟨2, ![R, C]⟩ M hb = rowBlk o h (broadcastInDim ⟨2, ![N, C]⟩ ![0, 1] hB M) := by
  funext y
  rw [rowBlk_apply, stretchRow_apply, hostStretchRow_apply, shiftRow_rowZero o h y]

/-- Subtraction on row blocks is the row block of the subtraction. -/
theorem subf_rowBlk {φ : FTy} (o : Nat) (h : o + R ≤ N) (A B : FVec Ideal ⟨2, ![N, C]⟩ φ) :
    subf (rowBlk o h A) (rowBlk o h B) = rowBlk o h (subf A B) := rfl

end Cert.Blocks

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.StatsMath.lean ====
/-
  Column sums accumulated block by block.  A [50000,128] array is cut into 25 blocks of 2000 consecutive rows.
  The kernel keeps, per column, a running total: at the first block it starts from zero, and at every block it adds
  the block's column sum.  After the last block the total of column q is the sum of the array's column q over all
  50000 rows, because addition of extended reals is associative and commutative and 0 is neutral: no finiteness
  is needed.  Also here: the pre-activation  A·Wl' + (bias row, stretched) + X·Wr'  as one whole-array expression.
-/
import proofs.«168245_j45801531245071_1_alg».proof.Proof.Gen.KernelIdeal.Frame
import proofs.«168245_j45801531245071_1_alg».proof.Proof.LibRowStretch
import proofs.«168245_j45801531245071_1_alg».proof.Proof.LibBlockSum
import Idealize.ShloMosaic.Lib.Pipeline.Value
import Idealize.ShloMosaic.PureOps.Ideal.Laws

set_option maxRecDepth 16384

noncomputable section

open Idealize.ShloMosaic Idealize.ShloMosaic.ValueIdx Cert.Blocks
open scoped BigOperators

namespace Cert.KernelIdeal.StatsValue

open Cert.KernelIdeal Cert.KernelIdeal.Facts₀

theorem bRN : S1x128.BroadcastsInDim S50000x128 (![0, 1] : Fin 2 → Fin S50000x128.rank) := by decide

/-- aggregated rows times the first weight matrix, plus the bias row on every row, plus own rows times the second -/
def preK (A X : FVec Ideal S50000x128 .f32) (W1 : FVec Ideal S128x128 .f32) (B : FVec Ideal S1x128 .f32)
    (W2 : FVec Ideal S128x128 .f32) : FVec Ideal S50000x128 .f32 :=
  addf (addf (Host.dotGeneral (F := Ideal) (DotDims.plain 50000 128 128) none A W1) (broadcastInDim S50000x128 ![0, 1] bRN B))
    (Host.dotGeneral (F := Ideal) (DotDims.plain 50000 128 128) none X W2)

/-- the column sums of a block of 2000 rows, laid out as one row -/
def blkSums (h : FVec Ideal S2000x128 .f32) : FVec Ideal S1x128 .f32 :=
  shapeCast S1x128 (multiReduction (F := Ideal) .add [0] S128 h 0x00000000#32 reduces_S2000x128_S128 (.inl rfl) rfl) shapeCasts_S128_S1x128

theorem blkSums_apply (h : FVec Ideal S2000x128 .f32) (q : Fin 128) :
    blkSums h (ix2 0 q) = ∑ p : Fin 2000, h (ix2 p q) := by
  unfold blkSums
  refine (shapeCast_addUnit_apply (n := 1) ![128] _ _ _).trans ?_
  refine (Ideal.multiReduction_add_single h _ reduces_S2000x128_S128 (.inl rfl) rfl _).trans ?_
  exact Finset.sum_congr rfl fun p _ => congrArg h (funext fun a => Fin.ext (by match a with | ⟨0, _⟩ => rfl | ⟨1, _⟩ => rfl))

/-- the zero row the first point stores -/
abbrev zeroRow : FVec Ideal S1x128 .f32 := broadcast S1x128 (Scalar.ofBits (F := Ideal) .f32 0x00000000#32)

theorem zeroRow_apply (j : S1x128.Idx) : zeroRow j = 0 := by
  show Ideal.ofBits .f32 0x00000000#32 = 0
  exact Ideal.ofBits_zero_f32

/-- block b of the array: rows 2000·b … 2000·b + 1999 -/
abbrev blkOf (H : FVec Ideal S50000x128 .f32) (n : Nat) (hn : n < 25) : FVec Ideal S2000x128 .f32 :=
  rowBlk (R := 2000) (N := 50000) (C := 128) (2000 * n) (by omega) H

/-- the running totals after block n: zero plus the first block's sums, then one more block's sums each time -/
def partialSums (H : FVec Ideal S50000x128 .f32) : (n : Nat) → n < 25 → FVec Ideal S1x128 .f32
  | 0, hn => addf zeroRow (blkSums (blkOf H 0 hn))
  | n + 1, hn => addf (partialSums H n (Nat.lt_of_succ_lt hn)) (blkSums (blkOf H (n + 1) hn))

/-- column q of block b, summed -/
def blockSum (H : FVec Ideal S50000x128 .f32) (q : Fin 128) (b : Fin 25) : EReal :=
  ∑ p : Fin 2000, H (ix2 ⟨b.val * 2000 + p.val, by have := b.isLt; have := p.isLt; omega⟩ q)

theorem blkSums_blkOf (H : FVec Ideal S50000x128 .f32) (n : Nat) (hn : n < 25) (q : Fin 128) :
    blkSums (blkOf H n hn) (ix2 0 q) = blockSum H q ⟨n, hn⟩ := by
  rw [blkSums_apply]
  unfold blockSum
  refine Finset.sum_congr rfl fun p _ => ?_
  show H (shiftRow (2000 * n) _ (ix2 p q)) = _
  refine congrArg H (funext fun a => Fin.ext ?_)
  match a with
  | ⟨0, _⟩ => show 2000 * n + p.val = n * 2000 + p.val; omega
  | ⟨1, _⟩ => rfl

theorem partialSums_apply (H : FVec Ideal S50000x128 .f32) (q : Fin 128) :
    ∀ (n : Nat) (hn : n < 25), partialSums H n hn (ix2 0 q) = ∑ b : Fin (n + 1), blockSum H q ⟨b.val, by have := b.isLt; omega⟩
  | 0, hn => by
    show zeroRow (ix2 0 q) + blkSums (blkOf H 0 hn) (ix2 0 q) = _
    rw [zeroRow_apply, zero_add, blkSums_blkOf, Fin.sum_univ_one]
    rfl
  | n + 1, hn => by
    show partialSums H n _ (ix2 0 q) + blkSums (blkOf H (n + 1) hn) (ix2 0 q) = _
    rw [Fin.sum_univ_castSucc, partialSums_apply H q n (Nat.lt_of_succ_lt hn), blkSums_blkOf]
    rfl

/-- the sum of every column over all rows, as one row -/
def colSumRow (H : FVec Ideal S50000x128 .f32) : FVec Ideal S1x128 .f32 := fun j => ∑ r : Fin 50000, H (ix2 r (j 1))

/-- after the last block the running totals are the column sums over all rows -/
theorem partialSums_last (H : FVec Ideal S50000x128 .f32) : partialSums H 24 (by decide) = colSumRow H := by
  funext j
  obtain ⟨z, q, rfl⟩ : ∃ (z : Fin 1) (q : Fin 128), j = ix2 z q := ⟨j 0, j 1, eq_ix2 j⟩
  obtain rfl : z = 0 := Subsingleton.elim _ _
  rw [partialSums_apply H q 24 (by decide)]
  show _ = ∑ r : Fin 50000, H (ix2 r q)
  have hs := Cert.Lib.BlockSum.sum_blocks (M := EReal) 25 2000 (fun k : Fin (25 * 2000) => H (ix2 (⟨k.val, k.isLt⟩ : Fin 50000) q))
  refine Eq.trans ?_ hs.symm
  exact Finset.sum_congr rfl fun b _ => Finset.sum_congr rfl fun p _ => rfl

end Cert.KernelIdeal.StatsValue

end
-- ==== Proof.Stats0Value.lean ====
/-
  The value of a linear-and-statistics kernel region.  Each of its 25 grid points takes 2000 consecutive rows of the
  aggregated features A and of the node features X, forms the block of pre-activations  A·W1 + bias row + X·W2,
  writes it back as the same 2000 rows of the first output, and adds the block's column sums, and the column sums of
  its squares, to two running rows kept in place across the points (zeroed at the first point, written back after the
  last).  So the first output ends as the whole pre-activation array, and the two rows as its column sums and the
  column sums of its squares over all 50000 rows.
-/
import proofs.«168245_j45801531245071_1_alg».proof.Proof.Stats0Pieces
import proofs.«168245_j45801531245071_1_alg».proof.Proof.StatsMath

set_option maxRecDepth 16384

noncomputable section

open Idealize.ShloMosaic Idealize.ShloMosaic.TcCoe Idealize.SL.Sem Idealize.ShloMosaic.ValueIdx Cert.Blocks
open Idealize.ShloMosaic.Pipeline (Dat)

namespace Cert.KernelIdeal.Stats0

open Cert.KernelIdeal Cert.KernelIdeal.Gen Cert.KernelIdeal.StatsValue Cert.KernelIdeal.Facts₀

/-! ## The body's value terms on a row block -/

theorem dot_plain : dot_S2000x128_S128x128_S2000x128_1_0_0_1_n_n = DotDims.plain 2000 128 128 := rfl

/-- the block of pre-activations computed from row blocks of A and X is the row block of the whole pre-activation -/
theorem pay4_rowBlk (o : Nat) (h : o + 2000 ≤ 50000) (A X : FVec Ideal S50000x128 .f32) (W1 : FVec Ideal S128x128 .f32)
    (B : FVec Ideal S1x128 .f32) (W2 : FVec Ideal S128x128 .f32) :
    k0_pay4 (F := Ideal) (rowBlk o h A) (rowBlk o h X) W1 W2 B = rowBlk o h (preK A X W1 B W2) := by
  have e1 := matmul_rowBlk (φ₁ := .bf16) (φ₂ := .bf16) o h dot_S2000x128_S128x128_S2000x128_1_0_0_1_n_n dot_plain (DotDims.plain 50000 128 128) rfl A W1
  have e2 := matmul_rowBlk (φ₁ := .bf16) (φ₂ := .bf16) o h dot_S2000x128_S128x128_S2000x128_1_0_0_1_n_n dot_plain (DotDims.plain 50000 128 128) rfl X W2
  have e3 := rowStretch_rowBlk o h B Facts₀.broadcasts_S1x128_S2000x128 bRN
  unfold k0_pay4 preK
  simp only [shapeCast_self]
  exact (congrArg₂ addf (congrArg₂ addf e1 e3) e2)

/-- one accumulation step of the column sums, and of the column sums of squares -/
theorem pay5_eq (x0 x1 : Vec Ideal S2000x128 .f32) (x2 x4 : Vec Ideal S128x128 .f32) (x3 xo : Vec Ideal S1x128 .f32) :
    k0_pay5 (F := Ideal) x0 x1 x2 x4 x3 xo = addf xo (blkSums (k0_pay4 x0 x1 x2 x4 x3)) := by
  unfold k0_pay5 blkSums
  simp only [shapeCast_self]
theorem pay1_eq (x0 x1 : Vec Ideal S2000x128 .f32) (x2 x4 : Vec Ideal S128x128 .f32) (x3 xo : Vec Ideal S1x128 .f32) :
    k0_pay1 (F := Ideal) (k0_pay6 xo) (k0_pay7 x0 x1 x2 x4 x3)
      = addf xo (blkSums (mulf (k0_pay4 x0 x1 x2 x4 x3) (k0_pay4 x0 x1 x2 x4 x3))) := by
  unfold k0_pay1 k0_pay6 k0_pay7 blkSums
  simp only [shapeCast_self]

/-! ## The windows' blocks, read off their arrays -/

theorem lt25 (t : Fin cfg0.N) : t.val < 25 := t.isLt.trans_eq N_0

/-- the printed index maps, decided over the grid: the row-blocked windows move with the point, the others stay -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

variable (V : (c : Dev nD) → (b : Ref sig .tc) → Buf (Elt Ideal) ((c : Thread nD τ).loc b)) (c : Dev nD)

theorem blk0 (t : Fin cfg0.N) :
    iblk0 (F := Ideal) V c 0 t = rowBlk (R := 2000) (N := 50000) (C := 128) (2000 * t.val) (by have := lt25 t; omega) (V c (Pipeline.arrRef spec0 0)) := by
  obtain ⟨e00, e01, e10, e11, e20, e21, e30, e31, e40, e41, e50, e51, e60, e61, e70, e71⟩ := idx_facts t
  funext y
  show V c (Pipeline.arrRef spec0 0) (((cfg0.win 0).blk t).view.emb y) = V c (Pipeline.arrRef spec0 0) (shiftRow (2000 * t.val) _ y)
  refine congrArg _ (funext fun a => Fin.ext ?_)
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

theorem blk1 (t : Fin cfg0.N) :
    iblk0 (F := Ideal) V c 1 t = rowBlk (R := 2000) (N := 50000) (C := 128) (2000 * t.val) (by have := lt25 t; omega) (V c (Pipeline.arrRef spec0 1)) := by
  obtain ⟨e00, e01, e10, e11, e20, e21, e30, e31, e40, e41, e50, e51, e60, e61, e70, e71⟩ := idx_facts t
  funext y
  show V c (Pipeline.arrRef spec0 1) (((cfg0.win 1).blk t).view.emb y) = V c (Pipeline.arrRef spec0 1) (shiftRow (2000 * t.val) _ y)
  refine congrArg _ (funext fun a => Fin.ext ?_)
  match a with
  | ⟨0, _⟩ => show win0_1.index t (0 : Fin 2) * 2000 + 1 * (y 0).val = 2000 * t.val + (y 0).val; omega
  | ⟨1, _⟩ => show win0_1.index t (1 : Fin 2) * 128 + 1 * (y 1).val = (y 1).val; omega

theorem blk2 (t : Fin cfg0.N) : iblk0 (F := Ideal) V c 2 t = (V c (Pipeline.arrRef spec0 2)) := by
  obtain ⟨e00, e01, e10, e11, e20, e21, e30, e31, e40, e41, e50, e51, e60, e61, e70, e71⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk3 (t : Fin cfg0.N) : iblk0 (F := Ideal) V c 3 t = (V c (Pipeline.arrRef spec0 3)) := by
  obtain ⟨e00, e01, e10, e11, e20, e21, e30, e31, e40, e41, e50, e51, e60, e61, e70, e71⟩ := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem blk4 (t : Fin cfg0.N) : iblk0 (F := Ideal) V c 4 t = (V c (Pipeline.arrRef spec0 4)) := by
  obtain ⟨e00, e01, e10, e11, e20, e21, e30, e31, e40, e41, e50, e51, e60, e61, e70, e71⟩ := idx_facts t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- the whole pre-activation array of the region's input arrays -/
abbrev HK : FVec Ideal S50000x128 .f32 := (preK (V c (Pipeline.arrRef spec0 0)) (V c (Pipeline.arrRef spec0 1)) (V c (Pipeline.arrRef spec0 2)) (V c (Pipeline.arrRef spec0 3)) (V c (Pipeline.arrRef spec0 4)))

/-! ## What the three outputs hold after each point -/

theorem outs_eq : ∀ (n : ℕ) (hn : n < cfg0.N),
    outsAt0 (F := Ideal) V c n hn
      = (blkOf (HK V c) n (lt25 ⟨n, hn⟩), partialSums (HK V c) n (lt25 ⟨n, hn⟩), partialSums (mulf (HK V c) (HK V c)) n (lt25 ⟨n, hn⟩))
  | 0, hn => by
    have hA := outsAt0_A (F := Ideal) V c ⟨0, hn⟩ rfl
    rw [blockA, sumA, sqA, pay5_eq, pay1_eq, blk0, blk1, blk2, blk3, blk4, pay4_rowBlk] at hA
    exact hA
  | n + 1, hn => by
    have hB : ¬(⟨n + 1, hn⟩ : Fin cfg0.N).val % 25 = 0 := by have := lt25 ⟨n + 1, hn⟩; dsimp only at this ⊢; omega
    have hB' := outsAt0_B (F := Ideal) V c ⟨n + 1, hn⟩ hB
    rw [blockB, sumB, sqB, pay5_eq, pay1_eq, blk0, blk1, blk2, blk3, blk4, pay4_rowBlk] at hB'
    have ih := outs_eq n (Nat.lt_of_succ_lt hn)
    have i1 : (outsAt0 (F := Ideal) V c n (Nat.lt_of_succ_lt hn)).2.1 = partialSums (HK V c) n (lt25 ⟨n, Nat.lt_of_succ_lt hn⟩) := congrArg (fun p => p.2.1) ih
    have i2 : (outsAt0 (F := Ideal) V c n (Nat.lt_of_succ_lt hn)).2.2 = partialSums (mulf (HK V c) (HK V c)) n (lt25 ⟨n, Nat.lt_of_succ_lt hn⟩) := congrArg (fun p => p.2.2) ih
    simp only [Nat.add_sub_cancel] at hB'
    rw [i1, i2] at hB'
    exact hB'

/-! ## The three arrays after the region -/

theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26_0).slice (win0_5.rect t)).set ↔ _
  rw [View.set_slice_whole, Rect.mem_set_unit]
  exact Iff.rfl

/-- point t writes back rows 2000·t … 2000·t + 1999 of the whole pre-activation array -/
theorem flushed5 (t : Fin cfg0.N) :
    (dat0 (F := Ideal) V c).flushed 5 t = ((cfg0.win 5).blk t).view.read (Elt Ideal) (HK V c) := by
  obtain ⟨e00, e01, e10, e11, e20, e21, e30, e31, e40, e41, e50, e51, e60, e61, e70, e71⟩ := idx_facts t
  show (cfg0.win 5).cut (grid0.coords t) ((dat0 (F := Ideal) V c).after 5 t) = _
  rw [after0_5, outs_eq V c t.val t.isLt]
  funext y
  show HK V c (shiftRow (2000 * t.val) _ y) = HK V c (((cfg0.win 5).blk t).view.emb y)
  refine congrArg _ (funext fun a => Fin.ext ?_)
  match a with
  | ⟨0, _⟩ => show 2000 * t.val + (y 0).val = win0_5.index t (0 : Fin 2) * 2000 + 1 * (y 0).val; omega
  | ⟨1, _⟩ => show (y 1).val = win0_5.index t (1 : Fin 2) * 128 + 1 * (y 1).val; omega

/-- the 25 row blocks tile the array: row r lies in block r / 2000 -/
theorem final5 : (dat0 (F := Ideal) V c).arrAt 5 cfg0.N = HK V c :=
  (dat0 (F := Ideal) V c).arrAt_eq_of_cover 5 (HK V c) (fun t _ => flushed5 V c t) fun i => by
    have hi0 : (i 0).val < 50000 := (i 0).isLt
    have hi1 : (i 1).val < 128 := (i 1).isLt
    have ht : (i 0).val / 2000 < cfg0.N := by rw [show cfg0.N = 25 from N_0]; omega
    refine ⟨⟨(i 0).val / 2000, ht⟩, flush0_5 _, ?_⟩
    obtain ⟨e00, e01, e10, e11, e20, e21, e30, e31, e40, e41, e50, e51, e60, e61, e70, e71⟩ := idx_facts (⟨(i 0).val / 2000, ht⟩ : Fin cfg0.N)
    dsimp only at e50 e51
    rw [mem_blk5]
    intro a
    match a with
    | ⟨0, _⟩ => show win0_5.index ⟨(i 0).val / 2000, ht⟩ (0 : Fin 2) * 2000 ≤ (i 0).val ∧ (i 0).val < win0_5.index ⟨(i 0).val / 2000, ht⟩ (0 : Fin 2) * 2000 + 2000; omega
    | ⟨1, _⟩ => show win0_5.index ⟨(i 0).val / 2000, ht⟩ (1 : Fin 2) * 128 ≤ (i 1).val ∧ (i 1).val < win0_5.index ⟨(i 0).val / 2000, ht⟩ (1 : Fin 2) * 128 + 128; omega

theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v26_1).slice (win0_6.rect t)).set ↔ _
  rw [View.set_slice_whole, Rect.mem_set_unit]
  exact Iff.rfl

/-- the one write-back of this running row, after the last point, writes the column sums over all rows -/
theorem flushed6 (t : Fin cfg0.N) (hf : (cfg0.win 6).flush t = true) :
    (dat0 (F := Ideal) V c).flushed 6 t = ((cfg0.win 6).blk t).view.read (Elt Ideal) (colSumRow (HK V c)) := by
  have h24 : t.val = 24 := by have := (flush0_6 t).mp hf; have := lt25 t; omega
  obtain ⟨e00, e01, e10, e11, e20, e21, e30, e31, e40, e41, e50, e51, e60, e61, e70, e71⟩ := idx_facts t
  obtain ⟨n, hn⟩ := t
  dsimp only at h24
  subst h24
  show (cfg0.win 6).cut (grid0.coords ⟨24, hn⟩) ((dat0 (F := Ideal) V c).after 6 ⟨24, hn⟩) = _
  rw [after0_6, outs_eq V c 24 hn, ← partialSums_last]
  funext y
  show partialSums (HK V c) 24 _ y = partialSums (HK V c) 24 _ (((cfg0.win 6).blk ⟨24, hn⟩).view.emb y)
  refine congrArg _ (funext fun a => Fin.ext ?_)
  match a with
  | ⟨0, _⟩ => show (y 0).val = win0_6.index ⟨24, hn⟩ (0 : Fin 2) * 1 + 1 * (y 0).val; omega
  | ⟨1, _⟩ => show (y 1).val = win0_6.index ⟨24, hn⟩ (1 : Fin 2) * 128 + 1 * (y 1).val; omega

theorem final6 : (dat0 (F := Ideal) V c).arrAt 6 cfg0.N = colSumRow (HK V c) :=
  (dat0 (F := Ideal) V c).arrAt_eq_of_cover 6 (colSumRow (HK V c)) (fun t hf => flushed6 V c t hf) fun i => by
    have h24 : 24 < cfg0.N := by rw [show cfg0.N = 25 from N_0]; decide
    refine ⟨⟨24, h24⟩, (flush0_6 _).mpr rfl, ?_⟩
    obtain ⟨e00, e01, e10, e11, e20, e21, e30, e31, e40, e41, e50, e51, e60, e61, e70, e71⟩ := idx_facts (⟨24, h24⟩ : Fin cfg0.N)
    rw [mem_blk6]
    intro a
    have hi0 : (i 0).val < 1 := (i 0).isLt
    have hi1 : (i 1).val < 128 := (i 1).isLt
    match a with
    | ⟨0, _⟩ => show win0_6.index ⟨24, h24⟩ (0 : Fin 2) * 1 ≤ (i 0).val ∧ (i 0).val < win0_6.index ⟨24, h24⟩ (0 : Fin 2) * 1 + 1; omega
    | ⟨1, _⟩ => show win0_6.index ⟨24, h24⟩ (1 : Fin 2) * 128 ≤ (i 1).val ∧ (i 1).val < win0_6.index ⟨24, h24⟩ (1 : Fin 2) * 128 + 128; omega

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v26_2).slice (win0_7.rect t)).set ↔ _
  rw [View.set_slice_whole, Rect.mem_set_unit]
  exact Iff.rfl

/-- the one write-back of this running row, after the last point, writes the column sums over all rows -/
theorem flushed7 (t : Fin cfg0.N) (hf : (cfg0.win 7).flush t = true) :
    (dat0 (F := Ideal) V c).flushed 7 t = ((cfg0.win 7).blk t).view.read (Elt Ideal) (colSumRow (mulf (HK V c) (HK V c))) := by
  have h24 : t.val = 24 := by have := (flush0_7 t).mp hf; have := lt25 t; omega
  obtain ⟨e00, e01, e10, e11, e20, e21, e30, e31, e40, e41, e50, e51, e60, e61, e70, e71⟩ := idx_facts t
  obtain ⟨n, hn⟩ := t
  dsimp only at h24
  subst h24
  show (cfg0.win 7).cut (grid0.coords ⟨24, hn⟩) ((dat0 (F := Ideal) V c).after 7 ⟨24, hn⟩) = _
  rw [after0_7, outs_eq V c 24 hn, ← partialSums_last]
  funext y
  show partialSums (mulf (HK V c) (HK V c)) 24 _ y = partialSums (mulf (HK V c) (HK V c)) 24 _ (((cfg0.win 7).blk ⟨24, hn⟩).view.emb y)
  refine congrArg _ (funext fun a => Fin.ext ?_)
  match a with
  | ⟨0, _⟩ => show (y 0).val = win0_7.index ⟨24, hn⟩ (0 : Fin 2) * 1 + 1 * (y 0).val; omega
  | ⟨1, _⟩ => show (y 1).val = win0_7.index ⟨24, hn⟩ (1 : Fin 2) * 128 + 1 * (y 1).val; omega

theorem final7 : (dat0 (F := Ideal) V c).arrAt 7 cfg0.N = colSumRow (mulf (HK V c) (HK V c)) :=
  (dat0 (F := Ideal) V c).arrAt_eq_of_cover 7 (colSumRow (mulf (HK V c) (HK V c))) (fun t hf => flushed7 V c t hf) fun i => by
    have h24 : 24 < cfg0.N := by rw [show cfg0.N = 25 from N_0]; decide
    refine ⟨⟨24, h24⟩, (flush0_7 _).mpr rfl, ?_⟩
    obtain ⟨e00, e01, e10, e11, e20, e21, e30, e31, e40, e41, e50, e51, e60, e61, e70, e71⟩ := idx_facts (⟨24, h24⟩ : Fin cfg0.N)
    rw [mem_blk7]
    intro a
    have hi0 : (i 0).val < 1 := (i 0).isLt
    have hi1 : (i 1).val < 128 := (i 1).isLt
    match a with
    | ⟨0, _⟩ => show win0_7.index ⟨24, h24⟩ (0 : Fin 2) * 1 ≤ (i 0).val ∧ (i 0).val < win0_7.index ⟨24, h24⟩ (0 : Fin 2) * 1 + 1; omega
    | ⟨1, _⟩ => show win0_7.index ⟨24, h24⟩ (1 : Fin 2) * 128 ≤ (i 1).val ∧ (i 1).val < win0_7.index ⟨24, h24⟩ (1 : Fin 2) * 128 + 128; omega

end Cert.KernelIdeal.Stats0

end
-- ==== Proof.KHost1.lean ====
/-
  The host operations between the first and the second kernel region, read from any buffer contents.

  From the two rows a region leaves, the column sums S and the column sums of squares Q, the operations form the
  mean row S / n, the row Q / n less the squared mean row, and the two parameter vectors as rows; n is the node
  count 50000.  Every other buffer keeps its contents.
-/
import proofs.«168245_j45801531245071_1_alg».proof.Proof.Gen.KernelIdeal.Frame
import Idealize.ShloMosaic.Lib.StableHlo.Run
import Idealize.ShloMosaic.Lib.Tactic

noncomputable section

namespace Cert.KernelIdeal.HostRead

open Idealize.ShloMosaic Idealize.SL.Sem Cert.KernelIdeal Cert.KernelIdeal.Gen Cert.KernelIdeal.Facts₀

variable {F : FTy → Type} [FloatOps F]

/-- the node count as a row -/
def nRow : FVec F S1x128 .f32 :=
  broadcastInDim S1x128 ![] Facts₀.bcast_S_S1x128 (constant (F := F) S_ .f32 0x47435000#32)
/-- a column-sum row over the node count -/
def meanRow (S : FVec F S1x128 .f32) : FVec F S1x128 .f32 := Host.divf S (nRow (F := F))
/-- the second-moment row over the node count, less the squared mean row -/
def varRow (S Q : FVec F S1x128 .f32) : FVec F S1x128 .f32 :=
  subf (Host.divf Q (nRow (F := F))) (mulf (meanRow S) (meanRow S))
/-- a vector as a row -/
def rowOf (v : FVec F S128 .f32) : FVec F S1x128 .f32 := shapeCast S1x128 v Facts₀.shapeCasts_S128_S1x128

variable (W : Valuation τ sig (Elt F))

theorem h1_v28 : StableHlo.after hostOps1 W (Proc.devRef .tc main_v28)
    = meanRow (W (Proc.devRef .tc main_v26_1)) := by
  dsimp only [hostOps1]
  after_results_simp
  rfl

theorem h1_v32 : StableHlo.after hostOps1 W (Proc.devRef .tc main_v32)
    = varRow (W (Proc.devRef .tc main_v26_1)) (W (Proc.devRef .tc main_v26_2)) := by
  dsimp only [hostOps1]
  after_results_simp
  rfl

theorem h1_v33 : StableHlo.after hostOps1 W (Proc.devRef .tc main_v33)
    = rowOf (W (Proc.devRef .tc main_arg5)) := by
  dsimp only [hostOps1]
  after_results_simp
  rfl

theorem h1_v34 : StableHlo.after hostOps1 W (Proc.devRef .tc main_v34)
    = rowOf (W (Proc.devRef .tc main_arg6)) := by
  dsimp only [hostOps1]
  after_results_simp
  rfl

theorem h1_keep_v26_0 : StableHlo.after hostOps1 W (Proc.devRef .tc main_v26_0) = W (Proc.devRef .tc main_v26_0) := by
  dsimp only [hostOps1]
  after_results_simp

theorem h1_keep_arg7 : StableHlo.after hostOps1 W (Proc.devRef .tc main_arg7) = W (Proc.devRef .tc main_arg7) := by
  dsimp only [hostOps1]
  after_results_simp

theorem h1_keep_arg8 : StableHlo.after hostOps1 W (Proc.devRef .tc main_arg8) = W (Proc.devRef .tc main_arg8) := by
  dsimp only [hostOps1]
  after_results_simp

theorem h1_keep_arg9 : StableHlo.after hostOps1 W (Proc.devRef .tc main_arg9) = W (Proc.devRef .tc main_arg9) := by
  dsimp only [hostOps1]
  after_results_simp

theorem h1_keep_arg10 : StableHlo.after hostOps1 W (Proc.devRef .tc main_arg10) = W (Proc.devRef .tc main_arg10) := by
  dsimp only [hostOps1]
  after_results_simp

theorem h1_keep_arg11 : StableHlo.after hostOps1 W (Proc.devRef .tc main_arg11) = W (Proc.devRef .tc main_arg11) := by
  dsimp only [hostOps1]
  after_results_simp

theorem h1_keep_v1 : StableHlo.after hostOps1 W (Proc.devRef .tc main_v1) = W (Proc.devRef .tc main_v1) := by
  dsimp only [hostOps1]
  after_results_simp

theorem h1_keep_v3 : StableHlo.after hostOps1 W (Proc.devRef .tc main_v3) = W (Proc.devRef .tc main_v3) := by
  dsimp only [hostOps1]
  after_results_simp

theorem h1_keep_v10 : StableHlo.after hostOps1 W (Proc.devRef .tc main_v10) = W (Proc.devRef .tc main_v10) := by
  dsimp only [hostOps1]
  after_results_simp

end Cert.KernelIdeal.HostRead
end
-- ==== Proof.AggDef.lean ====
/-
  The neighbourhood mean of a graph layer, as one function of the node features and the two edge-index vectors:
  rows gathered at the (wrapped) source indices, summed into their target rows, and divided row by row by the
  target's in-degree, floored at one.  Both programs compute it by the same host operations; it is stated once,
  at any float type, so that neither side has to open it to be compared with the other.
-/
import Idealize.ShloMosaic.PureOps.Ideal.Laws
import Idealize.ShloMosaic.Lib.ValueIdx

noncomputable section

namespace Cert.Sage

open Idealize.ShloMosaic

/-- node features, edge vectors, and their column / stretched forms -/
abbrev SN : Shape := ⟨2, ![50000, 128]⟩
abbrev SNv : Shape := ⟨1, ![50000]⟩
abbrev SN1 : Shape := ⟨2, ![50000, 1]⟩
abbrev SE : Shape := ⟨1, ![1600000]⟩
abbrev SE1 : Shape := ⟨2, ![1600000, 1]⟩
abbrev SED : Shape := ⟨2, ![1600000, 128]⟩
abbrev S0 : Shape := ⟨0, ![]⟩

theorem b0E : S0.BroadcastsInDim SE (![] : Fin 0 → Fin SE.rank) := by decide
theorem bEE1 : SE.BroadcastsInDim SE1 (![0] : Fin 1 → Fin SE1.rank) := by decide
theorem b0N : S0.BroadcastsInDim SN (![] : Fin 0 → Fin SN.rank) := by decide
theorem b0Nv : S0.BroadcastsInDim SNv (![] : Fin 0 → Fin SNv.rank) := by decide
theorem bNvN1 : SNv.BroadcastsInDim SN1 (![0] : Fin 1 → Fin SN1.rank) := by decide
theorem bN1N : SN1.BroadcastsInDim SN (![0, 1] : Fin 2 → Fin SN.rank) := by decide

/-- whole rows taken at an index column -/
def gatherRows : GatherDims SN SE1 SED where
  offsetDims := [1]
  collapsedSliceDims := [0]
  operandBatchingDims := []
  startIndicesBatchingDims := []
  startIndexMap := [0]
  indexVectorDim := 1
  sliceSizes := ![1, 128]
  wf := by decide
/-- whole rows added at an index column -/
def scatterRows : ScatterDims SN SE1 SED where
  updateWindowDims := [1]
  insertedWindowDims := [0]
  scatterDimsToOperandDims := [0]
  indexVectorDim := 1
  wf := by decide
/-- scalars added at an index column -/
def scatterVec : ScatterDims SNv SE1 SE where
  updateWindowDims := []
  insertedWindowDims := [0]
  scatterDimsToOperandDims := [0]
  indexVectorDim := 1
  wf := by decide

variable {F : FTy → Type} [FloatOps F]

/-- the source indices, a negative one counted from the end, as a column -/
def srcCol (src : IVec SE 32) : IVec SE1 32 :=
  broadcastInDim SE1 ![0] bEE1
    (select (cmpi .slt src (broadcastInDim SE ![] b0E (constantI S0 32 0#32)))
      (addi src (broadcastInDim SE ![] b0E (constantI S0 32 50000#32))) src)

/-- the target indices as a column -/
def dstCol (dst : IVec SE 32) : IVec SE1 32 := broadcastInDim SE1 ![0] bEE1 dst

/-- the in-degree of every node, floored at one -/
def degVec (dst : IVec SE 32) : FVec F SNv .f32 :=
  maximumf
    (Host.scatterAdd scatterVec (broadcastInDim SNv ![] b0Nv (constant (F := F) S0 .f32 0x00000000#32)) (dstCol dst)
      (broadcastInDim SE ![] b0E (constant (F := F) S0 .f32 0x3F800000#32)))
    (broadcastInDim SNv ![] b0Nv (constant (F := F) S0 .f32 0x3F800000#32))

/-- the same as a column, and stretched over the features -/
def degCol (dst : IVec SE 32) : FVec F SN1 .f32 := broadcastInDim SN1 ![0] bNvN1 (degVec (F := F) dst)
def degMat (dst : IVec SE 32) : FVec F SN .f32 := broadcastInDim SN ![0, 1] bN1N (degCol (F := F) dst)

/-- the summed neighbour rows -/
def aggSum (x : FVec F SN .f32) (src dst : IVec SE 32) : FVec F SN .f32 :=
  Host.scatterAdd scatterRows (broadcastInDim SN ![] b0N (constant (F := F) S0 .f32 0x00000000#32)) (dstCol dst)
    (Host.gather gatherRows x (srcCol src))

/-- the neighbourhood mean -/
def agg (x : FVec F SN .f32) (src dst : IVec SE 32) : FVec F SN .f32 :=
  Host.divf (aggSum x src dst) (degMat (F := F) dst)

end Cert.Sage

end
-- ==== Proof.KHost0.lean ====
/-
  What the first stretch of host operations of the kernel program leaves, read from any contents of the buffers,
  at any float type: the two rows of the edge index as vectors, the in-degree column, the neighbourhood mean of the
  node features, the two transposed weights and the bias as a row; and the buffers the stretch does not write.
-/
import proofs.«168245_j45801531245071_1_alg».proof.Proof.Gen.KernelIdeal.Frame
import proofs.«168245_j45801531245071_1_alg».proof.Proof.KHost1
import proofs.«168245_j45801531245071_1_alg».proof.Proof.AggDef
import Idealize.ShloMosaic.Lib.StableHlo.Run
import Idealize.ShloMosaic.Lib.Tactic

noncomputable section

namespace Cert.KernelIdeal.HostRead

open Idealize.ShloMosaic Idealize.ShloMosaic.TcCoe Idealize.SL.Sem Idealize.ShloMosaic.StableHlo
open Cert.KernelIdeal Cert.KernelIdeal.Gen

variable {F : FTy → Type} [FloatOps F]

attribute [local irreducible] Host.scatterAdd Host.gather

/-- whole rows taken, rows added, scalars added: the program's index records are the ones the neighbourhood mean is
    stated over -/
theorem gatherRows_eq : gather_S50000x128_S1600000x1_S1600000x128_1_0_n_n_0_1_1128 = Cert.Sage.gatherRows := rfl
theorem scatterRows_eq : scatter_S50000x128_S1600000x1_S1600000x128_1_0_0_1 = Cert.Sage.scatterRows := rfl
theorem scatterVec_eq : scatter_S50000_S1600000x1_S1600000_n_0_0_1 = Cert.Sage.scatterVec := rfl

/-- the two rows of the edge index as vectors -/
def srcOfK (e : IVec S2x1600000 32) : IVec S1600000 32 :=
  shapeCast S1600000 (extractStridedSlice S1x1600000 ![0, 0] e Facts₀.slices_S2x1600000_S1x1600000_0_0) Facts₀.shapeCasts_S1x1600000_S1600000
def dstOfK (e : IVec S2x1600000 32) : IVec S1600000 32 :=
  shapeCast S1600000 (extractStridedSlice S1x1600000 ![1, 0] e Facts₀.slices_S2x1600000_S1x1600000_1_0) Facts₀.shapeCasts_S1x1600000_S1600000

/-- a square matrix transposed -/
def tr (w : FVec F S128x128 .f32) : FVec F S128x128 .f32 := transpose S128x128 [1, 0] w Facts₀.transposes_S128x128_S128x128_1_0

variable (W : Valuation τ sig (Elt F))

/-- the first row of the edge index as a vector -/
theorem h0_v1 : after hostOps0 W (Proc.devRef .tc main_v1) = srcOfK (W (Proc.devRef .tc main_arg1)) := by
  dsimp only [hostOps0]; after_results_simp; rfl

/-- the second row of the edge index as a vector -/
theorem h0_v3 : after hostOps0 W (Proc.devRef .tc main_v3) = dstOfK (W (Proc.devRef .tc main_arg1)) := by
  dsimp only [hostOps0]; after_results_simp; rfl

/-- the in-degree floored at one, as a column -/
theorem h0_v10 : after hostOps0 W (Proc.devRef .tc main_v10) = Cert.Sage.degCol (F := F) (dstOfK (W (Proc.devRef .tc main_arg1))) := by
  dsimp only [hostOps0]; after_results_simp; rfl

/-- the neighbourhood mean of the node features -/
theorem h0_v22 : after hostOps0 W (Proc.devRef .tc main_v22)
    = Cert.Sage.agg (W (Proc.devRef .tc main_arg0)) (srcOfK (W (Proc.devRef .tc main_arg1))) (dstOfK (W (Proc.devRef .tc main_arg1))) := by
  dsimp only [hostOps0]; after_results_simp; rfl

/-- the two weights transposed and the bias as a row -/
theorem h0_v23 : after hostOps0 W (Proc.devRef .tc main_v23) = tr (W (Proc.devRef .tc main_arg2)) := by
  dsimp only [hostOps0]; after_results_simp; rfl
theorem h0_v24 : after hostOps0 W (Proc.devRef .tc main_v24) = tr (W (Proc.devRef .tc main_arg4)) := by
  dsimp only [hostOps0]; after_results_simp; rfl
theorem h0_v25 : after hostOps0 W (Proc.devRef .tc main_v25) = rowOf (W (Proc.devRef .tc main_arg3)) := by
  dsimp only [hostOps0]; after_results_simp; rfl

/-! the buffers the stretch does not write -/
theorem h0_keep_main_arg0 : after hostOps0 W (Proc.devRef .tc main_arg0) = W (Proc.devRef .tc main_arg0) := by
  dsimp only [hostOps0]; after_results_simp
theorem h0_keep_main_arg5 : after hostOps0 W (Proc.devRef .tc main_arg5) = W (Proc.devRef .tc main_arg5) := by
  dsimp only [hostOps0]; after_results_simp
theorem h0_keep_main_arg6 : after hostOps0 W (Proc.devRef .tc main_arg6) = W (Proc.devRef .tc main_arg6) := by
  dsimp only [hostOps0]; after_results_simp
theorem h0_keep_main_arg7 : after hostOps0 W (Proc.devRef .tc main_arg7) = W (Proc.devRef .tc main_arg7) := by
  dsimp only [hostOps0]; after_results_simp
theorem h0_keep_main_arg8 : after hostOps0 W (Proc.devRef .tc main_arg8) = W (Proc.devRef .tc main_arg8) := by
  dsimp only [hostOps0]; after_results_simp
theorem h0_keep_main_arg9 : after hostOps0 W (Proc.devRef .tc main_arg9) = W (Proc.devRef .tc main_arg9) := by
  dsimp only [hostOps0]; after_results_simp
theorem h0_keep_main_arg10 : after hostOps0 W (Proc.devRef .tc main_arg10) = W (Proc.devRef .tc main_arg10) := by
  dsimp only [hostOps0]; after_results_simp
theorem h0_keep_main_arg11 : after hostOps0 W (Proc.devRef .tc main_arg11) = W (Proc.devRef .tc main_arg11) := by
  dsimp only [hostOps0]; after_results_simp

end Cert.KernelIdeal.HostRead

end
-- ==== Proof.BnBlock.lean ====
/-
  Normalise, scale, shift and rectify: on the whole array and on a block of consecutive rows.

  For an array H of 50000 rows and 128 columns and four rows of 128 entries — a mean M, a variance Vr, a scale G and a
  shift B — the whole-array form is max (((H − M) · rsqrt (Vr + ε)) · G + B, 0), each row stretched over all the rows
  of H.  The same tree on a block of 2000 consecutive rows of H, each row stretched down the 2000 rows, is the block
  of the whole-array form: every operation acts entry by entry, and a stretched row has the same entries in every row.
-/
import proofs.«168245_j45801531245071_1_alg».proof.KernelIdeal
import proofs.«168245_j45801531245071_1_alg».proof.Proof.Gen.KernelIdeal
import proofs.«168245_j45801531245071_1_alg».proof.Proof.LibRowStretch
import Idealize.ShloMosaic.PureOps.Ideal.Laws
import Idealize.ShloMosaic.Lib.ValueIdx

noncomputable section

namespace Cert.KernelIdeal.BnValue

open Idealize.ShloMosaic Idealize.ShloMosaic.ValueIdx Cert.KernelIdeal Cert.Blocks Cert.Bridge

/-- A row stretches over all the rows of the array, and a scalar over all its entries. -/
theorem bRN : S1x128.BroadcastsInDim S50000x128 (![0, 1] : Fin 2 → Fin S50000x128.rank) := by decide
theorem b0N : S_.BroadcastsInDim S50000x128 (![] : Fin 0 → Fin S50000x128.rank) := by decide

/-- The whole-array form: H less the mean row, times rsqrt (variance row + ε), times the scale row, plus the shift
    row, maximum with zero. -/
def bnWhole (H : FVec Ideal S50000x128 .f32) (M Vr G B : FVec Ideal S1x128 .f32) : FVec Ideal S50000x128 .f32 :=
  maximumf
    (addf (mulf (mulf (subf H (broadcastInDim S50000x128 ![0, 1] bRN M))
                      (broadcastInDim S50000x128 ![0, 1] bRN (rsqrt (addf Vr (broadcast S1x128 (Scalar.ofBits (F := Ideal) .f32 0x3727C5AC#32))))))
                (broadcastInDim S50000x128 ![0, 1] bRN G))
          (broadcastInDim S50000x128 ![0, 1] bRN B))
    (broadcastInDim S50000x128 ![] b0N (constant (F := Ideal) S_ .f32 0x00000000#32))

/-- The same tree on a block of 2000 rows, each row stretched down the block. -/
def bnBody (hb : S1x128.Broadcasts S2000x128) (X : FVec Ideal S2000x128 .f32) (M Vr G B : FVec Ideal S1x128 .f32) :
    FVec Ideal S2000x128 .f32 :=
  maximumf
    (addf (mulf (mulf (subf X (broadcastTo S2000x128 M hb))
                      (broadcastTo S2000x128 (rsqrt (addf Vr (broadcast S1x128 (Scalar.ofBits (F := Ideal) .f32 0x3727C5AC#32)))) hb))
                (broadcastTo S2000x128 G hb))
          (broadcastTo S2000x128 B hb))
    (broadcast S2000x128 (Scalar.ofBits (F := Ideal) .f32 0x00000000#32))

/-- The tree on the block of 2000 rows of H that starts at row o is that block of the whole-array form. -/
theorem bnBody_rowBlk (hb : S1x128.Broadcasts S2000x128) (o : Nat) (h : o + 2000 ≤ 50000)
    (H : FVec Ideal S50000x128 .f32) (M Vr G B : FVec Ideal S1x128 .f32) :
    bnBody hb (rowBlk (R := 2000) (N := 50000) (C := 128) o h H) M Vr G B
      = rowBlk (R := 2000) (N := 50000) (C := 128) o h (bnWhole H M Vr G B) := by
  unfold bnBody bnWhole
  rw [rowStretch_rowBlk o h M hb bRN, rowStretch_rowBlk o h _ hb bRN, rowStretch_rowBlk o h G hb bRN,
    rowStretch_rowBlk o h B hb bRN, splat_rowBlk o h _ b0N]
  rfl

/-- The row of a one-row matrix under entry (r, c) is entry (0, c). -/
theorem rowZero_ix2 (r : Fin 50000) (c : Fin 128) :
    (rowZero (ix2 r c : S50000x128.Idx) : S1x128.Idx) = ix2 (0 : Fin 1) c :=
  funext fun a => Fin.ext (by match a with | ⟨0, _⟩ => rfl | ⟨1, _⟩ => rfl)

/-- The whole-array form at an entry. -/
theorem bnWhole_apply (H : FVec Ideal S50000x128 .f32) (M Vr G B : FVec Ideal S1x128 .f32) (r : Fin 50000) (c : Fin 128) :
    bnWhole H M Vr G B (ix2 r c)
      = max (((H (ix2 r c) - M (ix2 0 c)) * Ideal.rsqrt (Vr (ix2 0 c) + Ideal.ofBits .f32 0x3727C5AC#32)) * G (ix2 0 c) + B (ix2 0 c)) 0 := by
  unfold bnWhole
  show max (((H (ix2 r c) - broadcastInDim S50000x128 ![0, 1] bRN M (ix2 r c))
        * broadcastInDim S50000x128 ![0, 1] bRN (rsqrt (addf Vr (broadcast S1x128 (Scalar.ofBits (F := Ideal) .f32 0x3727C5AC#32)))) (ix2 r c))
        * broadcastInDim S50000x128 ![0, 1] bRN G (ix2 r c) + broadcastInDim S50000x128 ![0, 1] bRN B (ix2 r c))
      (broadcastInDim S50000x128 ![] b0N (constant (F := Ideal) S_ .f32 0x00000000#32) (ix2 r c)) = _
  rw [hostStretchRow_apply M bRN, hostStretchRow_apply _ bRN, hostStretchRow_apply G bRN, hostStretchRow_apply B bRN,
    hostSplat_apply _ b0N, rowZero_ix2]
  show max (((H (ix2 r c) - M (ix2 0 c)) * Ideal.rsqrt (Vr (ix2 0 c) + Ideal.ofBits .f32 0x3727C5AC#32)) * G (ix2 0 c) + B (ix2 0 c))
      (Ideal.ofBits .f32 0x00000000#32) = _
  rw [Ideal.ofBits_zero_f32]

end Cert.KernelIdeal.BnValue

end
-- ==== Proof.KLayer.lean ====
/-
  One graph layer as the kernel program computes it, as one function of the node features, the two edge-index
  vectors and the layer's parameters: H = agg·Wlᵀ + (bias row on every row) + x·Wrᵀ; the mean row is H's column sums
  over the node count, the variance row H²'s column sums over the count less the squared mean row; the result is
  max((H − mean)·rsqrt(variance + ε)·scale + shift, 0).  The kernel program applies it twice.
-/
import proofs.«168245_j45801531245071_1_alg».proof.Proof.StatsMath
import proofs.«168245_j45801531245071_1_alg».proof.Proof.BnBlock
import proofs.«168245_j45801531245071_1_alg».proof.Proof.KHost1
import proofs.«168245_j45801531245071_1_alg».proof.Proof.AggDef

noncomputable section

namespace Cert.KernelIdeal.Layer

open Idealize.ShloMosaic Cert.KernelIdeal Cert.KernelIdeal.StatsValue Cert.KernelIdeal.BnValue Cert.KernelIdeal.HostRead

/-- a weight matrix transposed, as the host does it before the kernel -/
abbrev trK (w : FVec Ideal S128x128 .f32) : FVec Ideal S128x128 .f32 :=
  transpose S128x128 [1, 0] w Facts₀.transposes_S128x128_S128x128_1_0

/-- the pre-activation of a layer -/
def hK (x : FVec Ideal S50000x128 .f32) (src dst : IVec S1600000 32) (Wl : FVec Ideal S128x128 .f32) (bl : FVec Ideal S128 .f32)
    (Wr : FVec Ideal S128x128 .f32) : FVec Ideal S50000x128 .f32 :=
  preK (Cert.Sage.agg (F := Ideal) x src dst) x (trK Wl) (rowOf bl) (trK Wr)

/-- the layer -/
def kLayer (x : FVec Ideal S50000x128 .f32) (src dst : IVec S1600000 32) (Wl : FVec Ideal S128x128 .f32) (bl : FVec Ideal S128 .f32)
    (Wr : FVec Ideal S128x128 .f32) (g be : FVec Ideal S128 .f32) : FVec Ideal S50000x128 .f32 :=
  bnWhole (hK x src dst Wl bl Wr) (meanRow (colSumRow (hK x src dst Wl bl Wr)))
    (varRow (colSumRow (hK x src dst Wl bl Wr)) (colSumRow (mulf (hK x src dst Wl bl Wr) (hK x src dst Wl bl Wr))))
    (rowOf g) (rowOf be)

end Cert.KernelIdeal.Layer

end
-- ==== Proof.KChain0.lean ====
/-
  The kernel program's buffers after its first host stretch and after its first kernel region, as terms of the
  arguments' launch contents: the neighbourhood mean, the transposed weights and the bias row; then the first layer's
  pre-activation H, its column sums and the column sums of its square, and the buffers the region leaves alone.
-/
import proofs.«168245_j45801531245071_1_alg».proof.Proof.Gen.KernelIdeal.Frame
import proofs.«168245_j45801531245071_1_alg».proof.Proof.Stats0Value
import proofs.«168245_j45801531245071_1_alg».proof.Proof.KHost0
import proofs.«168245_j45801531245071_1_alg».proof.Proof.KLayer

noncomputable section

namespace Cert.KernelIdeal.Chain

open Idealize.ShloMosaic Idealize.ShloMosaic.TcCoe Idealize.SL.Sem Cert.KernelIdeal Cert.KernelIdeal.Gen Cert.KernelIdeal.HostRead
open Cert.KernelIdeal.Layer Cert.KernelIdeal.StatsValue Cert.KernelIdeal.BnValue

variable (m : (ℓ : Loc nD τ sig) → Buf (Elt Ideal) ℓ) (ρ : Dev nD → PrngReg) (c : Dev nD)

/-- the pre-activation of a layer, spelled out -/
theorem hK_eq (x : FVec Ideal S50000x128 .f32) (src dst : IVec S1600000 32) (Wl : FVec Ideal S128x128 .f32) (bl : FVec Ideal S128 .f32)
    (Wr : FVec Ideal S128x128 .f32) :
    hK x src dst Wl bl Wr = preK (Cert.Sage.agg (F := Ideal) x src dst) x (tr (F := Ideal) Wl) (rowOf (F := Ideal) bl) (tr (F := Ideal) Wr) := rfl

/-! after the first host stretch -/

theorem W1_v22 : W1 m ρ c (Proc.devRef .tc main_v22) = Cert.Sage.agg (F := Ideal) (m ((c : Thread nD τ).loc main_arg0)) (srcOfK (m ((c : Thread nD τ).loc main_arg1))) (dstOfK (m ((c : Thread nD τ).loc main_arg1))) := h0_v22 (W0 m ρ c)
theorem W1_arg0 : W1 m ρ c (Proc.devRef .tc main_arg0) = (m ((c : Thread nD τ).loc main_arg0)) := h0_keep_main_arg0 (W0 m ρ c)
theorem W1_v23 : W1 m ρ c (Proc.devRef .tc main_v23) = tr (F := Ideal) (m ((c : Thread nD τ).loc main_arg2)) := h0_v23 (W0 m ρ c)
theorem W1_v25 : W1 m ρ c (Proc.devRef .tc main_v25) = rowOf (F := Ideal) (m ((c : Thread nD τ).loc main_arg3)) := h0_v25 (W0 m ρ c)
theorem W1_v24 : W1 m ρ c (Proc.devRef .tc main_v24) = tr (F := Ideal) (m ((c : Thread nD τ).loc main_arg4)) := h0_v24 (W0 m ρ c)

/-- the first region's pre-activation is the first layer's -/
theorem HK0_eq : Stats0.HK (V1 m ρ) c = (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4))) := by
  show preK (W1 m ρ c (Proc.devRef .tc main_v22)) (W1 m ρ c (Proc.devRef .tc main_arg0)) (W1 m ρ c (Proc.devRef .tc main_v23))
      (W1 m ρ c (Proc.devRef .tc main_v25)) (W1 m ρ c (Proc.devRef .tc main_v24)) = _
  rw [W1_v22, W1_arg0, W1_v23, W1_v25, W1_v24, hK_eq]

/-! after the first region -/

theorem W2_v26_0 : W2 m ρ c (Proc.devRef .tc main_v26_0) = (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4))) :=
  (W2_arr m ρ c 5).trans ((Stats0.final5 (V1 m ρ) c).trans (HK0_eq m ρ c))
theorem W2_v26_1 : W2 m ρ c (Proc.devRef .tc main_v26_1) = colSumRow (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4))) :=
  (W2_arr m ρ c 6).trans ((Stats0.final6 (V1 m ρ) c).trans (congrArg colSumRow (HK0_eq m ρ c)))
theorem W2_v26_2 : W2 m ρ c (Proc.devRef .tc main_v26_2) = colSumRow (mulf (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4))) (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)))) :=
  (W2_arr m ρ c 7).trans ((Stats0.final7 (V1 m ρ) c).trans (congrArg (fun H => colSumRow (mulf H H)) (HK0_eq m ρ c)))

theorem W2_v1 : W2 m ρ c (Proc.devRef .tc main_v1) = srcOfK (m ((c : Thread nD τ).loc main_arg1)) :=
  (W2_of_ne m ρ c main_v1 (by decide)).trans (h0_v1 (W0 m ρ c))
theorem W2_v3 : W2 m ρ c (Proc.devRef .tc main_v3) = dstOfK (m ((c : Thread nD τ).loc main_arg1)) :=
  (W2_of_ne m ρ c main_v3 (by decide)).trans (h0_v3 (W0 m ρ c))
theorem W2_v10 : W2 m ρ c (Proc.devRef .tc main_v10) = Cert.Sage.degCol (F := Ideal) (dstOfK (m ((c : Thread nD τ).loc main_arg1))) :=
  (W2_of_ne m ρ c main_v10 (by decide)).trans (h0_v10 (W0 m ρ c))
theorem W2_arg5 : W2 m ρ c (Proc.devRef .tc main_arg5) = (m ((c : Thread nD τ).loc main_arg5)) :=
  (W2_of_ne m ρ c main_arg5 (by decide)).trans (h0_keep_main_arg5 (W0 m ρ c))
theorem W2_arg6 : W2 m ρ c (Proc.devRef .tc main_arg6) = (m ((c : Thread nD τ).loc main_arg6)) :=
  (W2_of_ne m ρ c main_arg6 (by decide)).trans (h0_keep_main_arg6 (W0 m ρ c))
theorem W2_arg7 : W2 m ρ c (Proc.devRef .tc main_arg7) = (m ((c : Thread nD τ).loc main_arg7)) :=
  (W2_of_ne m ρ c main_arg7 (by decide)).trans (h0_keep_main_arg7 (W0 m ρ c))
theorem W2_arg8 : W2 m ρ c (Proc.devRef .tc main_arg8) = (m ((c : Thread nD τ).loc main_arg8)) :=
  (W2_of_ne m ρ c main_arg8 (by decide)).trans (h0_keep_main_arg8 (W0 m ρ c))
theorem W2_arg9 : W2 m ρ c (Proc.devRef .tc main_arg9) = (m ((c : Thread nD τ).loc main_arg9)) :=
  (W2_of_ne m ρ c main_arg9 (by decide)).trans (h0_keep_main_arg9 (W0 m ρ c))
theorem W2_arg10 : W2 m ρ c (Proc.devRef .tc main_arg10) = (m ((c : Thread nD τ).loc main_arg10)) :=
  (W2_of_ne m ρ c main_arg10 (by decide)).trans (h0_keep_main_arg10 (W0 m ρ c))
theorem W2_arg11 : W2 m ρ c (Proc.devRef .tc main_arg11) = (m ((c : Thread nD τ).loc main_arg11)) :=
  (W2_of_ne m ρ c main_arg11 (by decide)).trans (h0_keep_main_arg11 (W0 m ρ c))

end Cert.KernelIdeal.Chain

end
-- ==== Proof.LibRowBlockOps.lean ====
/-
  Row blocks of the two elementwise epilogues of a graph-convolution layer, at the ideal values.

  A block of R consecutive rows of an [N, C] array is `rowBlk o h A` (rows o … o + R − 1).  Comparing, selecting,
  adding and multiplying act entry by entry, so each commutes with taking the block.  Adding a bias vector to every
  row of the block gives the block of the array with the bias added to every row; the leaky rectifier
  v ↦ (v ≥ z ? v : s · v) of the block is the block of the leaky rectifier of the array.
-/
import proofs.«168245_j45801531245071_1_alg».proof.Proof.LibBlockOfWhole

noncomputable section

namespace Cert.Gcn

open Idealize.ShloMosaic Idealize.ShloMosaic.ValueIdx Cert.Blocks Cert.Bridge

/-- The zero offsets of whole-buffer accesses of rank two and one. -/
theorem hz2 : (![0, 0] : Fin 2 → Nat) = fun _ => 0 := funext fun a => by fin_cases a <;> rfl
theorem hz1 : (![0] : Fin 1 → Nat) = fun _ => 0 := funext fun a => by fin_cases a; rfl

variable {R N C : Nat}

/-- An entrywise comparison of two blocks is the block of the comparison. -/
theorem cmpf_rowBlk {φ : FTy} (p : CmpFPredicate) (o : Nat) (h : o + R ≤ N) (A B : FVec Ideal ⟨2, ![N, C]⟩ φ) :
    cmpf p (rowBlk o h A) (rowBlk o h B) = rowBlk o h (cmpf p A B) := rfl

/-- An entrywise choice between two blocks by a block of flags is the block of the choice. -/
theorem select_rowBlk {α : Type} (o : Nat) (h : o + R ≤ N) (M : IVec ⟨2, ![N, C]⟩ 1)
    (A B : (⟨2, ![N, C]⟩ : Shape).Idx → α) :
    select (rowBlk o h M) (rowBlk o h A) (rowBlk o h B) = rowBlk o h (select M A B) := rfl

/-- The bias vector added to every row of a block is the block of the bias added to every row of the array. -/
theorem biasAdd_rowBlk (o : Nat) (h : o + R ≤ N) (Z : FVec Ideal ⟨2, ![N, C]⟩ .f32) (b : FVec Ideal ⟨1, ![C]⟩ .f32)
    (hs : (⟨2, ![R, C]⟩ : Shape).ShapeCasts ⟨2, ![R, C]⟩)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    addf (shapeCast ⟨2, ![R, C]⟩ (rowBlk o h Z) hs) (broadcastTo ⟨2, ![R, C]⟩ (shapeCast ⟨2, ![1, C]⟩ b h2) hb)
      = rowBlk o h (addf Z (broadcastInDim ⟨2, ![N, C]⟩ ![0, 1] hB (broadcastInDim ⟨2, ![1, C]⟩ ![1] hb' b))) := by
  rw [shapeCast_self, biasRow_rowBlk o h b h2 hb hb' hB, addf_rowBlk]

/-- The leaky rectifier of a block, v ↦ (v ≥ z ? v : s · v) with z and s splat constants, is the block of the leaky
    rectifier of the array. -/
theorem leaky_rowBlk (o : Nat) (h : o + R ≤ N) (V : FVec Ideal ⟨2, ![N, C]⟩ .f32) (z s : BitVec 32)
    (hZ : (⟨0, ![]⟩ : Shape).BroadcastsInDim ⟨2, ![N, C]⟩ ![]) :
    select (cmpf .oge (rowBlk o h V) (broadcast ⟨2, ![R, C]⟩ (Scalar.ofBits (F := Ideal) .f32 z)))
        (rowBlk o h V) (mulf (broadcast ⟨2, ![R, C]⟩ (Scalar.ofBits (F := Ideal) .f32 s)) (rowBlk o h V))
      = rowBlk o h (select (cmpf .oge V (broadcastInDim ⟨2, ![N, C]⟩ ![] hZ (constant (F := Ideal) ⟨0, ![]⟩ .f32 z)))
          V (mulf (broadcastInDim ⟨2, ![N, C]⟩ ![] hZ (constant (F := Ideal) ⟨0, ![]⟩ .f32 s)) V)) := by
  rw [splat_rowBlk o h z hZ, splat_rowBlk o h s hZ, cmpf_rowBlk, mulf_rowBlk, select_rowBlk]

end Cert.Gcn

end
-- ==== Proof.BnRegion1.lean ====
/-
  The normalise-and-rectify kernel over the rows of an array, 2000 rows at a time.

  The grid has 25 points. At point t the kernel is given rows 2000 t … 2000 t + 1999 of an array H of 50000 rows and
  128 columns and, whole, four rows of 128 entries — a mean, a variance, a scale and a shift — and writes
  max (((x − mean) · rsqrt (variance + ε)) · scale + shift, 0) of its block into rows 2000 t … 2000 t + 1999 of the
  output. What the body stores is the tree of BnBlock on the block it was given; that block is a row block of H, so
  what is stored is the same row block of the whole-array form; row r of the output is written by point r / 2000, and
  every point writes its block back: the output array ends holding the whole-array form of the five arrays as the
  kernel finds them.
-/
import proofs.«168245_j45801531245071_1_alg».proof.Proof.Gen.KernelIdeal.Frame
import proofs.«168245_j45801531245071_1_alg».proof.Proof.BnBlock
import proofs.«168245_j45801531245071_1_alg».proof.Proof.LibRowBlockOps
import Idealize.ShloMosaic.Lib.Pipeline.Value

set_option maxRecDepth 16384

noncomputable section

namespace Cert.KernelIdeal.BnValue

open Idealize.ShloMosaic Idealize.ShloMosaic.ValueIdx Idealize.ShloMosaic.TcCoe Cert.KernelIdeal Cert.KernelIdeal.Gen Cert.Blocks Cert.Bridge
open Idealize.ShloMosaic.Pipeline (Dat)

/-- The body's stored value is the tree on the block. -/
theorem pay1_eq (x0 : Vec Ideal S2000x128 .f32) (v2 v7 v13 v17 : Vec Ideal S1x128 .f32) :
    k1_pay1 (F := Ideal) x0 v2 v7 v13 v17 = bnBody Facts₀.broadcasts_S1x128_S2000x128 x0 v7 v2 v13 v17 := by
  unfold k1_pay1 bnBody
  simp only [shapeCast_self]

/-- What the body leaves in the output's buffer is the tree on the block it was given. -/
theorem out1_eq (x0 : Vec Ideal S2000x128 .f32) (x1 x2 x3 x4 : Vec Ideal S1x128 .f32) :
    out1_5 (F := Ideal) x0 x1 x2 x3 x4 = bnBody Facts₀.broadcasts_S1x128_S2000x128 x0 x1 x2 x3 x4 := by
  unfold out1_5
  rw [View.canon_unit_zero Cert.Gcn.hz2]
  simp only [View.ld_unit_zero (S := S2000x128) Cert.Gcn.hz2, View.ld_unit_zero (S := S1x128) Cert.Gcn.hz2]
  rw [pay1_eq]

/-- Given the block of 2000 rows of H from row o and the four rows, the body leaves that block of the whole-array form. -/
theorem out1_rowBlk (x0 : Vec Ideal S2000x128 .f32) (x1 x2 x3 x4 : Vec Ideal S1x128 .f32) (o : Nat) (h : o + 2000 ≤ 50000)
    (H : FVec Ideal S50000x128 .f32) (M Vr G B : FVec Ideal S1x128 .f32)
    (e0 : x0 = rowBlk (R := 2000) (N := 50000) (C := 128) o h H) (e1 : x1 = M) (e2 : x2 = Vr) (e3 : x3 = G) (e4 : x4 = B) :
    out1_5 (F := Ideal) x0 x1 x2 x3 x4 = rowBlk (R := 2000) (N := 50000) (C := 128) o h (bnWhole H M Vr G B) := by
  subst e0 e1 e2 e3 e4
  rw [out1_eq, bnBody_rowBlk]

/-- The index maps over the grid: the array's block and the output's block are block t; the four rows never move. -/
theorem idx1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem rows1 (t : Fin cfg1.N) : 2000 * t.val + 2000 ≤ 50000 := by
  have ht : t.val < 25 := Nat.lt_of_lt_of_eq t.isLt (N_1 : cfg1.N = 25)
  omega

variable (V : (c : Dev nD) → (b : Ref sig .tc) → Buf (Elt Ideal) ((c : Thread nD τ).loc b))

/-- The array's block at point t is its rows 2000 t … 2000 t + 1999. -/
theorem blk1_0 (c : Dev nD) (t : Fin cfg1.N) :
    (iblk1 V c 0 t : Vec Ideal S2000x128 .f32)
      = rowBlk (R := 2000) (N := 50000) (C := 128) (2000 * t.val) (rows1 t) (V c (Pipeline.arrRef spec1 0)) := by
  obtain ⟨e0, e1, -⟩ := idx1 t
  funext y
  unfold iblk1
  rw [View.read_apply, rowBlk_apply]
  show V c (Pipeline.arrRef spec1 0) _ = V c (Pipeline.arrRef spec1 0) _
  congr 1
  funext a; apply Fin.ext
  match a with
  | ⟨0, _⟩ => show win1_0.index t (0 : Fin 2) * 2000 + 1 * (y 0).val = 2000 * t.val + (y 0).val; rw [e0]; omega
  | ⟨1, _⟩ => show win1_0.index t (1 : Fin 2) * 128 + 1 * (y 1).val = (y 1).val; rw [e1]; omega

/-- The mean row's block at every point is the whole row. -/
theorem blk1_1 (c : Dev nD) (t : Fin cfg1.N) :
    (iblk1 V c 1 t : Vec Ideal S1x128 .f32) = V c (Pipeline.arrRef spec1 1) := by
  have e := idx1 t
  funext y
  unfold iblk1
  rw [View.read_apply]
  show V c (Pipeline.arrRef spec1 1) _ = V c (Pipeline.arrRef spec1 1) _
  congr 1
  funext a; apply Fin.ext
  have hy : (y 0).val < 1 := (y 0).isLt
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The variance row's block at every point is the whole row. -/
theorem blk1_2 (c : Dev nD) (t : Fin cfg1.N) :
    (iblk1 V c 2 t : Vec Ideal S1x128 .f32) = V c (Pipeline.arrRef spec1 2) := by
  have e := idx1 t
  funext y
  unfold iblk1
  rw [View.read_apply]
  show V c (Pipeline.arrRef spec1 2) _ = V c (Pipeline.arrRef spec1 2) _
  congr 1
  funext a; apply Fin.ext
  have hy : (y 0).val < 1 := (y 0).isLt
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The scale row's block at every point is the whole row. -/
theorem blk1_3 (c : Dev nD) (t : Fin cfg1.N) :
    (iblk1 V c 3 t : Vec Ideal S1x128 .f32) = V c (Pipeline.arrRef spec1 3) := by
  have e := idx1 t
  funext y
  unfold iblk1
  rw [View.read_apply]
  show V c (Pipeline.arrRef spec1 3) _ = V c (Pipeline.arrRef spec1 3) _
  congr 1
  funext a; apply Fin.ext
  have hy : (y 0).val < 1 := (y 0).isLt
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The shift row's block at every point is the whole row. -/
theorem blk1_4 (c : Dev nD) (t : Fin cfg1.N) :
    (iblk1 V c 4 t : Vec Ideal S1x128 .f32) = V c (Pipeline.arrRef spec1 4) := by
  have e := idx1 t
  funext y
  unfold iblk1
  rw [View.read_apply]
  show V c (Pipeline.arrRef spec1 4) _ = V c (Pipeline.arrRef spec1 4) _
  congr 1
  funext a; apply Fin.ext
  have hy : (y 0).val < 1 := (y 0).isLt
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- After the body at point t the output's buffer holds rows 2000 t … 2000 t + 1999 of the whole-array form of the
    arrays as the region finds them. -/
theorem after1_rowBlk (c : Dev nD) (t : Fin cfg1.N) :
    ((dat1 (F := Ideal) V c).after 5 t : Vec Ideal S2000x128 .f32)
      = rowBlk (R := 2000) (N := 50000) (C := 128) (2000 * t.val) (rows1 t)
          (bnWhole (V c (Pipeline.arrRef spec1 0)) (V c (Pipeline.arrRef spec1 1)) (V c (Pipeline.arrRef spec1 2))
            (V c (Pipeline.arrRef spec1 3)) (V c (Pipeline.arrRef spec1 4))) := by
  rw [after1_5]
  exact out1_rowBlk _ _ _ _ _ (2000 * t.val) (rows1 t) _ _ _ _ _ (blk1_0 V c t) (blk1_1 V c t) (blk1_2 V c t) (blk1_3 V c t) (blk1_4 V c t)

/-- Rows 2000 t … 2000 t + 1999 of an array are what point t's output block reads of it. -/
theorem read1_rowBlk (t : Fin cfg1.N) (W : FVec Ideal S50000x128 .f32) :
    (rowBlk (R := 2000) (N := 50000) (C := 128) (2000 * t.val) (rows1 t) W : Vec Ideal S2000x128 .f32)
      = ((cfg1.win 5).blk t).view.read (Elt Ideal) W := by
  obtain ⟨-, -, e0, e1, -⟩ := idx1 t
  funext j
  rw [View.read_apply, rowBlk_apply]
  show W _ = W _
  congr 1
  funext a; apply Fin.ext
  match a with
  | ⟨0, _⟩ => show 2000 * t.val + (j 0).val = win1_5.index t (0 : Fin 2) * 2000 + 1 * (j 0).val; rw [e0]; omega
  | ⟨1, _⟩ => show (j 1).val = win1_5.index t (1 : Fin 2) * 128 + 1 * (j 1).val; rw [e1]; omega

/-- What point t writes back is block t of the whole-array form of the arrays as the region finds them. -/
theorem flushed1_eq (c : Dev nD) (t : Fin cfg1.N) :
    (dat1 (F := Ideal) V c).flushed 5 t = ((cfg1.win 5).blk t).view.read (Elt Ideal)
      (bnWhole (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_rowBlk V c t]
  exact read1_rowBlk t _

/-- An entry of the array is in point t's output block iff each coordinate is in the block's range on its axis. -/
theorem mem_blk1_5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v35).slice (win1_5.rect t)).set ↔ _
  rw [View.set_slice_whole, Rect.mem_set_unit]
  exact Iff.rfl

/-- Row r of the array is in the output block of point r / 2000, and every point writes its block back. -/
theorem cover1_out (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, e0, e1, -⟩ := idx1 t
  have e0' : win1_5.index t (0 : Fin 2) = (i 0).val / 2000 := e0
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; rw [e0']; omega
  | ⟨1, _⟩ => show win1_5.index t (1 : Fin 2) * 128 ≤ (i 1).val ∧ (i 1).val < win1_5.index t (1 : Fin 2) * 128 + 128; rw [e1]; omega

/-- The output array after the region: the whole-array form of the five arrays as the region finds them. -/
theorem final1 (c : Dev nD) :
    (dat1 (F := Ideal) V c).arrAt 5 cfg1.N
      = bnWhole (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5
    (bnWhole (V c (Pipeline.arrRef spec1 0)) (V c (Pipeline.arrRef spec1 1)) (V c (Pipeline.arrRef spec1 2))
      (V c (Pipeline.arrRef spec1 3)) (V c (Pipeline.arrRef spec1 4)))
    (fun t _ => flushed1_eq V c t) cover1_out

end Cert.KernelIdeal.BnValue

end
-- ==== Proof.KChain1.lean ====
/-
  The kernel program's buffers after its second host stretch and after its second kernel region: the mean row and
  the variance row of the first layer's pre-activation, the scale and the shift as rows; then the first layer's
  result, and the buffers the stretch and the region leave alone.
-/
import proofs.«168245_j45801531245071_1_alg».proof.Proof.KChain0
import proofs.«168245_j45801531245071_1_alg».proof.Proof.BnRegion1
import proofs.«168245_j45801531245071_1_alg».proof.Proof.KHost1

noncomputable section

namespace Cert.KernelIdeal.Chain

open Idealize.ShloMosaic Idealize.ShloMosaic.TcCoe Idealize.SL.Sem Cert.KernelIdeal Cert.KernelIdeal.Gen Cert.KernelIdeal.HostRead
open Cert.KernelIdeal.Layer Cert.KernelIdeal.StatsValue Cert.KernelIdeal.BnValue

variable (m : (ℓ : Loc nD τ sig) → Buf (Elt Ideal) ℓ) (ρ : Dev nD → PrngReg) (c : Dev nD)

/-- a layer, spelled out -/
theorem kLayer_eq (x : FVec Ideal S50000x128 .f32) (src dst : IVec S1600000 32) (Wl : FVec Ideal S128x128 .f32) (bl : FVec Ideal S128 .f32)
    (Wr : FVec Ideal S128x128 .f32) (g be : FVec Ideal S128 .f32) :
    kLayer x src dst Wl bl Wr g be
      = bnWhole (hK x src dst Wl bl Wr) (meanRow (F := Ideal) (colSumRow (hK x src dst Wl bl Wr)))
          (varRow (F := Ideal) (colSumRow (hK x src dst Wl bl Wr)) (colSumRow (mulf (hK x src dst Wl bl Wr) (hK x src dst Wl bl Wr))))
          (rowOf (F := Ideal) g) (rowOf (F := Ideal) be) := rfl

/-! after the second host stretch -/

theorem W3_v26_0 : W3 m ρ c (Proc.devRef .tc main_v26_0) = (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4))) :=
  (h1_keep_v26_0 (W2 m ρ c)).trans (W2_v26_0 m ρ c)
theorem W3_v28 : W3 m ρ c (Proc.devRef .tc main_v28) = meanRow (F := Ideal) (colSumRow (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)))) :=
  (h1_v28 (W2 m ρ c)).trans (congrArg (meanRow (F := Ideal)) (W2_v26_1 m ρ c))
theorem W3_v32 : W3 m ρ c (Proc.devRef .tc main_v32) = varRow (F := Ideal) (colSumRow (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)))) (colSumRow (mulf (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4))) (hK (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4))))) :=
  (h1_v32 (W2 m ρ c)).trans (congrArg₂ (varRow (F := Ideal)) (W2_v26_1 m ρ c) (W2_v26_2 m ρ c))
theorem W3_v33 : W3 m ρ c (Proc.devRef .tc main_v33) = rowOf (F := Ideal) (m ((c : Thread nD τ).loc main_arg5)) :=
  (h1_v33 (W2 m ρ c)).trans (congrArg (rowOf (F := Ideal)) (W2_arg5 m ρ c))
theorem W3_v34 : W3 m ρ c (Proc.devRef .tc main_v34) = rowOf (F := Ideal) (m ((c : Thread nD τ).loc main_arg6)) :=
  (h1_v34 (W2 m ρ c)).trans (congrArg (rowOf (F := Ideal)) (W2_arg6 m ρ c))

/-! after the second region -/

/-- the first layer's result -/
theorem W4_v35 : W4 m ρ c (Proc.devRef .tc main_v35) = kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ((final1 (V3 m ρ) c).trans ?_)
  show bnWhole (W3 m ρ c (Proc.devRef .tc main_v26_0)) (W3 m ρ c (Proc.devRef .tc main_v28)) (W3 m ρ c (Proc.devRef .tc main_v32))
      (W3 m ρ c (Proc.devRef .tc main_v33)) (W3 m ρ c (Proc.devRef .tc main_v34)) = _
  rw [W3_v26_0, W3_v28, W3_v32, W3_v33, W3_v34, kLayer_eq]

theorem W4_v1 : W4 m ρ c (Proc.devRef .tc main_v1) = srcOfK (m ((c : Thread nD τ).loc main_arg1)) :=
  (W4_of_ne m ρ c main_v1 (by decide)).trans ((h1_keep_v1 (W2 m ρ c)).trans (W2_v1 m ρ c))
theorem W4_v3 : W4 m ρ c (Proc.devRef .tc main_v3) = dstOfK (m ((c : Thread nD τ).loc main_arg1)) :=
  (W4_of_ne m ρ c main_v3 (by decide)).trans ((h1_keep_v3 (W2 m ρ c)).trans (W2_v3 m ρ c))
theorem W4_v10 : W4 m ρ c (Proc.devRef .tc main_v10) = Cert.Sage.degCol (F := Ideal) (dstOfK (m ((c : Thread nD τ).loc main_arg1))) :=
  (W4_of_ne m ρ c main_v10 (by decide)).trans ((h1_keep_v10 (W2 m ρ c)).trans (W2_v10 m ρ c))
theorem W4_arg7 : W4 m ρ c (Proc.devRef .tc main_arg7) = (m ((c : Thread nD τ).loc main_arg7)) :=
  (W4_of_ne m ρ c main_arg7 (by decide)).trans ((h1_keep_arg7 (W2 m ρ c)).trans (W2_arg7 m ρ c))
theorem W4_arg8 : W4 m ρ c (Proc.devRef .tc main_arg8) = (m ((c : Thread nD τ).loc main_arg8)) :=
  (W4_of_ne m ρ c main_arg8 (by decide)).trans ((h1_keep_arg8 (W2 m ρ c)).trans (W2_arg8 m ρ c))
theorem W4_arg9 : W4 m ρ c (Proc.devRef .tc main_arg9) = (m ((c : Thread nD τ).loc main_arg9)) :=
  (W4_of_ne m ρ c main_arg9 (by decide)).trans ((h1_keep_arg9 (W2 m ρ c)).trans (W2_arg9 m ρ c))
theorem W4_arg10 : W4 m ρ c (Proc.devRef .tc main_arg10) = (m ((c : Thread nD τ).loc main_arg10)) :=
  (W4_of_ne m ρ c main_arg10 (by decide)).trans ((h1_keep_arg10 (W2 m ρ c)).trans (W2_arg10 m ρ c))
theorem W4_arg11 : W4 m ρ c (Proc.devRef .tc main_arg11) = (m ((c : Thread nD τ).loc main_arg11)) :=
  (W4_of_ne m ρ c main_arg11 (by decide)).trans ((h1_keep_arg11 (W2 m ρ c)).trans (W2_arg11 m ρ c))

end Cert.KernelIdeal.Chain

end
-- ==== Proof.Stats2Pieces.lean ====
import proofs.«168245_j45801531245071_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stats2

open Cert.KernelIdeal Cert.KernelIdeal.Gen

variable {F : FTy → Type} [FloatOps F]

theorem hz : (![0, 0] : Fin 2 → Nat) = fun _ => 0 := funext fun a => by fin_cases a <;> rfl

/-! What each case of the row-block body leaves in its three output buffers, as the body's own value terms:
    the block of pre-activations; the running column sums, started from zero at the first point and carried
    on from the previous point's contents afterwards; the same for the column sums of squares. -/

theorem blockA (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S2000x128 .f32) (x1 : Vec F S2000x128 .f32) (x2 : Vec F S128x128 .f32) (x3 : Vec F S1x128 .f32) (x4 : Vec F S128x128 .f32) :
    out2_A_5 c i arg1 harg1 arg2 harg2 arg3 harg3 arg4 harg4 arg5 harg5 arg6 harg6 arg7 harg7 arg8 harg8 hc0 x0 x1 x2 x3 x4 = k2_pay4 x0 x1 x2 x4 x3 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem sumA (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S2000x128 .f32) (x1 : Vec F S2000x128 .f32) (x2 : Vec F S128x128 .f32) (x3 : Vec F S1x128 .f32) (x4 : Vec F S128x128 .f32) :
    out2_A_6 c i arg1 harg1 arg2 harg2 arg3 harg3 arg4 harg4 arg5 harg5 arg6 harg6 arg7 harg7 arg8 harg8 hc0 x0 x1 x2 x3 x4 = k2_pay5 x0 x1 x2 x4 x3 k2_pay2 := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem sqA (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : cond2_0 i) (x0 : Vec F S2000x128 .f32) (x1 : Vec F S2000x128 .f32) (x2 : Vec F S128x128 .f32) (x3 : Vec F S1x128 .f32) (x4 : Vec F S128x128 .f32) :
    out2_A_7 c i arg1 harg1 arg2 harg2 arg3 harg3 arg4 harg4 arg5 harg5 arg6 harg6 arg7 harg7 arg8 harg8 hc0 x0 x1 x2 x3 x4 = k2_pay1 (k2_pay6 k2_pay3) (k2_pay7 x0 x1 x2 x4 x3) := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem blockB (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S2000x128 .f32) (x1 : Vec F S2000x128 .f32) (x2 : Vec F S128x128 .f32) (x3 : Vec F S1x128 .f32) (x4 : Vec F S128x128 .f32) (xo6 : Vec F S1x128 .f32) (xo7 : Vec F S1x128 .f32) :
    out2_B_5 c i arg1 harg1 arg2 harg2 arg3 harg3 arg4 harg4 arg5 harg5 arg6 harg6 arg7 harg7 arg8 harg8 hc0 x0 x1 x2 x3 x4 xo6 xo7 = k2_pay4 x0 x1 x2 x4 x3 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem sumB (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S2000x128 .f32) (x1 : Vec F S2000x128 .f32) (x2 : Vec F S128x128 .f32) (x3 : Vec F S1x128 .f32) (x4 : Vec F S128x128 .f32) (xo6 : Vec F S1x128 .f32) (xo7 : Vec F S1x128 .f32) :
    out2_B_6 c i arg1 harg1 arg2 harg2 arg3 harg3 arg4 harg4 arg5 harg5 arg6 harg6 arg7 harg7 arg8 harg8 hc0 x0 x1 x2 x3 x4 xo6 xo7 = k2_pay5 x0 x1 x2 x4 x3 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

theorem sqB (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (x0 : Vec F S2000x128 .f32) (x1 : Vec F S2000x128 .f32) (x2 : Vec F S128x128 .f32) (x3 : Vec F S1x128 .f32) (x4 : Vec F S128x128 .f32) (xo6 : Vec F S1x128 .f32) (xo7 : Vec F S1x128 .f32) :
    out2_B_7 c i arg1 harg1 arg2 harg2 arg3 harg3 arg4 harg4 arg5 harg5 arg6 harg6 arg7 harg7 arg8 harg8 hc0 x0 x1 x2 x3 x4 xo6 xo7 = k2_pay1 (k2_pay6 xo7) (k2_pay7 x0 x1 x2 x4 x3) := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread,
    View.ld_unit_zero (S := S2000x128) hz, View.ld_unit_zero (S := S128x128) hz, View.ld_unit_zero (S := S1x128) hz]

end Cert.KernelIdeal.Stats2
end
-- ==== Proof.Stats2Value.lean ====
/-
  The value of a linear-and-statistics kernel region.  Each of its 25 grid points takes 2000 consecutive rows of the
  aggregated features A and of the node features X, forms the block of pre-activations  A·W1 + bias row + X·W2,
  writes it back as the same 2000 rows of the first output, and adds the block's column sums, and the column sums of
  its squares, to two running rows kept in place across the points (zeroed at the first point, written back after the
  last).  So the first output ends as the whole pre-activation array, and the two rows as its column sums and the
  column sums of its squares over all 50000 rows.
-/
import proofs.«168245_j45801531245071_1_alg».proof.Proof.Stats2Pieces
import proofs.«168245_j45801531245071_1_alg».proof.Proof.StatsMath

set_option maxRecDepth 16384

noncomputable section

open Idealize.ShloMosaic Idealize.ShloMosaic.TcCoe Idealize.SL.Sem Idealize.ShloMosaic.ValueIdx Cert.Blocks
open Idealize.ShloMosaic.Pipeline (Dat)

namespace Cert.KernelIdeal.Stats2

open Cert.KernelIdeal Cert.KernelIdeal.Gen Cert.KernelIdeal.StatsValue Cert.KernelIdeal.Facts₀

/-! ## The body's value terms on a row block -/

theorem dot_plain : dot_S2000x128_S128x128_S2000x128_1_0_0_1_n_n = DotDims.plain 2000 128 128 := rfl

/-- the block of pre-activations computed from row blocks of A and X is the row block of the whole pre-activation -/
theorem pay4_rowBlk (o : Nat) (h : o + 2000 ≤ 50000) (A X : FVec Ideal S50000x128 .f32) (W1 : FVec Ideal S128x128 .f32)
    (B : FVec Ideal S1x128 .f32) (W2 : FVec Ideal S128x128 .f32) :
    k2_pay4 (F := Ideal) (rowBlk o h A) (rowBlk o h X) W1 W2 B = rowBlk o h (preK A X W1 B W2) := by
  have e1 := matmul_rowBlk (φ₁ := .bf16) (φ₂ := .bf16) o h dot_S2000x128_S128x128_S2000x128_1_0_0_1_n_n dot_plain (DotDims.plain 50000 128 128) rfl A W1
  have e2 := matmul_rowBlk (φ₁ := .bf16) (φ₂ := .bf16) o h dot_S2000x128_S128x128_S2000x128_1_0_0_1_n_n dot_plain (DotDims.plain 50000 128 128) rfl X W2
  have e3 := rowStretch_rowBlk o h B Facts₀.broadcasts_S1x128_S2000x128 bRN
  unfold k2_pay4 preK
  simp only [shapeCast_self]
  exact (congrArg₂ addf (congrArg₂ addf e1 e3) e2)

/-- one accumulation step of the column sums, and of the column sums of squares -/
theorem pay5_eq (x0 x1 : Vec Ideal S2000x128 .f32) (x2 x4 : Vec Ideal S128x128 .f32) (x3 xo : Vec Ideal S1x128 .f32) :
    k2_pay5 (F := Ideal) x0 x1 x2 x4 x3 xo = addf xo (blkSums (k2_pay4 x0 x1 x2 x4 x3)) := by
  unfold k2_pay5 blkSums
  simp only [shapeCast_self]
theorem pay1_eq (x0 x1 : Vec Ideal S2000x128 .f32) (x2 x4 : Vec Ideal S128x128 .f32) (x3 xo : Vec Ideal S1x128 .f32) :
    k2_pay1 (F := Ideal) (k2_pay6 xo) (k2_pay7 x0 x1 x2 x4 x3)
      = addf xo (blkSums (mulf (k2_pay4 x0 x1 x2 x4 x3) (k2_pay4 x0 x1 x2 x4 x3))) := by
  unfold k2_pay1 k2_pay6 k2_pay7 blkSums
  simp only [shapeCast_self]

/-! ## The windows' blocks, read off their arrays -/

theorem lt25 (t : Fin cfg2.N) : t.val < 25 := t.isLt.trans_eq N_2

/-- the printed index maps, decided over the grid: the row-blocked windows move with the point, the others stay -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

variable (V : (c : Dev nD) → (b : Ref sig .tc) → Buf (Elt Ideal) ((c : Thread nD τ).loc b)) (c : Dev nD)

theorem blk0 (t : Fin cfg2.N) :
    iblk2 (F := Ideal) V c 0 t = rowBlk (R := 2000) (N := 50000) (C := 128) (2000 * t.val) (by have := lt25 t; omega) (V c (Pipeline.arrRef spec2 0)) := by
  obtain ⟨e00, e01, e10, e11, e20, e21, e30, e31, e40, e41, e50, e51, e60, e61, e70, e71⟩ := idx_facts t
  funext y
  show V c (Pipeline.arrRef spec2 0) (((cfg2.win 0).blk t).view.emb y) = V c (Pipeline.arrRef spec2 0) (shiftRow (2000 * t.val) _ y)
  refine congrArg _ (funext fun a => Fin.ext ?_)
  match a with
  | ⟨0, _⟩ => show win2_0.index t (0 : Fin 2) * 2000 + 1 * (y 0).val = 2000 * t.val + (y 0).val; omega
  | ⟨1, _⟩ => show win2_0.index t (1 : Fin 2) * 128 + 1 * (y 1).val = (y 1).val; omega

theorem blk1 (t : Fin cfg2.N) :
    iblk2 (F := Ideal) V c 1 t = rowBlk (R := 2000) (N := 50000) (C := 128) (2000 * t.val) (by have := lt25 t; omega) (V c (Pipeline.arrRef spec2 1)) := by
  obtain ⟨e00, e01, e10, e11, e20, e21, e30, e31, e40, e41, e50, e51, e60, e61, e70, e71⟩ := idx_facts t
  funext y
  show V c (Pipeline.arrRef spec2 1) (((cfg2.win 1).blk t).view.emb y) = V c (Pipeline.arrRef spec2 1) (shiftRow (2000 * t.val) _ y)
  refine congrArg _ (funext fun a => Fin.ext ?_)
  match a with
  | ⟨0, _⟩ => show win2_1.index t (0 : Fin 2) * 2000 + 1 * (y 0).val = 2000 * t.val + (y 0).val; omega
  | ⟨1, _⟩ => show win2_1.index t (1 : Fin 2) * 128 + 1 * (y 1).val = (y 1).val; omega

theorem blk2 (t : Fin cfg2.N) : iblk2 (F := Ideal) V c 2 t = (V c (Pipeline.arrRef spec2 2)) := by
  obtain ⟨e00, e01, e10, e11, e20, e21, e30, e31, e40, e41, e50, e51, e60, e61, e70, e71⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem blk3 (t : Fin cfg2.N) : iblk2 (F := Ideal) V c 3 t = (V c (Pipeline.arrRef spec2 3)) := by
  obtain ⟨e00, e01, e10, e11, e20, e21, e30, e31, e40, e41, e50, e51, e60, e61, e70, e71⟩ := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem blk4 (t : Fin cfg2.N) : iblk2 (F := Ideal) V c 4 t = (V c (Pipeline.arrRef spec2 4)) := by
  obtain ⟨e00, e01, e10, e11, e20, e21, e30, e31, e40, e41, e50, e51, e60, e61, e70, e71⟩ := idx_facts t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- the whole pre-activation array of the region's input arrays -/
abbrev HK : FVec Ideal S50000x128 .f32 := (preK (V c (Pipeline.arrRef spec2 0)) (V c (Pipeline.arrRef spec2 1)) (V c (Pipeline.arrRef spec2 2)) (V c (Pipeline.arrRef spec2 3)) (V c (Pipeline.arrRef spec2 4)))

/-! ## What the three outputs hold after each point -/

theorem outs_eq : ∀ (n : ℕ) (hn : n < cfg2.N),
    outsAt2 (F := Ideal) V c n hn
      = (blkOf (HK V c) n (lt25 ⟨n, hn⟩), partialSums (HK V c) n (lt25 ⟨n, hn⟩), partialSums (mulf (HK V c) (HK V c)) n (lt25 ⟨n, hn⟩))
  | 0, hn => by
    have hA := outsAt2_A (F := Ideal) V c ⟨0, hn⟩ rfl
    rw [blockA, sumA, sqA, pay5_eq, pay1_eq, blk0, blk1, blk2, blk3, blk4, pay4_rowBlk] at hA
    exact hA
  | n + 1, hn => by
    have hB : ¬(⟨n + 1, hn⟩ : Fin cfg2.N).val % 25 = 0 := by have := lt25 ⟨n + 1, hn⟩; dsimp only at this ⊢; omega
    have hB' := outsAt2_B (F := Ideal) V c ⟨n + 1, hn⟩ hB
    rw [blockB, sumB, sqB, pay5_eq, pay1_eq, blk0, blk1, blk2, blk3, blk4, pay4_rowBlk] at hB'
    have ih := outs_eq n (Nat.lt_of_succ_lt hn)
    have i1 : (outsAt2 (F := Ideal) V c n (Nat.lt_of_succ_lt hn)).2.1 = partialSums (HK V c) n (lt25 ⟨n, Nat.lt_of_succ_lt hn⟩) := congrArg (fun p => p.2.1) ih
    have i2 : (outsAt2 (F := Ideal) V c n (Nat.lt_of_succ_lt hn)).2.2 = partialSums (mulf (HK V c) (HK V c)) n (lt25 ⟨n, Nat.lt_of_succ_lt hn⟩) := congrArg (fun p => p.2.2) ih
    simp only [Nat.add_sub_cancel] at hB'
    rw [i1, i2] at hB'
    exact hB'

/-! ## The three arrays after the region -/

theorem mem_blk5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v51_0).slice (win2_5.rect t)).set ↔ _
  rw [View.set_slice_whole, Rect.mem_set_unit]
  exact Iff.rfl

/-- point t writes back rows 2000·t … 2000·t + 1999 of the whole pre-activation array -/
theorem flushed5 (t : Fin cfg2.N) :
    (dat2 (F := Ideal) V c).flushed 5 t = ((cfg2.win 5).blk t).view.read (Elt Ideal) (HK V c) := by
  obtain ⟨e00, e01, e10, e11, e20, e21, e30, e31, e40, e41, e50, e51, e60, e61, e70, e71⟩ := idx_facts t
  show (cfg2.win 5).cut (grid2.coords t) ((dat2 (F := Ideal) V c).after 5 t) = _
  rw [after2_5, outs_eq V c t.val t.isLt]
  funext y
  show HK V c (shiftRow (2000 * t.val) _ y) = HK V c (((cfg2.win 5).blk t).view.emb y)
  refine congrArg _ (funext fun a => Fin.ext ?_)
  match a with
  | ⟨0, _⟩ => show 2000 * t.val + (y 0).val = win2_5.index t (0 : Fin 2) * 2000 + 1 * (y 0).val; omega
  | ⟨1, _⟩ => show (y 1).val = win2_5.index t (1 : Fin 2) * 128 + 1 * (y 1).val; omega

/-- the 25 row blocks tile the array: row r lies in block r / 2000 -/
theorem final5 : (dat2 (F := Ideal) V c).arrAt 5 cfg2.N = HK V c :=
  (dat2 (F := Ideal) V c).arrAt_eq_of_cover 5 (HK V c) (fun t _ => flushed5 V c t) fun i => by
    have hi0 : (i 0).val < 50000 := (i 0).isLt
    have hi1 : (i 1).val < 128 := (i 1).isLt
    have ht : (i 0).val / 2000 < cfg2.N := by rw [show cfg2.N = 25 from N_2]; omega
    refine ⟨⟨(i 0).val / 2000, ht⟩, flush2_5 _, ?_⟩
    obtain ⟨e00, e01, e10, e11, e20, e21, e30, e31, e40, e41, e50, e51, e60, e61, e70, e71⟩ := idx_facts (⟨(i 0).val / 2000, ht⟩ : Fin cfg2.N)
    dsimp only at e50 e51
    rw [mem_blk5]
    intro a
    match a with
    | ⟨0, _⟩ => show win2_5.index ⟨(i 0).val / 2000, ht⟩ (0 : Fin 2) * 2000 ≤ (i 0).val ∧ (i 0).val < win2_5.index ⟨(i 0).val / 2000, ht⟩ (0 : Fin 2) * 2000 + 2000; omega
    | ⟨1, _⟩ => show win2_5.index ⟨(i 0).val / 2000, ht⟩ (1 : Fin 2) * 128 ≤ (i 1).val ∧ (i 1).val < win2_5.index ⟨(i 0).val / 2000, ht⟩ (1 : Fin 2) * 128 + 128; omega

theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v51_1).slice (win2_6.rect t)).set ↔ _
  rw [View.set_slice_whole, Rect.mem_set_unit]
  exact Iff.rfl

/-- the one write-back of this running row, after the last point, writes the column sums over all rows -/
theorem flushed6 (t : Fin cfg2.N) (hf : (cfg2.win 6).flush t = true) :
    (dat2 (F := Ideal) V c).flushed 6 t = ((cfg2.win 6).blk t).view.read (Elt Ideal) (colSumRow (HK V c)) := by
  have h24 : t.val = 24 := by have := (flush2_6 t).mp hf; have := lt25 t; omega
  obtain ⟨e00, e01, e10, e11, e20, e21, e30, e31, e40, e41, e50, e51, e60, e61, e70, e71⟩ := idx_facts t
  obtain ⟨n, hn⟩ := t
  dsimp only at h24
  subst h24
  show (cfg2.win 6).cut (grid2.coords ⟨24, hn⟩) ((dat2 (F := Ideal) V c).after 6 ⟨24, hn⟩) = _
  rw [after2_6, outs_eq V c 24 hn, ← partialSums_last]
  funext y
  show partialSums (HK V c) 24 _ y = partialSums (HK V c) 24 _ (((cfg2.win 6).blk ⟨24, hn⟩).view.emb y)
  refine congrArg _ (funext fun a => Fin.ext ?_)
  match a with
  | ⟨0, _⟩ => show (y 0).val = win2_6.index ⟨24, hn⟩ (0 : Fin 2) * 1 + 1 * (y 0).val; omega
  | ⟨1, _⟩ => show (y 1).val = win2_6.index ⟨24, hn⟩ (1 : Fin 2) * 128 + 1 * (y 1).val; omega

theorem final6 : (dat2 (F := Ideal) V c).arrAt 6 cfg2.N = colSumRow (HK V c) :=
  (dat2 (F := Ideal) V c).arrAt_eq_of_cover 6 (colSumRow (HK V c)) (fun t hf => flushed6 V c t hf) fun i => by
    have h24 : 24 < cfg2.N := by rw [show cfg2.N = 25 from N_2]; decide
    refine ⟨⟨24, h24⟩, (flush2_6 _).mpr rfl, ?_⟩
    obtain ⟨e00, e01, e10, e11, e20, e21, e30, e31, e40, e41, e50, e51, e60, e61, e70, e71⟩ := idx_facts (⟨24, h24⟩ : Fin cfg2.N)
    rw [mem_blk6]
    intro a
    have hi0 : (i 0).val < 1 := (i 0).isLt
    have hi1 : (i 1).val < 128 := (i 1).isLt
    match a with
    | ⟨0, _⟩ => show win2_6.index ⟨24, h24⟩ (0 : Fin 2) * 1 ≤ (i 0).val ∧ (i 0).val < win2_6.index ⟨24, h24⟩ (0 : Fin 2) * 1 + 1; omega
    | ⟨1, _⟩ => show win2_6.index ⟨24, h24⟩ (1 : Fin 2) * 128 ≤ (i 1).val ∧ (i 1).val < win2_6.index ⟨24, h24⟩ (1 : Fin 2) * 128 + 128; omega

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v51_2).slice (win2_7.rect t)).set ↔ _
  rw [View.set_slice_whole, Rect.mem_set_unit]
  exact Iff.rfl

/-- the one write-back of this running row, after the last point, writes the column sums over all rows -/
theorem flushed7 (t : Fin cfg2.N) (hf : (cfg2.win 7).flush t = true) :
    (dat2 (F := Ideal) V c).flushed 7 t = ((cfg2.win 7).blk t).view.read (Elt Ideal) (colSumRow (mulf (HK V c) (HK V c))) := by
  have h24 : t.val = 24 := by have := (flush2_7 t).mp hf; have := lt25 t; omega
  obtain ⟨e00, e01, e10, e11, e20, e21, e30, e31, e40, e41, e50, e51, e60, e61, e70, e71⟩ := idx_facts t
  obtain ⟨n, hn⟩ := t
  dsimp only at h24
  subst h24
  show (cfg2.win 7).cut (grid2.coords ⟨24, hn⟩) ((dat2 (F := Ideal) V c).after 7 ⟨24, hn⟩) = _
  rw [after2_7, outs_eq V c 24 hn, ← partialSums_last]
  funext y
  show partialSums (mulf (HK V c) (HK V c)) 24 _ y = partialSums (mulf (HK V c) (HK V c)) 24 _ (((cfg2.win 7).blk ⟨24, hn⟩).view.emb y)
  refine congrArg _ (funext fun a => Fin.ext ?_)
  match a with
  | ⟨0, _⟩ => show (y 0).val = win2_7.index ⟨24, hn⟩ (0 : Fin 2) * 1 + 1 * (y 0).val; omega
  | ⟨1, _⟩ => show (y 1).val = win2_7.index ⟨24, hn⟩ (1 : Fin 2) * 128 + 1 * (y 1).val; omega

theorem final7 : (dat2 (F := Ideal) V c).arrAt 7 cfg2.N = colSumRow (mulf (HK V c) (HK V c)) :=
  (dat2 (F := Ideal) V c).arrAt_eq_of_cover 7 (colSumRow (mulf (HK V c) (HK V c))) (fun t hf => flushed7 V c t hf) fun i => by
    have h24 : 24 < cfg2.N := by rw [show cfg2.N = 25 from N_2]; decide
    refine ⟨⟨24, h24⟩, (flush2_7 _).mpr rfl, ?_⟩
    obtain ⟨e00, e01, e10, e11, e20, e21, e30, e31, e40, e41, e50, e51, e60, e61, e70, e71⟩ := idx_facts (⟨24, h24⟩ : Fin cfg2.N)
    rw [mem_blk7]
    intro a
    have hi0 : (i 0).val < 1 := (i 0).isLt
    have hi1 : (i 1).val < 128 := (i 1).isLt
    match a with
    | ⟨0, _⟩ => show win2_7.index ⟨24, h24⟩ (0 : Fin 2) * 1 ≤ (i 0).val ∧ (i 0).val < win2_7.index ⟨24, h24⟩ (0 : Fin 2) * 1 + 1; omega
    | ⟨1, _⟩ => show win2_7.index ⟨24, h24⟩ (1 : Fin 2) * 128 ≤ (i 1).val ∧ (i 1).val < win2_7.index ⟨24, h24⟩ (1 : Fin 2) * 128 + 128; omega

end Cert.KernelIdeal.Stats2

end
-- ==== Proof.KHost2.lean ====
/-
  What the third stretch of host operations of the kernel program leaves, read from any contents of the buffers,
  at any float type: the neighbourhood mean of the second layer's features, taken with the index vectors and the
  in-degree column the first stretch left, the two transposed weights and the bias as a row; and the buffers the
  stretch does not write.
-/
import proofs.«168245_j45801531245071_1_alg».proof.Proof.KHost0

noncomputable section

namespace Cert.KernelIdeal.HostRead

open Idealize.ShloMosaic Idealize.ShloMosaic.TcCoe Idealize.SL.Sem Idealize.ShloMosaic.StableHlo
open Cert.KernelIdeal Cert.KernelIdeal.Gen

variable {F : FTy → Type} [FloatOps F]

attribute [local irreducible] Host.scatterAdd Host.gather

variable (W : Valuation τ sig (Elt F))

/-- the quotient buffer in the stretch's own operations: the summed neighbour rows of the features, over the kept
    in-degree column stretched over the features -/
theorem h2_v47_raw : after hostOps2 W (Proc.devRef .tc main_v47)
    = Host.divf (Cert.Sage.aggSum (W (Proc.devRef .tc main_v35)) (W (Proc.devRef .tc main_v1)) (W (Proc.devRef .tc main_v3)))
        (broadcastInDim Cert.Sage.SN ![0, 1] Cert.Sage.bN1N (W (Proc.devRef .tc main_v10))) := by
  dsimp only [hostOps2]; after_results_simp; rfl

/-- the second layer's aggregate from the kept index vectors and degree column -/
theorem h2_v47 (src dst : IVec S1600000 32) (h1 : W (Proc.devRef .tc main_v1) = src) (h3 : W (Proc.devRef .tc main_v3) = dst)
    (h10 : W (Proc.devRef .tc main_v10) = Cert.Sage.degCol (F := F) dst) :
    after hostOps2 W (Proc.devRef .tc main_v47) = Cert.Sage.agg (W (Proc.devRef .tc main_v35)) src dst := by
  rw [h2_v47_raw, h1, h3, h10]; rfl

/-- the two weights transposed and the bias as a row -/
theorem h2_v48 : after hostOps2 W (Proc.devRef .tc main_v48) = tr (W (Proc.devRef .tc main_arg7)) := by
  dsimp only [hostOps2]; after_results_simp; rfl
theorem h2_v49 : after hostOps2 W (Proc.devRef .tc main_v49) = tr (W (Proc.devRef .tc main_arg9)) := by
  dsimp only [hostOps2]; after_results_simp; rfl
theorem h2_v50 : after hostOps2 W (Proc.devRef .tc main_v50) = rowOf (W (Proc.devRef .tc main_arg8)) := by
  dsimp only [hostOps2]; after_results_simp; rfl

/-! the buffers the stretch does not write -/
theorem h2_keep_main_v35 : after hostOps2 W (Proc.devRef .tc main_v35) = W (Proc.devRef .tc main_v35) := by
  dsimp only [hostOps2]; after_results_simp
theorem h2_keep_main_arg10 : after hostOps2 W (Proc.devRef .tc main_arg10) = W (Proc.devRef .tc main_arg10) := by
  dsimp only [hostOps2]; after_results_simp
theorem h2_keep_main_arg11 : after hostOps2 W (Proc.devRef .tc main_arg11) = W (Proc.devRef .tc main_arg11) := by
  dsimp only [hostOps2]; after_results_simp

end Cert.KernelIdeal.HostRead

end
-- ==== Proof.KChain2.lean ====
/-
  The kernel program's buffers after its third host stretch and after its third kernel region: the neighbourhood mean
  of the first layer's result, the second layer's transposed weights and bias row; then the second layer's
  pre-activation, its column sums and the column sums of its square, and the buffers left alone.
-/
import proofs.«168245_j45801531245071_1_alg».proof.Proof.KChain1
import proofs.«168245_j45801531245071_1_alg».proof.Proof.Stats2Value
import proofs.«168245_j45801531245071_1_alg».proof.Proof.KHost2

noncomputable section

namespace Cert.KernelIdeal.Chain

open Idealize.ShloMosaic Idealize.ShloMosaic.TcCoe Idealize.SL.Sem Cert.KernelIdeal Cert.KernelIdeal.Gen Cert.KernelIdeal.HostRead
open Cert.KernelIdeal.Layer Cert.KernelIdeal.StatsValue Cert.KernelIdeal.BnValue

variable (m : (ℓ : Loc nD τ sig) → Buf (Elt Ideal) ℓ) (ρ : Dev nD → PrngReg) (c : Dev nD)

/-! after the third host stretch -/

theorem W5_v47 : W5 m ρ c (Proc.devRef .tc main_v47) = Cert.Sage.agg (F := Ideal) (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) :=
  (h2_v47 (W4 m ρ c) (srcOfK (m ((c : Thread nD τ).loc main_arg1))) (dstOfK (m ((c : Thread nD τ).loc main_arg1))) (W4_v1 m ρ c) (W4_v3 m ρ c) (W4_v10 m ρ c)).trans
    (congrArg (fun x => Cert.Sage.agg (F := Ideal) x (srcOfK (m ((c : Thread nD τ).loc main_arg1))) (dstOfK (m ((c : Thread nD τ).loc main_arg1)))) (W4_v35 m ρ c))
theorem W5_v35 : W5 m ρ c (Proc.devRef .tc main_v35) = kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) :=
  (h2_keep_main_v35 (W4 m ρ c)).trans (W4_v35 m ρ c)
theorem W5_v48 : W5 m ρ c (Proc.devRef .tc main_v48) = tr (F := Ideal) (m ((c : Thread nD τ).loc main_arg7)) :=
  (h2_v48 (W4 m ρ c)).trans (congrArg (tr (F := Ideal)) (W4_arg7 m ρ c))
theorem W5_v50 : W5 m ρ c (Proc.devRef .tc main_v50) = rowOf (F := Ideal) (m ((c : Thread nD τ).loc main_arg8)) :=
  (h2_v50 (W4 m ρ c)).trans (congrArg (rowOf (F := Ideal)) (W4_arg8 m ρ c))
theorem W5_v49 : W5 m ρ c (Proc.devRef .tc main_v49) = tr (F := Ideal) (m ((c : Thread nD τ).loc main_arg9)) :=
  (h2_v49 (W4 m ρ c)).trans (congrArg (tr (F := Ideal)) (W4_arg9 m ρ c))

/-- the third region's pre-activation is the second layer's -/
theorem HK2_eq : Stats2.HK (V5 m ρ) c = (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9))) := by
  show preK (W5 m ρ c (Proc.devRef .tc main_v47)) (W5 m ρ c (Proc.devRef .tc main_v35)) (W5 m ρ c (Proc.devRef .tc main_v48))
      (W5 m ρ c (Proc.devRef .tc main_v50)) (W5 m ρ c (Proc.devRef .tc main_v49)) = _
  rw [W5_v47, W5_v35, W5_v48, W5_v50, W5_v49, hK_eq]

/-! after the third region -/

theorem W6_v51_0 : W6 m ρ c (Proc.devRef .tc main_v51_0) = (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9))) :=
  (W6_arr m ρ c 5).trans ((Stats2.final5 (V5 m ρ) c).trans (HK2_eq m ρ c))
theorem W6_v51_1 : W6 m ρ c (Proc.devRef .tc main_v51_1) = colSumRow (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9))) :=
  (W6_arr m ρ c 6).trans ((Stats2.final6 (V5 m ρ) c).trans (congrArg colSumRow (HK2_eq m ρ c)))
theorem W6_v51_2 : W6 m ρ c (Proc.devRef .tc main_v51_2) = colSumRow (mulf (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9))) (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9)))) :=
  (W6_arr m ρ c 7).trans ((Stats2.final7 (V5 m ρ) c).trans (congrArg (fun H => colSumRow (mulf H H)) (HK2_eq m ρ c)))
theorem W6_arg10 : W6 m ρ c (Proc.devRef .tc main_arg10) = (m ((c : Thread nD τ).loc main_arg10)) :=
  (W6_of_ne m ρ c main_arg10 (by decide)).trans ((h2_keep_main_arg10 (W4 m ρ c)).trans (W4_arg10 m ρ c))
theorem W6_arg11 : W6 m ρ c (Proc.devRef .tc main_arg11) = (m ((c : Thread nD τ).loc main_arg11)) :=
  (W6_of_ne m ρ c main_arg11 (by decide)).trans ((h2_keep_main_arg11 (W4 m ρ c)).trans (W4_arg11 m ρ c))

end Cert.KernelIdeal.Chain

end
-- ==== Proof.BnRegion3.lean ====
/-
  The normalise-and-rectify kernel over the rows of an array, 2000 rows at a time.

  The grid has 25 points. At point t the kernel is given rows 2000 t … 2000 t + 1999 of an array H of 50000 rows and
  128 columns and, whole, four rows of 128 entries — a mean, a variance, a scale and a shift — and writes
  max (((x − mean) · rsqrt (variance + ε)) · scale + shift, 0) of its block into rows 2000 t … 2000 t + 1999 of the
  output. What the body stores is the tree of BnBlock on the block it was given; that block is a row block of H, so
  what is stored is the same row block of the whole-array form; row r of the output is written by point r / 2000, and
  every point writes its block back: the output array ends holding the whole-array form of the five arrays as the
  kernel finds them.
-/
import proofs.«168245_j45801531245071_1_alg».proof.Proof.Gen.KernelIdeal.Frame
import proofs.«168245_j45801531245071_1_alg».proof.Proof.BnBlock
import proofs.«168245_j45801531245071_1_alg».proof.Proof.LibRowBlockOps
import Idealize.ShloMosaic.Lib.Pipeline.Value

set_option maxRecDepth 16384

noncomputable section

namespace Cert.KernelIdeal.BnValue

open Idealize.ShloMosaic Idealize.ShloMosaic.ValueIdx Idealize.ShloMosaic.TcCoe Cert.KernelIdeal Cert.KernelIdeal.Gen Cert.Blocks Cert.Bridge
open Idealize.ShloMosaic.Pipeline (Dat)

/-- The body's stored value is the tree on the block. -/
theorem pay3_eq (x0 : Vec Ideal S2000x128 .f32) (v2 v7 v13 v17 : Vec Ideal S1x128 .f32) :
    k3_pay1 (F := Ideal) x0 v2 v7 v13 v17 = bnBody Facts₀.broadcasts_S1x128_S2000x128 x0 v7 v2 v13 v17 := by
  unfold k3_pay1 bnBody
  simp only [shapeCast_self]

/-- What the body leaves in the output's buffer is the tree on the block it was given. -/
theorem out3_eq (x0 : Vec Ideal S2000x128 .f32) (x1 x2 x3 x4 : Vec Ideal S1x128 .f32) :
    out3_5 (F := Ideal) x0 x1 x2 x3 x4 = bnBody Facts₀.broadcasts_S1x128_S2000x128 x0 x1 x2 x3 x4 := by
  unfold out3_5
  rw [View.canon_unit_zero Cert.Gcn.hz2]
  simp only [View.ld_unit_zero (S := S2000x128) Cert.Gcn.hz2, View.ld_unit_zero (S := S1x128) Cert.Gcn.hz2]
  rw [pay3_eq]

/-- Given the block of 2000 rows of H from row o and the four rows, the body leaves that block of the whole-array form. -/
theorem out3_rowBlk (x0 : Vec Ideal S2000x128 .f32) (x1 x2 x3 x4 : Vec Ideal S1x128 .f32) (o : Nat) (h : o + 2000 ≤ 50000)
    (H : FVec Ideal S50000x128 .f32) (M Vr G B : FVec Ideal S1x128 .f32)
    (e0 : x0 = rowBlk (R := 2000) (N := 50000) (C := 128) o h H) (e1 : x1 = M) (e2 : x2 = Vr) (e3 : x3 = G) (e4 : x4 = B) :
    out3_5 (F := Ideal) x0 x1 x2 x3 x4 = rowBlk (R := 2000) (N := 50000) (C := 128) o h (bnWhole H M Vr G B) := by
  subst e0 e1 e2 e3 e4
  rw [out3_eq, bnBody_rowBlk]

/-- The index maps over the grid: the array's block and the output's block are block t; the four rows never move. -/
theorem idx3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem rows3 (t : Fin cfg3.N) : 2000 * t.val + 2000 ≤ 50000 := by
  have ht : t.val < 25 := Nat.lt_of_lt_of_eq t.isLt (N_3 : cfg3.N = 25)
  omega

variable (V : (c : Dev nD) → (b : Ref sig .tc) → Buf (Elt Ideal) ((c : Thread nD τ).loc b))

/-- The array's block at point t is its rows 2000 t … 2000 t + 1999. -/
theorem blk3_0 (c : Dev nD) (t : Fin cfg3.N) :
    (iblk3 V c 0 t : Vec Ideal S2000x128 .f32)
      = rowBlk (R := 2000) (N := 50000) (C := 128) (2000 * t.val) (rows3 t) (V c (Pipeline.arrRef spec3 0)) := by
  obtain ⟨e0, e1, -⟩ := idx3 t
  funext y
  unfold iblk3
  rw [View.read_apply, rowBlk_apply]
  show V c (Pipeline.arrRef spec3 0) _ = V c (Pipeline.arrRef spec3 0) _
  congr 1
  funext a; apply Fin.ext
  match a with
  | ⟨0, _⟩ => show win3_0.index t (0 : Fin 2) * 2000 + 1 * (y 0).val = 2000 * t.val + (y 0).val; rw [e0]; omega
  | ⟨1, _⟩ => show win3_0.index t (1 : Fin 2) * 128 + 1 * (y 1).val = (y 1).val; rw [e1]; omega

/-- The mean row's block at every point is the whole row. -/
theorem blk3_1 (c : Dev nD) (t : Fin cfg3.N) :
    (iblk3 V c 1 t : Vec Ideal S1x128 .f32) = V c (Pipeline.arrRef spec3 1) := by
  have e := idx3 t
  funext y
  unfold iblk3
  rw [View.read_apply]
  show V c (Pipeline.arrRef spec3 1) _ = V c (Pipeline.arrRef spec3 1) _
  congr 1
  funext a; apply Fin.ext
  have hy : (y 0).val < 1 := (y 0).isLt
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- The variance row's block at every point is the whole row. -/
theorem blk3_2 (c : Dev nD) (t : Fin cfg3.N) :
    (iblk3 V c 2 t : Vec Ideal S1x128 .f32) = V c (Pipeline.arrRef spec3 2) := by
  have e := idx3 t
  funext y
  unfold iblk3
  rw [View.read_apply]
  show V c (Pipeline.arrRef spec3 2) _ = V c (Pipeline.arrRef spec3 2) _
  congr 1
  funext a; apply Fin.ext
  have hy : (y 0).val < 1 := (y 0).isLt
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The scale row's block at every point is the whole row. -/
theorem blk3_3 (c : Dev nD) (t : Fin cfg3.N) :
    (iblk3 V c 3 t : Vec Ideal S1x128 .f32) = V c (Pipeline.arrRef spec3 3) := by
  have e := idx3 t
  funext y
  unfold iblk3
  rw [View.read_apply]
  show V c (Pipeline.arrRef spec3 3) _ = V c (Pipeline.arrRef spec3 3) _
  congr 1
  funext a; apply Fin.ext
  have hy : (y 0).val < 1 := (y 0).isLt
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The shift row's block at every point is the whole row. -/
theorem blk3_4 (c : Dev nD) (t : Fin cfg3.N) :
    (iblk3 V c 4 t : Vec Ideal S1x128 .f32) = V c (Pipeline.arrRef spec3 4) := by
  have e := idx3 t
  funext y
  unfold iblk3
  rw [View.read_apply]
  show V c (Pipeline.arrRef spec3 4) _ = V c (Pipeline.arrRef spec3 4) _
  congr 1
  funext a; apply Fin.ext
  have hy : (y 0).val < 1 := (y 0).isLt
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- After the body at point t the output's buffer holds rows 2000 t … 2000 t + 1999 of the whole-array form of the
    arrays as the region finds them. -/
theorem after3_rowBlk (c : Dev nD) (t : Fin cfg3.N) :
    ((dat3 (F := Ideal) V c).after 5 t : Vec Ideal S2000x128 .f32)
      = rowBlk (R := 2000) (N := 50000) (C := 128) (2000 * t.val) (rows3 t)
          (bnWhole (V c (Pipeline.arrRef spec3 0)) (V c (Pipeline.arrRef spec3 1)) (V c (Pipeline.arrRef spec3 2))
            (V c (Pipeline.arrRef spec3 3)) (V c (Pipeline.arrRef spec3 4))) := by
  rw [after3_5]
  exact out3_rowBlk _ _ _ _ _ (2000 * t.val) (rows3 t) _ _ _ _ _ (blk3_0 V c t) (blk3_1 V c t) (blk3_2 V c t) (blk3_3 V c t) (blk3_4 V c t)

/-- Rows 2000 t … 2000 t + 1999 of an array are what point t's output block reads of it. -/
theorem read3_rowBlk (t : Fin cfg3.N) (W : FVec Ideal S50000x128 .f32) :
    (rowBlk (R := 2000) (N := 50000) (C := 128) (2000 * t.val) (rows3 t) W : Vec Ideal S2000x128 .f32)
      = ((cfg3.win 5).blk t).view.read (Elt Ideal) W := by
  obtain ⟨-, -, e0, e1, -⟩ := idx3 t
  funext j
  rw [View.read_apply, rowBlk_apply]
  show W _ = W _
  congr 1
  funext a; apply Fin.ext
  match a with
  | ⟨0, _⟩ => show 2000 * t.val + (j 0).val = win3_5.index t (0 : Fin 2) * 2000 + 1 * (j 0).val; rw [e0]; omega
  | ⟨1, _⟩ => show (j 1).val = win3_5.index t (1 : Fin 2) * 128 + 1 * (j 1).val; rw [e1]; omega

/-- What point t writes back is block t of the whole-array form of the arrays as the region finds them. -/
theorem flushed3_eq (c : Dev nD) (t : Fin cfg3.N) :
    (dat3 (F := Ideal) V c).flushed 5 t = ((cfg3.win 5).blk t).view.read (Elt Ideal)
      (bnWhole (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_rowBlk V c t]
  exact read3_rowBlk t _

/-- An entry of the array is in point t's output block iff each coordinate is in the block's range on its axis. -/
theorem mem_blk3_5 (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v60).slice (win3_5.rect t)).set ↔ _
  rw [View.set_slice_whole, Rect.mem_set_unit]
  exact Iff.rfl

/-- Row r of the array is in the output block of point r / 2000, and every point writes its block back. -/
theorem cover3_out (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨-, -, e0, e1, -⟩ := idx3 t
  have e0' : win3_5.index t (0 : Fin 2) = (i 0).val / 2000 := e0
  refine ⟨t, flush3_5 t, ?_⟩
  rw [mem_blk3_5]
  intro a
  match a with
  | ⟨0, _⟩ => show win3_5.index t (0 : Fin 2) * 2000 ≤ (i 0).val ∧ (i 0).val < win3_5.index t (0 : Fin 2) * 2000 + 2000; rw [e0']; omega
  | ⟨1, _⟩ => show win3_5.index t (1 : Fin 2) * 128 ≤ (i 1).val ∧ (i 1).val < win3_5.index t (1 : Fin 2) * 128 + 128; rw [e1]; omega

/-- The output array after the region: the whole-array form of the five arrays as the region finds them. -/
theorem final3 (c : Dev nD) :
    (dat3 (F := Ideal) V c).arrAt 5 cfg3.N
      = bnWhole (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5
    (bnWhole (V c (Pipeline.arrRef spec3 0)) (V c (Pipeline.arrRef spec3 1)) (V c (Pipeline.arrRef spec3 2))
      (V c (Pipeline.arrRef spec3 3)) (V c (Pipeline.arrRef spec3 4)))
    (fun t _ => flushed3_eq V c t) cover3_out

end Cert.KernelIdeal.BnValue

end
-- ==== Proof.KHost3.lean ====
/-
  The host operations between the third and the fourth kernel region, read from any buffer contents: the same rows
  as between the first two regions, for the second layer (the mean row, the second-moment row less the squared mean
  row, the two parameter vectors as rows); every other buffer keeps its contents.
-/
import proofs.«168245_j45801531245071_1_alg».proof.Proof.KHost1

noncomputable section

namespace Cert.KernelIdeal.HostRead

open Idealize.ShloMosaic Idealize.SL.Sem Cert.KernelIdeal Cert.KernelIdeal.Gen Cert.KernelIdeal.Facts₀

variable {F : FTy → Type} [FloatOps F] (W : Valuation τ sig (Elt F))

theorem h3_v53 : StableHlo.after hostOps3 W (Proc.devRef .tc main_v53)
    = meanRow (W (Proc.devRef .tc main_v51_1)) := by
  dsimp only [hostOps3]
  after_results_simp
  rfl

theorem h3_v57 : StableHlo.after hostOps3 W (Proc.devRef .tc main_v57)
    = varRow (W (Proc.devRef .tc main_v51_1)) (W (Proc.devRef .tc main_v51_2)) := by
  dsimp only [hostOps3]
  after_results_simp
  rfl

theorem h3_v58 : StableHlo.after hostOps3 W (Proc.devRef .tc main_v58)
    = rowOf (W (Proc.devRef .tc main_arg10)) := by
  dsimp only [hostOps3]
  after_results_simp
  rfl

theorem h3_v59 : StableHlo.after hostOps3 W (Proc.devRef .tc main_v59)
    = rowOf (W (Proc.devRef .tc main_arg11)) := by
  dsimp only [hostOps3]
  after_results_simp
  rfl

theorem h3_keep_v51_0 : StableHlo.after hostOps3 W (Proc.devRef .tc main_v51_0) = W (Proc.devRef .tc main_v51_0) := by
  dsimp only [hostOps3]
  after_results_simp

end Cert.KernelIdeal.HostRead
end
-- ==== Proof.KChain3.lean ====
/-
  The kernel program's result buffer as one term of the arguments' launch contents: after the fourth host stretch the
  mean row and the variance row of the second layer's pre-activation and its scale and shift rows; after the fourth
  region the second layer's result, which is the layer applied to the first layer's result over the same two index vectors.
-/
import proofs.«168245_j45801531245071_1_alg».proof.Proof.KChain2
import proofs.«168245_j45801531245071_1_alg».proof.Proof.BnRegion3
import proofs.«168245_j45801531245071_1_alg».proof.Proof.KHost3

noncomputable section

namespace Cert.KernelIdeal.Chain

open Idealize.ShloMosaic Idealize.ShloMosaic.TcCoe Idealize.SL.Sem Cert.KernelIdeal Cert.KernelIdeal.Gen Cert.KernelIdeal.HostRead
open Cert.KernelIdeal.Layer Cert.KernelIdeal.StatsValue Cert.KernelIdeal.BnValue

variable (m : (ℓ : Loc nD τ sig) → Buf (Elt Ideal) ℓ) (ρ : Dev nD → PrngReg) (c : Dev nD)

/-! after the fourth host stretch -/

theorem W7_v51_0 : W7 m ρ c (Proc.devRef .tc main_v51_0) = (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9))) :=
  (h3_keep_v51_0 (W6 m ρ c)).trans (W6_v51_0 m ρ c)
theorem W7_v53 : W7 m ρ c (Proc.devRef .tc main_v53) = meanRow (F := Ideal) (colSumRow (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9)))) :=
  (h3_v53 (W6 m ρ c)).trans (congrArg (meanRow (F := Ideal)) (W6_v51_1 m ρ c))
theorem W7_v57 : W7 m ρ c (Proc.devRef .tc main_v57) = varRow (F := Ideal) (colSumRow (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9)))) (colSumRow (mulf (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9))) (hK (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))) (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9))))) :=
  (h3_v57 (W6 m ρ c)).trans (congrArg₂ (varRow (F := Ideal)) (W6_v51_1 m ρ c) (W6_v51_2 m ρ c))
theorem W7_v58 : W7 m ρ c (Proc.devRef .tc main_v58) = rowOf (F := Ideal) (m ((c : Thread nD τ).loc main_arg10)) :=
  (h3_v58 (W6 m ρ c)).trans (congrArg (rowOf (F := Ideal)) (W6_arg10 m ρ c))
theorem W7_v59 : W7 m ρ c (Proc.devRef .tc main_v59) = rowOf (F := Ideal) (m ((c : Thread nD τ).loc main_arg11)) :=
  (h3_v59 (W6 m ρ c)).trans (congrArg (rowOf (F := Ideal)) (W6_arg11 m ρ c))

/-- the program's result: two layers over the two rows of the edge index -/
theorem value_out :
    W8 (F := Ideal) m ρ c (Proc.devRef .tc main_v60)
      = kLayer (kLayer (m ((c : Thread nD τ).loc main_arg0)) (srcOfK (m ((c : Thread nD τ).loc main_arg1))) (dstOfK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)))
          (srcOfK (m ((c : Thread nD τ).loc main_arg1))) (dstOfK (m ((c : Thread nD τ).loc main_arg1))) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ((final3 (V7 m ρ) c).trans ?_)
  show bnWhole (W7 m ρ c (Proc.devRef .tc main_v51_0)) (W7 m ρ c (Proc.devRef .tc main_v53)) (W7 m ρ c (Proc.devRef .tc main_v57))
      (W7 m ρ c (Proc.devRef .tc main_v58)) (W7 m ρ c (Proc.devRef .tc main_v59)) = _
  rw [W7_v51_0, W7_v53, W7_v57, W7_v58, W7_v59]
  exact (kLayer_eq _ _ _ _ _ _ _ _).symm

end Cert.KernelIdeal.Chain

end
-- ==== Proof.RefDefs.lean ====
/-
  The reference program's result as one function of its arguments, built from the same host operations in the
  same order as its text: a graph layer is the neighbourhood mean (AggDef), two products with transposed weights and
  a bias, then a normalisation over the nodes by the mean and the mean squared deviation, a scale, a shift, and a
  maximum with zero; the program applies two such layers.
-/
import proofs.«168245_j45801531245071_1_alg».proof.ReferenceIdeal
import proofs.«168245_j45801531245071_1_alg».proof.Proof.Gen.ReferenceIdeal
import proofs.«168245_j45801531245071_1_alg».proof.Proof.AggDef

noncomputable section

namespace Cert.ReferenceIdeal.Hand

open Idealize.ShloMosaic Cert.ReferenceIdeal Cert.ReferenceIdeal.Facts₀

variable {F : FTy → Type} [FloatOps F]

/-- the two rows of the edge index as vectors -/
def srcOf (e : IVec S2x1600000 32) : IVec S1600000 32 :=
  shapeCast S1600000 (extractStridedSlice S1x1600000 ![0, 0] e slices_S2x1600000_S1x1600000_0_0) shapeCasts_S1x1600000_S1600000
def dstOf (e : IVec S2x1600000 32) : IVec S1600000 32 :=
  shapeCast S1600000 (extractStridedSlice S1x1600000 ![1, 0] e slices_S2x1600000_S1x1600000_1_0) shapeCasts_S1x1600000_S1600000

/-- a vector as a row, and a row stretched over all nodes -/
abbrev asRow (v : FVec F S128 .f32) : FVec F S1x128 .f32 := broadcastInDim S1x128 ![1] bcast_S128_S1x128_1 v
abbrev overNodes (r : FVec F S1x128 .f32) : FVec F S50000x128 .f32 := broadcastInDim S50000x128 ![0, 1] bcast_S1x128_S50000x128_0_1 r
abbrev zeroS : FVec F S_ .f32 := constant S_ .f32 0x00000000#32
abbrev nS : FVec F S_ .f32 := constant S_ .f32 0x47435000#32

/-- aggregated rows times Wlᵀ, plus the bias, plus own rows times Wrᵀ -/
def pre (A X : FVec F S50000x128 .f32) (Wl : FVec F S128x128 .f32) (bl : FVec F S128 .f32) (Wr : FVec F S128x128 .f32) :
    FVec F S50000x128 .f32 :=
  addf
    (addf (Host.dotGeneral dot_S50000x128_S128x128_S50000x128_1_0_0_1_n_n none A (transpose S128x128 [1, 0] Wl transposes_S128x128_S128x128_1_0))
      (overNodes (asRow bl)))
    (Host.dotGeneral dot_S50000x128_S128x128_S50000x128_1_0_0_1_n_n none X (transpose S128x128 [1, 0] Wr transposes_S128x128_S128x128_1_0))

/-- the sum down each column -/
def colSum (H : FVec F S50000x128 .f32) : FVec F S128 .f32 := Host.reduceAdd H (zeroS (F := F)) reducesTo_S50000x128_S128_d0 h_S_

/-- the mean over the nodes of each feature -/
def meanV (H : FVec F S50000x128 .f32) : FVec F S128 .f32 :=
  Host.divf (colSum H) (broadcastInDim S128 ![] bcast_S_S128 (nS (F := F)))

/-- the divisor of the variance: the count less the (zero) correction -/
def nCorr : FVec F S_ .f32 := subf (nS (F := F)) (sitofp .f32 (constantI S_ 32 0#32))

/-- the deviations from the mean, the mean taken as a row -/
def centred (H : FVec F S50000x128 .f32) : FVec F S50000x128 .f32 :=
  subf H (overNodes (Host.divf (asRow (colSum H)) (broadcastInDim S1x128 ![] bcast_S_S1x128 (nS (F := F)))))

/-- the mean squared deviation of each feature, guarded by the divisor's sign as the source's where() is -/
def varV (H : FVec F S50000x128 .f32) : FVec F S128 .f32 :=
  select (broadcastInDim S128 ![] bcast_S_S128 (cmpf .ogt (nCorr (F := F)) (zeroS (F := F))))
    (Host.divf (colSum (mulf (centred H) (centred H))) (broadcastInDim S128 ![] bcast_S_S128 (nCorr (F := F))))
    (broadcastInDim S128 ![] bcast_S_S128 (id (constant (F := F) S_ .f32 0x7FC00000#32)))

/-- normalise, scale, shift, maximum with zero -/
def bnrelu (H : FVec F S50000x128 .f32) (g be : FVec F S128 .f32) : FVec F S50000x128 .f32 :=
  maximumf
    (addf
      (mulf
        (mulf (subf H (overNodes (asRow (meanV H))))
          (overNodes (asRow (Host.rsqrt (addf (varV H) (broadcastInDim S128 ![] bcast_S_S128 (constant (F := F) S_ .f32 0x3727C5AC#32)))))))
        (overNodes (asRow g)))
      (overNodes (asRow be)))
    (broadcastInDim S50000x128 ![] bcast_S_S50000x128 (zeroS (F := F)))

/-- one layer -/
def layer (x : FVec F S50000x128 .f32) (src dst : IVec S1600000 32) (Wl : FVec F S128x128 .f32) (bl : FVec F S128 .f32)
    (Wr : FVec F S128x128 .f32) (g be : FVec F S128 .f32) : FVec F S50000x128 .f32 :=
  bnrelu (pre (Cert.Sage.agg x src dst) x Wl bl Wr) g be

/-- the program -/
def out (a0 : FVec F S50000x128 .f32) (a1 : IVec S2x1600000 32) (a2 : FVec F S128x128 .f32) (a3 : FVec F S128 .f32)
    (a4 : FVec F S128x128 .f32) (a5 a6 : FVec F S128 .f32) (a7 : FVec F S128x128 .f32) (a8 : FVec F S128 .f32)
    (a9 : FVec F S128x128 .f32) (a10 a11 : FVec F S128 .f32) : FVec F S50000x128 .f32 :=
  layer (layer a0 (srcOf a1) (dstOf a1) a2 a3 a4 a5 a6) (srcOf a1) (dstOf a1) a7 a8 a9 a10 a11

end Cert.ReferenceIdeal.Hand

end
-- ==== Proof.RefRead.lean ====
/-
  The reference's definitions read at an index, at the ideal values.

  The two float literals are the reals 50000 and a positive ε.  A product with a transposed weight matrix, read at
  (r, c), is the sum over k of left (r, k) times weight (c, k); a vector taken as a row and stretched over the nodes
  reads the vector at the column; the sum down a column from a zero initial value is the sum over the rows; the mean
  is that sum divided by 50000.
-/
import proofs.«168245_j45801531245071_1_alg».proof.Proof.RefDefs
import proofs.«168245_j45801531245071_1_alg».proof.Proof.LibPlainDot
import Idealize.ShloMosaic.Lib.IdealHost
import Idealize.ShloMosaic.Lib.KernelVsHost
import Idealize.ShloMosaic.Lib.ValueLayout

noncomputable section

namespace Cert.ReferenceIdeal.Hand

open Idealize.ShloMosaic Idealize.ShloMosaic.ValueIdx Cert.ReferenceIdeal Cert.ReferenceIdeal.Facts₀
open scoped BigOperators

theorem ofBits_n : Ideal.ofBits .f32 0x47435000#32 = ((50000 : ℝ) : EReal) := by
  simp [Ideal.ofBits, Ideal.ieee, -EReal.coe_mul]; norm_num

theorem eps_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

theorem dot_eq_plain : dot_S50000x128_S128x128_S50000x128_1_0_0_1_n_n = DotDims.plain 50000 128 128 := rfl

theorem colSum_apply (H : FVec Ideal S50000x128 .f32) (c : Fin 128) :
    colSum (F := Ideal) H (ix1 c) = ∑ r : Fin 50000, H (ix2 r c) := by
  have h2 : S50000x128.Reduces [0] S128 :=
    ⟨reducesTo_S50000x128_S128_d0.1, Nat.one_pos, reducesTo_S50000x128_S128_d0.2⟩
  unfold colSum
  rw [hostReduceAdd_apply, Ideal.hostReduceAdd_single reducesTo_S50000x128_S128_d0 h2]
  show Ideal.ofBits .f32 0x00000000#32 + _ = _
  rw [Ideal.ofBits_zero_f32, zero_add]
  refine Finset.sum_congr rfl fun k _ => congrArg H (funext fun a => Fin.ext ?_)
  match a with
  | ⟨0, _⟩ => rfl
  | ⟨1, _⟩ => rfl

theorem nS_apply (j : S_.Idx) : nS (F := Ideal) j = ((50000 : ℝ) : EReal) := ofBits_n

theorem meanV_apply (H : FVec Ideal S50000x128 .f32) (c : Fin 128) :
    meanV (F := Ideal) H (ix1 c) = Ideal.div (∑ r : Fin 50000, H (ix2 r c)) ((50000 : ℝ) : EReal) := by
  unfold meanV
  rw [hostDivf_apply, colSum_apply, broadcastInDim_scalar_apply, nS_apply]

theorem asRow_apply (v : FVec Ideal S128 .f32) (z : Fin 1) (c : Fin 128) : asRow v (ix2 z c) = v (ix1 c) := by
  refine broadcastInDim_apply ![1] bcast_S128_S1x128_1 v (ix2 z c) (ix1 c) ?_
  intro a
  fin_cases a
  rfl

theorem overNodes_apply (y : FVec Ideal S1x128 .f32) (r : Fin 50000) (c : Fin 128) :
    overNodes y (ix2 r c) = y (ix2 (0 : Fin 1) c) :=
  broadcastInDim_oneRow_apply bcast_S1x128_S50000x128_0_1 y r c

theorem dotT_apply (A : FVec Ideal S50000x128 .f32) (W : FVec Ideal S128x128 .f32) (r : Fin 50000) (c : Fin 128) :
    Host.dotGeneral dot_S50000x128_S128x128_S50000x128_1_0_0_1_n_n none A
        (transpose S128x128 [1, 0] W transposes_S128x128_S128x128_1_0) (ix2 r c)
      = ∑ k : Fin 128, A (ix2 r k) * W (ix2 c k) := by
  unfold Host.dotGeneral
  rw [Cert.Lib.PlainDot.dotGeneral_apply _ dot_eq_plain]
  unfold Cert.Lib.PlainDot.mm
  refine Finset.sum_congr rfl fun k _ => ?_
  have e1 : Cert.Lib.PlainDot.rowIdx (K := 128) (ix2 r c) k = ix2 r k :=
    funext fun a => match a with | ⟨0, _⟩ => rfl | ⟨1, _⟩ => rfl
  have e2 : Cert.Lib.PlainDot.colIdx (K := 128) (ix2 r c) k = ix2 k c :=
    funext fun a => match a with | ⟨0, _⟩ => rfl | ⟨1, _⟩ => rfl
  rw [e1, e2, transpose_ix2_apply]

theorem pre_apply (A X : FVec Ideal S50000x128 .f32) (Wl : FVec Ideal S128x128 .f32) (bl : FVec Ideal S128 .f32)
    (Wr : FVec Ideal S128x128 .f32) (r : Fin 50000) (c : Fin 128) :
    pre (F := Ideal) A X Wl bl Wr (ix2 r c)
      = (∑ k : Fin 128, A (ix2 r k) * Wl (ix2 c k) + bl (ix1 c)) + ∑ k : Fin 128, X (ix2 r k) * Wr (ix2 c k) := by
  unfold pre
  rw [addf_apply, addf_apply, dotT_apply, dotT_apply, overNodes_apply, asRow_apply]

end Cert.ReferenceIdeal.Hand
end
-- ==== Proof.KHostRows.lean ====
/-
  The rows the host forms between kernel regions, read at an index, at the ideal values: the node count is the
  real 50000, so the mean row at column c is the column sum over 50000, the variance row is the second-moment row
  over 50000 less the squared mean, and a vector taken as a row reads the vector at the column.
-/
import proofs.«168245_j45801531245071_1_alg».proof.Proof.KHost1
import proofs.«168245_j45801531245071_1_alg».proof.Proof.RefRead

noncomputable section

namespace Cert.KernelIdeal.HostRead

open Idealize.ShloMosaic Idealize.ShloMosaic.ValueIdx Cert.KernelIdeal

theorem nRow_apply (j : S1x128.Idx) : nRow (F := Ideal) j = ((50000 : ℝ) : EReal) := by
  unfold nRow
  rw [broadcastInDim_scalar_apply, constant_apply, Cert.ReferenceIdeal.Hand.ofBits_n]

theorem meanRow_apply (S : FVec Ideal S1x128 .f32) (c : Fin 128) :
    meanRow (F := Ideal) S (ix2 0 c) = Ideal.div (S (ix2 0 c)) ((50000 : ℝ) : EReal) := by
  unfold meanRow
  rw [hostDivf_apply, nRow_apply]

theorem varRow_apply (S Q : FVec Ideal S1x128 .f32) (c : Fin 128) :
    varRow (F := Ideal) S Q (ix2 0 c)
      = Ideal.div (Q (ix2 0 c)) ((50000 : ℝ) : EReal)
        - meanRow (F := Ideal) S (ix2 0 c) * meanRow (F := Ideal) S (ix2 0 c) := by
  unfold varRow
  rw [subf_apply, hostDivf_apply, mulf_apply, nRow_apply]

theorem rowOf_apply (v : FVec Ideal S128 .f32) (c : Fin 128) : rowOf (F := Ideal) v (ix2 0 c) = v (ix1 c) := by
  unfold rowOf
  exact shapeCast_a_1a_apply v _ 0 c

end Cert.KernelIdeal.HostRead
end
-- ==== Proof.BridgePre.lean ====
/-
  The pre-activation of a layer, entry by entry: Σₖ A(r,k)·Wl(c,k) + bl(c) + Σₖ X(r,k)·Wr(c,k), for the kernel program's
  whole-array form (weights transposed beforehand, the bias a row stretched over the nodes) as for the reference's.
-/
import proofs.«168245_j45801531245071_1_alg».proof.Proof.KLayer
import proofs.«168245_j45801531245071_1_alg».proof.Proof.KHostRows
import proofs.«168245_j45801531245071_1_alg».proof.Proof.RefRead

noncomputable section

namespace Cert.SageBridge

open Idealize.ShloMosaic Idealize.ShloMosaic.ValueIdx
open Cert.KernelIdeal Cert.KernelIdeal.StatsValue Cert.KernelIdeal.BnValue Cert.KernelIdeal.HostRead Cert.KernelIdeal.Layer
open scoped BigOperators

/-- a product with a transposed weight matrix, entry by entry -/
theorem dotT (A : FVec Ideal S50000x128 .f32) (W : FVec Ideal S128x128 .f32) (r : Fin 50000) (c : Fin 128) :
    Host.dotGeneral (F := Ideal) (DotDims.plain 50000 128 128) none A (trK W) (ix2 r c) = ∑ k : Fin 128, A (ix2 r k) * W (ix2 c k) := by
  have e := Cert.ReferenceIdeal.Hand.dotT_apply A W r c
  rw [Cert.ReferenceIdeal.Hand.dot_eq_plain] at e
  exact e

/-- a row stretched over the nodes, entry by entry -/
theorem stretch (B : FVec Ideal S1x128 .f32) (r : Fin 50000) (c : Fin 128) :
    broadcastInDim S50000x128 ![0, 1] StatsValue.bRN B (ix2 r c) = B (ix2 0 c) :=
  Cert.ReferenceIdeal.Hand.overNodes_apply B r c

theorem preK_apply (A X : FVec Ideal S50000x128 .f32) (Wl : FVec Ideal S128x128 .f32) (bl : FVec Ideal S128 .f32)
    (Wr : FVec Ideal S128x128 .f32) (r : Fin 50000) (c : Fin 128) :
    preK A X (trK Wl) (rowOf bl) (trK Wr) (ix2 r c)
      = (∑ k : Fin 128, A (ix2 r k) * Wl (ix2 c k) + bl (ix1 c)) + ∑ k : Fin 128, X (ix2 r k) * Wr (ix2 c k) := by
  unfold preK
  show (Host.dotGeneral (F := Ideal) (DotDims.plain 50000 128 128) none A (trK Wl) (ix2 r c)
      + broadcastInDim S50000x128 ![0, 1] StatsValue.bRN (rowOf (F := Ideal) bl) (ix2 r c))
    + Host.dotGeneral (F := Ideal) (DotDims.plain 50000 128 128) none X (trK Wr) (ix2 r c) = _
  rw [dotT, dotT, stretch, rowOf_apply]

/-- the kernel's pre-activation over variable arrays is the reference's -/
theorem preK_eq (A X : FVec Ideal S50000x128 .f32) (Wl : FVec Ideal S128x128 .f32) (bl : FVec Ideal S128 .f32)
    (Wr : FVec Ideal S128x128 .f32) :
    preK A X (trK Wl) (rowOf bl) (trK Wr) = Cert.ReferenceIdeal.Hand.pre (F := Ideal) A X Wl bl Wr := by
  funext i
  obtain ⟨r, c, rfl⟩ : ∃ (r : Fin 50000) (c : Fin 128), i = ix2 r c := ⟨i 0, i 1, eq_ix2 i⟩
  rw [preK_apply, Cert.ReferenceIdeal.Hand.pre_apply]

end Cert.SageBridge

end
-- ==== Proof.RefRead2.lean ====
/-
  The reference's variance and its normalised layer read at an index, at the ideal values.

  The variance's divisor is 50000 less the integer zero converted, that is 50000, which is positive: the guard of the
  selection holds and its second branch is never read.  The deviations read the entry less the column's mean, so the
  variance at a column is the sum over the rows of the squared deviations divided by 50000.  The layer's result at
  (r, c) is the maximum with zero of the deviation times the reciprocal square root of the variance plus ε, scaled
  and shifted by the column's entries of the two parameter vectors.
-/
import proofs.«168245_j45801531245071_1_alg».proof.Proof.RefRead

noncomputable section

namespace Cert.ReferenceIdeal.Hand

open Idealize.ShloMosaic Idealize.ShloMosaic.ValueIdx Cert.ReferenceIdeal Cert.ReferenceIdeal.Facts₀
open scoped BigOperators

theorem nCorr_apply (j : S_.Idx) : nCorr (F := Ideal) j = ((50000 : ℝ) : EReal) := by
  show Ideal.ofBits .f32 0x47435000#32 - ((((0#32 : BitVec 32).toInt : ℝ)) : EReal) = _
  rw [ofBits_n]
  simp

theorem guard_true (j : S_.Idx) : cmpf .ogt (nCorr (F := Ideal)) (zeroS (F := Ideal)) j = 1#1 := by
  rw [cmpf_apply, nCorr_apply]
  show BitVec.ofBool (decide (Ideal.ofBits .f32 0x00000000#32 < ((50000 : ℝ) : EReal))) = 1#1
  rw [Ideal.ofBits_zero_f32, decide_eq_true (by exact_mod_cast (by norm_num : (0 : ℝ) < 50000))]
  rfl

theorem centred_apply (H : FVec Ideal S50000x128 .f32) (r : Fin 50000) (c : Fin 128) :
    centred (F := Ideal) H (ix2 r c) = H (ix2 r c) - meanV (F := Ideal) H (ix1 c) := by
  unfold centred
  rw [subf_apply, overNodes_apply, hostDivf_apply, asRow_apply, broadcastInDim_scalar_apply, nS_apply, colSum_apply,
    meanV_apply]

theorem varV_apply (H : FVec Ideal S50000x128 .f32) (c : Fin 128) :
    varV (F := Ideal) H (ix1 c)
      = Ideal.div (∑ r : Fin 50000, (H (ix2 r c) - meanV (F := Ideal) H (ix1 c)) * (H (ix2 r c) - meanV (F := Ideal) H (ix1 c)))
          ((50000 : ℝ) : EReal) := by
  unfold varV
  rw [select_apply, broadcastInDim_scalar_apply, guard_true, select_one, hostDivf_apply, colSum_apply,
    broadcastInDim_scalar_apply, nCorr_apply]
  have e : ∀ r : Fin 50000, mulf (centred (F := Ideal) H) (centred (F := Ideal) H) (ix2 r c)
      = (H (ix2 r c) - meanV (F := Ideal) H (ix1 c)) * (H (ix2 r c) - meanV (F := Ideal) H (ix1 c)) := fun r => by
    rw [mulf_apply, centred_apply]
  rw [Finset.sum_congr rfl fun r _ => e r]

theorem hostRsqrt_apply {s : Shape} (x : FVec Ideal s .f32) (i : s.Idx) : Host.rsqrt x i = Ideal.rsqrt (x i) := rfl

theorem bnrelu_apply (H : FVec Ideal S50000x128 .f32) (g be : FVec Ideal S128 .f32) (r : Fin 50000) (c : Fin 128) :
    bnrelu (F := Ideal) H g be (ix2 r c)
      = max (((H (ix2 r c) - meanV (F := Ideal) H (ix1 c))
              * Ideal.rsqrt (varV (F := Ideal) H (ix1 c) + Ideal.ofBits .f32 0x3727C5AC#32)) * g (ix1 c) + be (ix1 c)) 0 := by
  unfold bnrelu
  rw [maximumf_apply, addf_apply, mulf_apply, mulf_apply, subf_apply, overNodes_apply, overNodes_apply, overNodes_apply,
    overNodes_apply, asRow_apply, asRow_apply, asRow_apply, asRow_apply, broadcastInDim_scalar_apply, hostRsqrt_apply,
    addf_apply, broadcastInDim_scalar_apply, constant_apply]
  show max _ (Ideal.ofBits .f32 0x00000000#32) = _
  rw [Ideal.ofBits_zero_f32]

end Cert.ReferenceIdeal.Hand
end
-- ==== Proof.LibVariance.lean ====
/- The variance law on the extended reals.
   For finitely many REAL values the mean of the squared deviations from the mean is the mean of the squares less
   the square of the mean: E[(h - E h)²] = E[h²] - (E h)². It is stated on the extended reals, with the ideal float
   values' quotient `Ideal.div` by the (nonzero, real) number of values, for values each known to be a real: on the
   extended reals themselves the law fails (an infinite value makes the left side junk), so the hypothesis is needed.
   Before it, two casts: a finite sum of reals, and the quotient of a real by a nonzero real. -/
import Idealize.ShloMosaic.PureOps.Ideal
import Mathlib.Tactic

namespace LibVariance

open Idealize.ShloMosaic
open scoped BigOperators

/-- The cast of a finite sum of reals is the sum of the casts. -/
theorem coe_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- The ideal quotient of a real by a nonzero real is the real quotient. -/
theorem div_coe_coe (x : ℝ) {n : ℝ} (hn : n ≠ 0) : Ideal.div (x : EReal) (n : EReal) = ((x / n : ℝ) : EReal) := by
  rw [Ideal.div_coe hn, ← EReal.coe_mul, mul_one_div]

/-- A finite sum of values that are each a real is a real: the sum of those reals. -/
theorem sum_eq_coe {ι : Type*} (s : Finset ι) (f : ι → EReal) (a : ι → ℝ) (h : ∀ i, f i = (a i : EReal)) :
    ∑ i ∈ s, f i = ((∑ i ∈ s, a i : ℝ) : EReal) := by
  rw [coe_sum]; exact Finset.sum_congr rfl fun i _ => h i

/-- **The variance law.** For a finite family `f` of extended reals each of which is a real, and `n` the (nonzero)
    number of its members as a real: the sum of the squared deviations from the mean `(∑ f) / n`, divided by `n`,
    is the sum of the squares divided by `n` less the square of the mean. -/
theorem variance_law {ι : Type*} [Fintype ι] (f : ι → EReal) (hf : ∀ i, ∃ r : ℝ, f i = (r : EReal))
    {n : ℝ} (hn : (Fintype.card ι : ℝ) = n) (h0 : n ≠ 0) :
    Ideal.div (∑ i, (f i - Ideal.div (∑ k, f k) (n : EReal)) * (f i - Ideal.div (∑ k, f k) (n : EReal))) (n : EReal)
      = Ideal.div (∑ i, f i * f i) (n : EReal)
        - Ideal.div (∑ i, f i) (n : EReal) * Ideal.div (∑ i, f i) (n : EReal) := by
  choose a ha using hf
  rw [sum_eq_coe Finset.univ f a ha, div_coe_coe _ h0,
    sum_eq_coe Finset.univ (fun i => f i * f i) (fun i => a i * a i) (fun i => by rw [ha i, EReal.coe_mul]),
    div_coe_coe _ h0,
    sum_eq_coe Finset.univ _ (fun i => (a i - (∑ k, a k) / n) * (a i - (∑ k, a k) / n))
      (fun i => by rw [ha i, EReal.coe_mul, EReal.coe_sub]),
    div_coe_coe _ h0, ← EReal.coe_mul, ← EReal.coe_sub, EReal.coe_eq_coe_iff]
  have hsum : ∑ i, (a i - (∑ k, a k) / n) * (a i - (∑ k, a k) / n)
      = ∑ i, a i * a i - 2 * ((∑ k, a k) / n) * ∑ i, a i + n * (((∑ k, a k) / n) * ((∑ k, a k) / n)) := by
    have e : ∀ i, (a i - (∑ k, a k) / n) * (a i - (∑ k, a k) / n)
        = a i * a i - 2 * ((∑ k, a k) / n) * a i + ((∑ k, a k) / n) * ((∑ k, a k) / n) := fun i => by ring
    rw [Finset.sum_congr rfl fun i _ => e i, Finset.sum_add_distrib, Finset.sum_sub_distrib, ← Finset.mul_sum,
      Finset.sum_const, Finset.card_univ, nsmul_eq_mul, hn]
  rw [hsum]
  field_simp
  ring

end LibVariance
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.RefReal.lean ====
/-
  The reference's layer is real-valued on real arguments, and its variance has the two usual forms.

  For a real array the mean of the squares less the square of the mean is the mean of the squared deviations (the
  variance law).  Sums of products of reals, a real added, are reals, so the layer's pre-activation is real.  The
  variance of a real array is a mean of squares of reals, hence a real that is not negative; with the positive ε added
  it is positive, where the reciprocal square root is the real one; and a maximum of a real with zero is a real.
-/
import proofs.«168245_j45801531245071_1_alg».proof.Proof.RefRead2
import proofs.«168245_j45801531245071_1_alg».proof.Proof.LibVariance
import proofs.«168245_j45801531245071_1_alg».proof.Proof.LibRealSums

noncomputable section

namespace Cert.ReferenceIdeal.Hand

open Idealize.ShloMosaic Idealize.ShloMosaic.ValueIdx Cert.ReferenceIdeal Cert.ReferenceIdeal.Facts₀
open scoped BigOperators

theorem var_forms (H : FVec Ideal S50000x128 .f32) (hH : ∀ i, ∃ x : ℝ, H i = (x : EReal)) (c : Fin 128) :
    Ideal.div (∑ r : Fin 50000, H (ix2 r c) * H (ix2 r c)) ((50000 : ℝ) : EReal)
        - meanV (F := Ideal) H (ix1 c) * meanV (F := Ideal) H (ix1 c)
      = varV (F := Ideal) H (ix1 c) := by
  rw [varV_apply, meanV_apply]
  exact (LibVariance.variance_law (fun r : Fin 50000 => H (ix2 r c)) (fun r => hH _) (by simp) (by norm_num)).symm

theorem pre_real (A X : FVec Ideal S50000x128 .f32) (Wl : FVec Ideal S128x128 .f32) (bl : FVec Ideal S128 .f32)
    (Wr : FVec Ideal S128x128 .f32)
    (hA : ∀ i, ∃ x : ℝ, A i = (x : EReal)) (hX : ∀ i, ∃ x : ℝ, X i = (x : EReal))
    (hWl : ∀ i, ∃ x : ℝ, Wl i = (x : EReal)) (hbl : ∀ i, ∃ x : ℝ, bl i = (x : EReal))
    (hWr : ∀ i, ∃ x : ℝ, Wr i = (x : EReal)) :
    ∀ i, ∃ x : ℝ, pre (F := Ideal) A X Wl bl Wr i = (x : EReal) := by
  intro i
  obtain ⟨r, c, rfl⟩ : ∃ (r : Fin 50000) (c : Fin 128), i = ix2 r c := ⟨i 0, i 1, eq_ix2 i⟩
  rw [pre_apply]
  exact Cert.Lib.RealSums.add_real
    (Cert.Lib.RealSums.add_real (Cert.Lib.RealSums.sum_mul_real _ _ _ (fun k => hA _) (fun k => hWl _)) (hbl _))
    (Cert.Lib.RealSums.sum_mul_real _ _ _ (fun k => hX _) (fun k => hWr _))

theorem meanV_real (H : FVec Ideal S50000x128 .f32) (hH : ∀ i, ∃ x : ℝ, H i = (x : EReal)) (c : Fin 128) :
    ∃ m : ℝ, meanV (F := Ideal) H (ix1 c) = (m : EReal) := by
  choose a ha using hH
  rw [meanV_apply, LibVariance.sum_eq_coe Finset.univ _ (fun r : Fin 50000 => a (ix2 r c)) (fun r => ha _),
    LibVariance.div_coe_coe _ (by norm_num)]
  exact ⟨_, rfl⟩

theorem varV_real (H : FVec Ideal S50000x128 .f32) (hH : ∀ i, ∃ x : ℝ, H i = (x : EReal)) (c : Fin 128) :
    ∃ v : ℝ, 0 ≤ v ∧ varV (F := Ideal) H (ix1 c) = (v : EReal) := by
  obtain ⟨m, hm⟩ := meanV_real H hH c
  choose a ha using hH
  rw [varV_apply, hm,
    LibVariance.sum_eq_coe Finset.univ _ (fun r : Fin 50000 => (a (ix2 r c) - m) * (a (ix2 r c) - m))
      (fun r => by rw [ha, ← EReal.coe_sub, ← EReal.coe_mul]),
    LibVariance.div_coe_coe _ (by norm_num)]
  exact ⟨_, div_nonneg (Finset.sum_nonneg fun r _ => mul_self_nonneg _) (by norm_num), rfl⟩

theorem bnrelu_real (H : FVec Ideal S50000x128 .f32) (g be : FVec Ideal S128 .f32)
    (hH : ∀ i, ∃ x : ℝ, H i = (x : EReal)) (hg : ∀ i, ∃ x : ℝ, g i = (x : EReal))
    (hbe : ∀ i, ∃ x : ℝ, be i = (x : EReal)) :
    ∀ i, ∃ y : ℝ, bnrelu (F := Ideal) H g be i = (y : EReal) := by
  intro i
  obtain ⟨r, c, rfl⟩ : ∃ (r : Fin 50000) (c : Fin 128), i = ix2 r c := ⟨i 0, i 1, eq_ix2 i⟩
  obtain ⟨m, hm⟩ := meanV_real H hH c
  obtain ⟨v, hv0, hv⟩ := varV_real H hH c
  obtain ⟨e, he0, he⟩ := eps_pos
  obtain ⟨h, hh⟩ := hH (ix2 r c)
  obtain ⟨γ, hγ⟩ := hg (ix1 c)
  obtain ⟨β, hβ⟩ := hbe (ix1 c)
  have hpos : 0 < v + e := add_pos_of_nonneg_of_pos hv0 he0
  rw [bnrelu_apply, hm, hv, he, hh, hγ, hβ, ← EReal.coe_add, Ideal.rsqrt_coe, if_neg (not_lt.mpr hpos.le),
    if_neg hpos.ne', ← EReal.coe_sub, ← EReal.coe_mul, ← EReal.coe_mul, ← EReal.coe_add]
  exact Cert.Lib.RealSums.max_zero_real ⟨_, rfl⟩

end Cert.ReferenceIdeal.Hand
end
-- ==== Proof.BridgeNorm.lean ====
/-
  Normalising by the kernel program's rows is normalising by the reference's mean and variance.  The mean row is the
  column sum over the node count on both sides.  The kernel's variance row is the mean of squares less the squared
  mean; the reference's is the mean squared deviation; for real entries the two agree (the variance law).
-/
import proofs.«168245_j45801531245071_1_alg».proof.Proof.KLayer
import proofs.«168245_j45801531245071_1_alg».proof.Proof.KHostRows
import proofs.«168245_j45801531245071_1_alg».proof.Proof.RefReal

noncomputable section

namespace Cert.SageBridge

open Idealize.ShloMosaic Idealize.ShloMosaic.ValueIdx
open Cert.KernelIdeal Cert.KernelIdeal.StatsValue Cert.KernelIdeal.BnValue Cert.KernelIdeal.HostRead Cert.KernelIdeal.Layer
open scoped BigOperators

theorem colSumRow_apply (H : FVec Ideal S50000x128 .f32) (c : Fin 128) :
    colSumRow H (ix2 0 c) = ∑ r : Fin 50000, H (ix2 r c) := by
  unfold colSumRow
  exact Finset.sum_congr rfl fun r _ => rfl

theorem mean_eq (H : FVec Ideal S50000x128 .f32) (c : Fin 128) :
    meanRow (F := Ideal) (colSumRow H) (ix2 0 c) = Cert.ReferenceIdeal.Hand.meanV (F := Ideal) H (ix1 c) := by
  rw [meanRow_apply, colSumRow_apply, Cert.ReferenceIdeal.Hand.meanV_apply]

theorem var_eq (H : FVec Ideal S50000x128 .f32) (hH : ∀ i, ∃ y : ℝ, H i = (y : EReal)) (c : Fin 128) :
    varRow (F := Ideal) (colSumRow H) (colSumRow (mulf H H)) (ix2 0 c) = Cert.ReferenceIdeal.Hand.varV (F := Ideal) H (ix1 c) := by
  have hs : (∑ r : Fin 50000, (mulf H H) (ix2 r c)) = ∑ r : Fin 50000, H (ix2 r c) * H (ix2 r c) :=
    Finset.sum_congr rfl fun r _ => rfl
  rw [varRow_apply, mean_eq, colSumRow_apply, hs, Cert.ReferenceIdeal.Hand.var_forms H hH c]

theorem norm_eq (H : FVec Ideal S50000x128 .f32) (hH : ∀ i, ∃ y : ℝ, H i = (y : EReal)) (g be : FVec Ideal S128 .f32) :
    bnWhole H (meanRow (colSumRow H)) (varRow (colSumRow H) (colSumRow (mulf H H))) (rowOf g) (rowOf be)
      = Cert.ReferenceIdeal.Hand.bnrelu (F := Ideal) H g be := by
  funext i
  obtain ⟨r, c, rfl⟩ : ∃ (r : Fin 50000) (c : Fin 128), i = ix2 r c := ⟨i 0, i 1, eq_ix2 i⟩
  rw [bnWhole_apply, Cert.ReferenceIdeal.Hand.bnrelu_apply, mean_eq, var_eq H hH, rowOf_apply, rowOf_apply]

end Cert.SageBridge

end
-- ==== Proof.AggReal.lean ====
/-
  The neighbourhood mean of real features is real, at the exact instance.

  A gather and a broadcast read their operand at some index, so every entry of the result is an entry of the
  operand.  The accumulating scatter at the exact instance is the operand entry plus a finite sum of update entries:
  real when the operand and the updates are, and a nonnegative real when they are nonnegative reals.  The larger of a
  nonnegative real and one is a real that is not zero, and the exact quotient of a real by a nonzero real is a real.

  For the neighbourhood mean: the gathered rows are entries of the features; their scattered sums into a zero
  operand are finite sums of reals; the in-degree is a finite sum of ones added to zero, a nonnegative real, and its
  maximum with one is a real that is at least one; the quotient is then real.  Nothing is asked of the index words.
  The first part is stated over arbitrary shapes; the second applies it at the shapes of the layer.
-/
import proofs.«168245_j45801531245071_1_alg».proof.Proof.AggDef
import proofs.«168245_j45801531245071_1_alg».proof.Proof.LibVariance

noncomputable section

namespace Cert.Sage

open Idealize.ShloMosaic

/-! ## Arbitrary shapes -/

/-- Every entry of a gather is an entry of the operand. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- Every entry of a broadcast is an entry of the operand. -/
theorem bcast_real {s t : Shape} (dims : Fin s.rank → Fin t.rank) (h : s.BroadcastsInDim t dims) (x : s.Idx → EReal)
    (hx : ∀ i, ∃ r : ℝ, x i = (r : EReal)) (j : t.Idx) : ∃ r : ℝ, broadcastInDim t dims h x j = (r : EReal) := by
  unfold broadcastInDim
  exact hx _

/-- … and keeps a lower bound that holds of every operand entry. -/
theorem bcast_real_ge {s t : Shape} (dims : Fin s.rank → Fin t.rank) (h : s.BroadcastsInDim t dims) (x : s.Idx → EReal)
    (c : ℝ) (hx : ∀ i, ∃ r : ℝ, c ≤ r ∧ x i = (r : EReal)) (j : t.Idx) :
    ∃ r : ℝ, c ≤ r ∧ broadcastInDim t dims h x j = (r : EReal) := by
  unfold broadcastInDim
  exact hx _

/-- A finite sum of reals is a real. -/
theorem sum_real {ι : Type*} (S : Finset ι) (f : ι → EReal) (hf : ∀ i, ∃ r : ℝ, f i = (r : EReal)) :
    ∃ r : ℝ, ∑ i ∈ S, f i = (r : EReal) := by
  choose a ha using hf
  exact ⟨∑ i ∈ S, a i, LibVariance.sum_eq_coe S f a ha⟩

/-- A finite sum of nonnegative reals is a nonnegative real. -/
theorem sum_real_nonneg {ι : Type*} (S : Finset ι) (f : ι → EReal) (hf : ∀ i, ∃ r : ℝ, 0 ≤ r ∧ f i = (r : EReal)) :
    ∃ r : ℝ, 0 ≤ r ∧ ∑ i ∈ S, f i = (r : EReal) := by
  choose a ha using hf
  exact ⟨∑ i ∈ S, a i, Finset.sum_nonneg fun i _ => (ha i).1, LibVariance.sum_eq_coe S f a fun i => (ha i).2⟩

/-- The accumulating scatter of real updates into a real operand is real. -/
theorem scatterAdd_real {s si su : Shape} {w : Nat} {φ : FTy} (d : ScatterDims s si su) (x : FVec Ideal s φ)
    (idx : IVec si w) (u : FVec Ideal su φ) (hx : ∀ i, ∃ r : ℝ, x i = (r : EReal))
    (hu : ∀ j, ∃ r : ℝ, u j = (r : EReal)) (i : s.Idx) :
    ∃ r : ℝ, Host.scatterAdd (F := Ideal) d x idx u i = (r : EReal) := by
  obtain ⟨a, ha⟩ := hx i
  obtain ⟨b, hb⟩ := sum_real (Finset.univ.filter fun j => d.resultIdx? j idx = some i) u hu
  refine ⟨a + b, ?_⟩
  show x i + ∑ j ∈ Finset.univ.filter (fun j => d.resultIdx? j idx = some i), u j = _
  rw [ha, hb, EReal.coe_add]

/-- The accumulating scatter of nonnegative real updates into a nonnegative real operand is a nonnegative real. -/
theorem scatterAdd_real_nonneg {s si su : Shape} {w : Nat} {φ : FTy} (d : ScatterDims s si su) (x : FVec Ideal s φ)
    (idx : IVec si w) (u : FVec Ideal su φ) (hx : ∀ i, ∃ r : ℝ, 0 ≤ r ∧ x i = (r : EReal))
    (hu : ∀ j, ∃ r : ℝ, 0 ≤ r ∧ u j = (r : EReal)) (i : s.Idx) :
    ∃ r : ℝ, 0 ≤ r ∧ Host.scatterAdd (F := Ideal) d x idx u i = (r : EReal) := by
  obtain ⟨a, ha0, ha⟩ := hx i
  obtain ⟨b, hb0, hb⟩ := sum_real_nonneg (Finset.univ.filter fun j => d.resultIdx? j idx = some i) u hu
  refine ⟨a + b, add_nonneg ha0 hb0, ?_⟩
  show x i + ∑ j ∈ Finset.univ.filter (fun j => d.resultIdx? j idx = some i), u j = _
  rw [ha, hb, EReal.coe_add]

/-- The larger of a nonnegative real and one is a real that is at least one. -/
theorem max_one_real {x : EReal} (hx : ∃ r : ℝ, 0 ≤ r ∧ x = (r : EReal)) : ∃ r : ℝ, 1 ≤ r ∧ max x 1 = (r : EReal) := by
  obtain ⟨r, _, rfl⟩ := hx
  refine ⟨max r 1, le_max_right r 1, ?_⟩
  rw [← EReal.coe_one]
  exact (EReal.coe_strictMono.monotone.map_max).symm

/-- The exact quotient of a real by a real that is at least one is a real. -/
theorem div_real {x y : EReal} (hx : ∃ r : ℝ, x = (r : EReal)) (hy : ∃ r : ℝ, 1 ≤ r ∧ y = (r : EReal)) :
    ∃ r : ℝ, Ideal.div x y = (r : EReal) := by
  obtain ⟨a, rfl⟩ := hx
  obtain ⟨b, hb, rfl⟩ := hy
  exact ⟨a / b, LibVariance.div_coe_coe a (by positivity)⟩

/-- The bit pattern of 1.0 denotes the real number 1. -/
theorem one_f32 : Ideal.ofBits .f32 0x3F800000#32 = ((1 : ℝ) : EReal) := by
  simp [Ideal.ofBits, Ideal.ieee, -EReal.coe_mul]; norm_num

/-- The zero splat is the real zero at every entry, whatever it is stretched over. -/
theorem zero_splat_real {t : Shape} (h : (⟨0, ![]⟩ : Shape).BroadcastsInDim t ![]) (i : t.Idx) :
    ∃ r : ℝ, 0 ≤ r ∧ broadcastInDim t ![] h (constant (F := Ideal) ⟨0, ![]⟩ .f32 0x00000000#32) i = (r : EReal) := by
  unfold broadcastInDim
  exact ⟨0, le_rfl, Ideal.ofBits_zero_f32⟩

/-- The splat of one is the real one at every entry. -/
theorem one_splat_eq {t : Shape} (h : (⟨0, ![]⟩ : Shape).BroadcastsInDim t ![]) (i : t.Idx) :
    broadcastInDim t ![] h (constant (F := Ideal) ⟨0, ![]⟩ .f32 0x3F800000#32) i = ((1 : ℝ) : EReal) := by
  unfold broadcastInDim
  exact one_f32

/-- The entrywise maximum of nonnegative reals with ones is, entry by entry, a real that is at least one. -/
theorem maximumf_one_real {s : Shape} {φ : FTy} (a b : FVec Ideal s φ) (ha : ∀ i, ∃ r : ℝ, 0 ≤ r ∧ a i = (r : EReal))
    (hb : ∀ i, b i = ((1 : ℝ) : EReal)) (i : s.Idx) : ∃ r : ℝ, 1 ≤ r ∧ maximumf a b i = (r : EReal) := by
  show ∃ r : ℝ, 1 ≤ r ∧ max (a i) (b i) = (r : EReal)
  rw [hb i, EReal.coe_one]
  exact max_one_real (ha i)

/-- The entrywise host quotient of reals by reals that are at least one is real entry by entry. -/
theorem divf_real {s : Shape} {φ : FTy} (a b : FVec Ideal s φ) (ha : ∀ i, ∃ r : ℝ, a i = (r : EReal))
    (hb : ∀ i, ∃ r : ℝ, 1 ≤ r ∧ b i = (r : EReal)) (i : s.Idx) : ∃ r : ℝ, Host.divf a b i = (r : EReal) :=
  div_real (ha i) (hb i)

/-! ## The neighbourhood mean -/

/-- The summed neighbour rows of real features are real. -/
theorem aggSum_real (x : FVec Ideal SN .f32) (hx : ∀ i, ∃ r : ℝ, x i = (r : EReal)) (src dst : IVec SE 32) (i : SN.Idx) :
    ∃ r : ℝ, aggSum (F := Ideal) x src dst i = (r : EReal) := by
  unfold aggSum
  exact scatterAdd_real scatterRows _ (dstCol dst) _
    (fun i => (zero_splat_real b0N i).imp fun _ h => h.2) (gather_real gatherRows x (srcCol src) hx) i

/-- The in-degree floored at one is a real that is at least one. -/
theorem degVec_real (dst : IVec SE 32) (n : SNv.Idx) : ∃ r : ℝ, 1 ≤ r ∧ degVec (F := Ideal) dst n = (r : EReal) := by
  unfold degVec
  exact maximumf_one_real _ _
    (scatterAdd_real_nonneg scatterVec _ (dstCol dst) _ (zero_splat_real b0Nv)
      (fun j => ⟨1, zero_le_one, one_splat_eq b0E j⟩))
    (one_splat_eq b0Nv) n

/-- … and so is every entry of its stretched form. -/
theorem degMat_real (dst : IVec SE 32) (i : SN.Idx) : ∃ r : ℝ, 1 ≤ r ∧ degMat (F := Ideal) dst i = (r : EReal) := by
  unfold degMat degCol
  refine bcast_real_ge _ _ _ 1 ?_ i
  intro k
  exact bcast_real_ge _ _ _ 1 (degVec_real dst) k

/-- **The neighbourhood mean of real features is real.** -/
theorem agg_real (x : FVec Ideal SN .f32) (hx : ∀ i, ∃ r : ℝ, x i = (r : EReal)) (src dst : IVec SE 32) :
    ∀ i, ∃ r : ℝ, agg (F := Ideal) x src dst i = (r : EReal) := by
  intro i
  unfold agg
  exact divf_real _ _ (aggSum_real x hx src dst) (degMat_real dst) i

end Cert.Sage

end
-- ==== Proof.BridgeLayer.lean ====
/-
  One layer of the kernel program is one layer of the reference on real data, and its result is real again; hence
  two stacked layers agree.  Realness is what the variance law needs: the neighbourhood mean of real features is real,
  so every pre-activation is a finite sum of products of reals plus a real.
-/
import proofs.«168245_j45801531245071_1_alg».proof.Proof.BridgePre
import proofs.«168245_j45801531245071_1_alg».proof.Proof.BridgeNorm
import proofs.«168245_j45801531245071_1_alg».proof.Proof.AggReal

noncomputable section

namespace Cert.SageBridge

open Idealize.ShloMosaic Idealize.ShloMosaic.ValueIdx
open Cert.KernelIdeal Cert.KernelIdeal.StatsValue Cert.KernelIdeal.BnValue Cert.KernelIdeal.HostRead Cert.KernelIdeal.Layer
open scoped BigOperators

variable (x : FVec Ideal S50000x128 .f32) (src dst : IVec S1600000 32) (Wl : FVec Ideal S128x128 .f32) (bl : FVec Ideal S128 .f32)
  (Wr : FVec Ideal S128x128 .f32) (g be : FVec Ideal S128 .f32)

/-- the pre-activation of real data is real -/
theorem pre_real (hx : ∀ i, ∃ y : ℝ, x i = (y : EReal)) (hWl : ∀ i, ∃ y : ℝ, Wl i = (y : EReal)) (hbl : ∀ i, ∃ y : ℝ, bl i = (y : EReal))
    (hWr : ∀ i, ∃ y : ℝ, Wr i = (y : EReal)) :
    ∀ i, ∃ y : ℝ, Cert.ReferenceIdeal.Hand.pre (F := Ideal) (Cert.Sage.agg (F := Ideal) x src dst) x Wl bl Wr i = (y : EReal) :=
  Cert.ReferenceIdeal.Hand.pre_real _ _ _ _ _ (Cert.Sage.agg_real x hx src dst) hx hWl hbl hWr

/-- one layer: the kernel program's is the reference's, on real data -/
theorem layer_eq (hx : ∀ i, ∃ y : ℝ, x i = (y : EReal)) (hWl : ∀ i, ∃ y : ℝ, Wl i = (y : EReal)) (hbl : ∀ i, ∃ y : ℝ, bl i = (y : EReal))
    (hWr : ∀ i, ∃ y : ℝ, Wr i = (y : EReal)) :
    kLayer x src dst Wl bl Wr g be = Cert.ReferenceIdeal.Hand.layer (F := Ideal) x src dst Wl bl Wr g be := by
  unfold kLayer hK Cert.ReferenceIdeal.Hand.layer
  rw [preK_eq]
  exact norm_eq _ (pre_real x src dst Wl bl Wr hx hWl hbl hWr) g be

/-- and its result is real again -/
theorem layer_real (hx : ∀ i, ∃ y : ℝ, x i = (y : EReal)) (hWl : ∀ i, ∃ y : ℝ, Wl i = (y : EReal)) (hbl : ∀ i, ∃ y : ℝ, bl i = (y : EReal))
    (hWr : ∀ i, ∃ y : ℝ, Wr i = (y : EReal)) (hg : ∀ i, ∃ y : ℝ, g i = (y : EReal)) (hbe : ∀ i, ∃ y : ℝ, be i = (y : EReal)) :
    ∀ i, ∃ y : ℝ, Cert.ReferenceIdeal.Hand.layer (F := Ideal) x src dst Wl bl Wr g be i = (y : EReal) := by
  unfold Cert.ReferenceIdeal.Hand.layer
  exact Cert.ReferenceIdeal.Hand.bnrelu_real _ g be (pre_real x src dst Wl bl Wr hx hWl hbl hWr) hg hbe

/-- two stacked layers -/
theorem two_layers (Wl' : FVec Ideal S128x128 .f32) (bl' : FVec Ideal S128 .f32) (Wr' : FVec Ideal S128x128 .f32) (g' be' : FVec Ideal S128 .f32)
    (hx : ∀ i, ∃ y : ℝ, x i = (y : EReal)) (hWl : ∀ i, ∃ y : ℝ, Wl i = (y : EReal)) (hbl : ∀ i, ∃ y : ℝ, bl i = (y : EReal))
    (hWr : ∀ i, ∃ y : ℝ, Wr i = (y : EReal)) (hg : ∀ i, ∃ y : ℝ, g i = (y : EReal)) (hbe : ∀ i, ∃ y : ℝ, be i = (y : EReal))
    (hWl' : ∀ i, ∃ y : ℝ, Wl' i = (y : EReal)) (hbl' : ∀ i, ∃ y : ℝ, bl' i = (y : EReal)) (hWr' : ∀ i, ∃ y : ℝ, Wr' i = (y : EReal)) :
    kLayer (kLayer x src dst Wl bl Wr g be) src dst Wl' bl' Wr' g' be'
      = Cert.ReferenceIdeal.Hand.layer (F := Ideal) (Cert.ReferenceIdeal.Hand.layer (F := Ideal) x src dst Wl bl Wr g be) src dst Wl' bl' Wr' g' be' := by
  rw [layer_eq x src dst Wl bl Wr g be hx hWl hbl hWr]
  exact layer_eq _ src dst Wl' bl' Wr' g' be' (layer_real x src dst Wl bl Wr g be hx hWl hbl hWr hg hbe) hWl' hbl' hWr'

end Cert.SageBridge

end
-- ==== Proof.RefOps1.lean ====
/-
  The reference program's host operations in order, the calls of its module-local functions replaced by the
  functions' bodies over each call's own buffers: the edge index and the first graph layer, cut into five consecutive
  runs.  For each run: the operations, the buffers they write, that they touch only buffers of the core, that each
  determines its result, and that a buffer they do not write keeps its contents.
-/
import proofs.«168245_j45801531245071_1_alg».proof.ReferenceIdeal
import proofs.«168245_j45801531245071_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- the two rows of the edge index, each as a vector -/
def S1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- the buffers these operations write -/
abbrev S1_W : List (Ref sig .tc) :=
  [main_v0, main_v1, main_v2, main_v3]

theorem S1_sub : (S1 : List (HloOp τ sig (Elt F))).Forall fun op => op.bufs ⊆ tcRefs τ sig := by
  unfold S1
  exact ⟨unary_bufs_sub .., reshape_bufs_sub .., unary_bufs_sub .., reshape_bufs_sub ..⟩

theorem S1_fresh : (S1 : List (HloOp τ sig (Elt F))).Forall fun op => op.fresh = ∅ := by
  unfold S1; simp only [List.Forall]; repeat' constructor

theorem S1_writes : (S1 : List (HloOp τ sig (Elt F))).Forall fun op => op.writes ⊆ (S1_W.map (Proc.devRef (τ := τ) .tc)).toFinset := by
  unfold S1
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S1_of (W : Valuation τ sig (Elt F)) (r : Ref sig .tc) (h : r ∉ S1_W) : after S1 W (Proc.devRef .tc r) = W (Proc.devRef .tc r) :=
  after_of_writes_sub S1 W S1_writes h

/-- first layer: the wrapped source column, the gathered rows summed into their targets, the in-degree floored at one, the quotient -/
def S2 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)) ]

/-- the buffers these operations write -/
abbrev S2_W : List (Ref sig .tc) :=
  [main_c, main_v4, main_v5, main_c_0, main_v6, main_v7, main_v8, main_v9, main_v10, main_cst, main_v11, main_v12,
   main_v13, main_cst_1, main_v14, main_cst_2, main_v15, main_v16, main_v17, main_cst_3, main_v18, main_v19,
   main_v20, main_v21, main_v22]

theorem S2_sub : (S2 : List (HloOp τ sig (Elt F))).Forall fun op => op.bufs ⊆ tcRefs τ sig := by
  unfold S2
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., unary_bufs_sub .., binary_bufs_sub ..⟩

theorem S2_fresh : (S2 : List (HloOp τ sig (Elt F))).Forall fun op => op.fresh = ∅ := by
  unfold S2; simp only [List.Forall]; repeat' constructor

theorem S2_writes : (S2 : List (HloOp τ sig (Elt F))).Forall fun op => op.writes ⊆ (S2_W.map (Proc.devRef (τ := τ) .tc)).toFinset := by
  unfold S2
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S2_of (W : Valuation τ sig (Elt F)) (r : Ref sig .tc) (h : r ∉ S2_W) : after S2 W (Proc.devRef .tc r) = W (Proc.devRef .tc r) :=
  after_of_writes_sub S2 W S2_writes h

/-- first layer: the two products with transposed weights, the bias, their sum; its column sums and mean; the zero correction -/
def S3 : List (HloOp τ sig (Elt F)) :=
  [ StableHlo.unary main_arg2 main_v23 ((transpose S128x128 [1, 0] · transposes_S128x128_S128x128_1_0) : (⟨S128x128, .f32⟩ : BufTy).Contents (Elt F) → (⟨S128x128, .f32⟩ : BufTy).Contents (Elt F)),
    StableHlo.binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg4 main_v28 ((transpose S128x128 [1, 0] · transposes_S128x128_S128x128_1_0) : (⟨S128x128, .f32⟩ : BufTy).Contents (Elt F) → (⟨S128x128, .f32⟩ : BufTy).Contents (Elt F)),
    StableHlo.binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v30 main_cst_4 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32) ]

/-- the buffers these operations write -/
abbrev S3_W : List (Ref sig .tc) :=
  [main_v23, main_v24, main_v25, main_v26, main_v27, main_v28, main_v29, main_v30, main_cst_4, main_v31, main_cst_5,
   main_v32, main_v33, main_c_6]

theorem S3_sub : (S3 : List (HloOp τ sig (Elt F))).Forall fun op => op.bufs ⊆ tcRefs τ sig := by
  unfold S3
  exact ⟨unary_bufs_sub .., binary_bufs_sub .., unary_bufs_sub .., unary_bufs_sub .., binary_bufs_sub ..,
    unary_bufs_sub .., binary_bufs_sub .., binary_bufs_sub .., nullary_bufs_sub .., binary_bufs_sub ..,
    nullary_bufs_sub .., unary_bufs_sub .., binary_bufs_sub .., nullary_bufs_sub ..⟩

theorem S3_fresh : (S3 : List (HloOp τ sig (Elt F))).Forall fun op => op.fresh = ∅ := by
  unfold S3; simp only [List.Forall]; repeat' constructor

theorem S3_writes : (S3 : List (HloOp τ sig (Elt F))).Forall fun op => op.writes ⊆ (S3_W.map (Proc.devRef (τ := τ) .tc)).toFinset := by
  unfold S3
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S3_of (W : Valuation τ sig (Elt F)) (r : Ref sig .tc) (h : r ∉ S3_W) : after S3 W (Proc.devRef .tc r) = W (Proc.devRef .tc r) :=
  after_of_writes_sub S3 W S3_writes h

/-- first layer: the mean squared deviation, the body of the variance function and of the selection it calls over this call's buffers -/
def S4 : List (HloOp τ sig (Elt F)) :=
  [ StableHlo.TRef.nullary main_call0.cst (constant S_ .f32 0x00000000#32),
    StableHlo.TRef.binary (.of main_v30 : TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v30 : TRef sig ⟨S50000x128, .f32⟩) main_call0.v4 main_call0.v5 subf,
    StableHlo.TRef.binary main_call0.v5 main_call0.v5 main_call0.v6 mulf,
    StableHlo.TRef.unary (.of main_c_6 : TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- the buffers these operations write -/
abbrev S4_W : List (Ref sig .tc) :=
  [main_call0_cst, main_call0_v0, main_call0_v1, main_call0_cst_0, main_call0_v2, main_call0_v3, main_call0_v4,
   main_call0_v5, main_call0_v6, main_call0_v7, main_call0_cst_1, main_call0_v8, main_call0_cst_2, main_call0_v9,
   main_call0_v10, main_call0_v11, main_call0_cst_3, main_call0_v12, main_call0_cst_4, main_call0_call0_v0,
   main_call0_call0_v1, main_v34]

theorem S4_sub : (S4 : List (HloOp τ sig (Elt F))).Forall fun op => op.bufs ⊆ tcRefs τ sig := by
  unfold S4
  exact ⟨nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    binary_bufs_sub .., nullary_bufs_sub .., binary_bufs_sub .., nullary_bufs_sub .., unary_bufs_sub ..,
    unary_bufs_sub .., ternary_bufs_sub ..⟩

theorem S4_fresh : (S4 : List (HloOp τ sig (Elt F))).Forall fun op => op.fresh = ∅ := by
  unfold S4; simp only [List.Forall]; repeat' constructor

theorem S4_writes : (S4 : List (HloOp τ sig (Elt F))).Forall fun op => op.writes ⊆ (S4_W.map (Proc.devRef (τ := τ) .tc)).toFinset := by
  unfold S4
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S4_of (W : Valuation τ sig (Elt F)) (r : Ref sig .tc) (h : r ∉ S4_W) : after S4 W (Proc.devRef .tc r) = W (Proc.devRef .tc r) :=
  after_of_writes_sub S4 W S4_writes h

/-- first layer: centre, scale by the inverse root, scale, shift, and the maximum with zero -/
def S5 : List (HloOp τ sig (Elt F)) :=
  [ StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v36 main_v37 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v38 (broadcastInDim S128 ![] bcast_S_S128 : (⟨S_, .f32⟩ : BufTy).Contents (Elt F) → (⟨S128, .f32⟩ : BufTy).Contents (Elt F)),
    StableHlo.binary main_v34 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v42 main_v43 (mulf : (⟨S50000x128, .f32⟩ : BufTy).Contents (Elt F) → (⟨S50000x128, .f32⟩ : BufTy).Contents (Elt F) → (⟨S50000x128, .f32⟩ : BufTy).Contents (Elt F)),
    StableHlo.unary main_arg5 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (mulf : (⟨S50000x128, .f32⟩ : BufTy).Contents (Elt F) → (⟨S50000x128, .f32⟩ : BufTy).Contents (Elt F) → (⟨S50000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v49 : TRef sig ⟨S50000x128, .f32⟩) main_call1.v0 main_call1.v1 maximumf ]

/-- the buffers these operations write -/
abbrev S5_W : List (Ref sig .tc) :=
  [main_v35, main_v36, main_v37, main_cst_7, main_v38, main_v39, main_v40, main_v41, main_v42, main_v43, main_v44,
   main_v45, main_v46, main_v47, main_v48, main_v49, main_call1_cst, main_call1_v0, main_v50]

theorem S5_sub : (S5 : List (HloOp τ sig (Elt F))).Forall fun op => op.bufs ⊆ tcRefs τ sig := by
  unfold S5
  exact ⟨unary_bufs_sub .., unary_bufs_sub .., binary_bufs_sub .., nullary_bufs_sub .., unary_bufs_sub ..,
    binary_bufs_sub .., unary_bufs_sub .., unary_bufs_sub .., unary_bufs_sub .., binary_bufs_sub ..,
    unary_bufs_sub .., unary_bufs_sub .., binary_bufs_sub .., unary_bufs_sub .., unary_bufs_sub ..,
    binary_bufs_sub .., nullary_bufs_sub .., unary_bufs_sub .., binary_bufs_sub ..⟩

theorem S5_fresh : (S5 : List (HloOp τ sig (Elt F))).Forall fun op => op.fresh = ∅ := by
  unfold S5; simp only [List.Forall]; repeat' constructor

theorem S5_writes : (S5 : List (HloOp τ sig (Elt F))).Forall fun op => op.writes ⊆ (S5_W.map (Proc.devRef (τ := τ) .tc)).toFinset := by
  unfold S5
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S5_of (W : Valuation τ sig (Elt F)) (r : Ref sig .tc) (h : r ∉ S5_W) : after S5 W (Proc.devRef .tc r) = W (Proc.devRef .tc r) :=
  after_of_writes_sub S5 W S5_writes h

end Cert.ReferenceIdeal.Hand

end
-- ==== Proof.RefOps2.lean ====
/-
  The reference program's host operations in order, continued: the second graph layer, which reads the first layer's
  result and the two index vectors again, cut into four consecutive runs.  For each run: the operations, the buffers
  they write, that they touch only buffers of the core, that each determines its result, and that a buffer they do
  not write keeps its contents.
-/
import proofs.«168245_j45801531245071_1_alg».proof.ReferenceIdeal
import proofs.«168245_j45801531245071_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- second layer: the wrapped source column, the gathered rows summed into their targets, the in-degree floored at one, the quotient -/
def S6 : List (HloOp τ sig (Elt F)) :=
  [ StableHlo.nullary main_c_8 (constantI S_ 32 0#32),
    StableHlo.unary main_c_8 main_v51 (broadcastInDim S1600000 ![] bcast_S_S1600000 : (⟨S_, .i32⟩ : BufTy).Contents (Elt F) → (⟨S1600000, .i32⟩ : BufTy).Contents (Elt F)),
    StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 50000#32),
    StableHlo.unary main_c_9 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.binary main_v50 main_v56 main_v57 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.nullary main_cst_10 (constant S_ .f32 0x00000000#32),
    StableHlo.unary main_cst_10 main_v58 (broadcastInDim S50000x128 ![] bcast_S_S50000x128 : (⟨S_, .f32⟩ : BufTy).Contents (Elt F) → (⟨S50000x128, .f32⟩ : BufTy).Contents (Elt F)),
    StableHlo.unary main_v3 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.nullary main_cst_11 (constant S_ .f32 0x3F800000#32),
    StableHlo.unary main_cst_11 main_v61 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v62 (broadcastInDim S50000 ![] bcast_S_S50000 : (⟨S_, .f32⟩ : BufTy).Contents (Elt F) → (⟨S50000, .f32⟩ : BufTy).Contents (Elt F)),
    StableHlo.unary main_v3 main_v63 (broadcastInDim S1600000x1 ![0] bcast_S1600000_S1600000x1_0 : (⟨S1600000, .i32⟩ : BufTy).Contents (Elt F) → (⟨S1600000x1, .i32⟩ : BufTy).Contents (Elt F)),
    StableHlo.ternary main_v62 main_v63 main_v61 main_v64 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_13 (constant S_ .f32 0x3F800000#32),
    StableHlo.unary main_cst_13 main_v65 (broadcastInDim S50000 ![] bcast_S_S50000 : (⟨S_, .f32⟩ : BufTy).Contents (Elt F) → (⟨S50000, .f32⟩ : BufTy).Contents (Elt F)),
    StableHlo.binary main_v64 main_v65 main_v66 (maximumf : (⟨S50000, .f32⟩ : BufTy).Contents (Elt F) → (⟨S50000, .f32⟩ : BufTy).Contents (Elt F) → (⟨S50000, .f32⟩ : BufTy).Contents (Elt F)),
    StableHlo.unary main_v66 main_v67 (broadcastInDim S50000x1 ![0] bcast_S50000_S50000x1_0 : (⟨S50000, .f32⟩ : BufTy).Contents (Elt F) → (⟨S50000x1, .f32⟩ : BufTy).Contents (Elt F)),
    StableHlo.unary main_v67 main_v68 (broadcastInDim S50000x128 ![0, 1] bcast_S50000x1_S50000x128_0_1 : (⟨S50000x1, .f32⟩ : BufTy).Contents (Elt F) → (⟨S50000x128, .f32⟩ : BufTy).Contents (Elt F)),
    StableHlo.binary main_v60 main_v68 main_v69 (Host.divf : (⟨S50000x128, .f32⟩ : BufTy).Contents (Elt F) → (⟨S50000x128, .f32⟩ : BufTy).Contents (Elt F) → (⟨S50000x128, .f32⟩ : BufTy).Contents (Elt F)) ]

/-- the buffers these operations write -/
abbrev S6_W : List (Ref sig .tc) :=
  [main_c_8, main_v51, main_v52, main_c_9, main_v53, main_v54, main_v55, main_v56, main_v57, main_cst_10, main_v58,
   main_v59, main_v60, main_cst_11, main_v61, main_cst_12, main_v62, main_v63, main_v64, main_cst_13, main_v65,
   main_v66, main_v67, main_v68, main_v69]

theorem S6_sub : (S6 : List (HloOp τ sig (Elt F))).Forall fun op => op.bufs ⊆ tcRefs τ sig := by
  unfold S6
  exact ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., unary_bufs_sub .., binary_bufs_sub ..⟩

theorem S6_fresh : (S6 : List (HloOp τ sig (Elt F))).Forall fun op => op.fresh = ∅ := by
  unfold S6; simp only [List.Forall]; repeat' constructor

theorem S6_writes : (S6 : List (HloOp τ sig (Elt F))).Forall fun op => op.writes ⊆ (S6_W.map (Proc.devRef (τ := τ) .tc)).toFinset := by
  unfold S6
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S6_of (W : Valuation τ sig (Elt F)) (r : Ref sig .tc) (h : r ∉ S6_W) : after S6 W (Proc.devRef .tc r) = W (Proc.devRef .tc r) :=
  after_of_writes_sub S6 W S6_writes h

/-- second layer: the two products with transposed weights, the bias, their sum; its column sums and mean; the zero correction -/
def S7 : List (HloOp τ sig (Elt F)) :=
  [ StableHlo.unary main_arg7 main_v70 ((transpose S128x128 [1, 0] · transposes_S128x128_S128x128_1_0) : (⟨S128x128, .f32⟩ : BufTy).Contents (Elt F) → (⟨S128x128, .f32⟩ : BufTy).Contents (Elt F)),
    StableHlo.binary main_v69 main_v70 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)),
    StableHlo.unary main_arg9 main_v75 ((transpose S128x128 [1, 0] · transposes_S128x128_S128x128_1_0) : (⟨S128x128, .f32⟩ : BufTy).Contents (Elt F) → (⟨S128x128, .f32⟩ : BufTy).Contents (Elt F)),
    StableHlo.binary main_v50 main_v75 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v77 main_cst_14 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32) ]

/-- the buffers these operations write -/
abbrev S7_W : List (Ref sig .tc) :=
  [main_v70, main_v71, main_v72, main_v73, main_v74, main_v75, main_v76, main_v77, main_cst_14, main_v78,
   main_cst_15, main_v79, main_v80, main_c_16]

theorem S7_sub : (S7 : List (HloOp τ sig (Elt F))).Forall fun op => op.bufs ⊆ tcRefs τ sig := by
  unfold S7
  exact ⟨unary_bufs_sub .., binary_bufs_sub .., unary_bufs_sub .., unary_bufs_sub .., binary_bufs_sub ..,
    unary_bufs_sub .., binary_bufs_sub .., binary_bufs_sub .., nullary_bufs_sub .., binary_bufs_sub ..,
    nullary_bufs_sub .., unary_bufs_sub .., binary_bufs_sub .., nullary_bufs_sub ..⟩

theorem S7_fresh : (S7 : List (HloOp τ sig (Elt F))).Forall fun op => op.fresh = ∅ := by
  unfold S7; simp only [List.Forall]; repeat' constructor

theorem S7_writes : (S7 : List (HloOp τ sig (Elt F))).Forall fun op => op.writes ⊆ (S7_W.map (Proc.devRef (τ := τ) .tc)).toFinset := by
  unfold S7
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S7_of (W : Valuation τ sig (Elt F)) (r : Ref sig .tc) (h : r ∉ S7_W) : after S7 W (Proc.devRef .tc r) = W (Proc.devRef .tc r) :=
  after_of_writes_sub S7 W S7_writes h

/-- second layer: the mean squared deviation, the body of the variance function and of the selection it calls over this call's buffers -/
def S8 : List (HloOp τ sig (Elt F)) :=
  [ StableHlo.TRef.nullary main_call2.cst (constant S_ .f32 0x00000000#32),
    StableHlo.TRef.binary (.of main_v77 : TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v77 : TRef sig ⟨S50000x128, .f32⟩) main_call2.v4 main_call2.v5 subf,
    StableHlo.TRef.binary main_call2.v5 main_call2.v5 main_call2.v6 mulf,
    StableHlo.TRef.unary (.of main_c_16 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- the buffers these operations write -/
abbrev S8_W : List (Ref sig .tc) :=
  [main_call2_cst, main_call2_v0, main_call2_v1, main_call2_cst_0, main_call2_v2, main_call2_v3, main_call2_v4,
   main_call2_v5, main_call2_v6, main_call2_v7, main_call2_cst_1, main_call2_v8, main_call2_cst_2, main_call2_v9,
   main_call2_v10, main_call2_v11, main_call2_cst_3, main_call2_v12, main_call2_cst_4, main_call2_call0_v0,
   main_call2_call0_v1, main_v81]

theorem S8_sub : (S8 : List (HloOp τ sig (Elt F))).Forall fun op => op.bufs ⊆ tcRefs τ sig := by
  unfold S8
  exact ⟨nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    binary_bufs_sub .., nullary_bufs_sub .., binary_bufs_sub .., nullary_bufs_sub .., unary_bufs_sub ..,
    unary_bufs_sub .., ternary_bufs_sub ..⟩

theorem S8_fresh : (S8 : List (HloOp τ sig (Elt F))).Forall fun op => op.fresh = ∅ := by
  unfold S8; simp only [List.Forall]; repeat' constructor

theorem S8_writes : (S8 : List (HloOp τ sig (Elt F))).Forall fun op => op.writes ⊆ (S8_W.map (Proc.devRef (τ := τ) .tc)).toFinset := by
  unfold S8
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S8_of (W : Valuation τ sig (Elt F)) (r : Ref sig .tc) (h : r ∉ S8_W) : after S8 W (Proc.devRef .tc r) = W (Proc.devRef .tc r) :=
  after_of_writes_sub S8 W S8_writes h

/-- second layer: centre, scale by the inverse root, scale, shift, and the maximum with zero -/
def S9 : List (HloOp τ sig (Elt F)) :=
  [ StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v83 main_v84 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v85 (broadcastInDim S128 ![] bcast_S_S128 : (⟨S_, .f32⟩ : BufTy).Contents (Elt F) → (⟨S128, .f32⟩ : BufTy).Contents (Elt F)),
    StableHlo.binary main_v81 main_v85 main_v86 (addf : (⟨S128, .f32⟩ : BufTy).Contents (Elt F) → (⟨S128, .f32⟩ : BufTy).Contents (Elt F) → (⟨S128, .f32⟩ : BufTy).Contents (Elt F)),
    StableHlo.unary main_v86 main_v87 (Host.rsqrt : (⟨S128, .f32⟩ : BufTy).Contents (Elt F) → (⟨S128, .f32⟩ : BufTy).Contents (Elt F)),
    StableHlo.unary main_v87 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v89 main_v90 (mulf : (⟨S50000x128, .f32⟩ : BufTy).Contents (Elt F) → (⟨S50000x128, .f32⟩ : BufTy).Contents (Elt F) → (⟨S50000x128, .f32⟩ : BufTy).Contents (Elt F)),
    StableHlo.unary main_arg10 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v92 main_v93 (mulf : (⟨S50000x128, .f32⟩ : BufTy).Contents (Elt F) → (⟨S50000x128, .f32⟩ : BufTy).Contents (Elt F) → (⟨S50000x128, .f32⟩ : BufTy).Contents (Elt F)),
    StableHlo.unary main_arg11 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v96 : TRef sig ⟨S50000x128, .f32⟩) main_call3.v0 main_call3.v1 maximumf ]

/-- the buffers these operations write -/
abbrev S9_W : List (Ref sig .tc) :=
  [main_v82, main_v83, main_v84, main_cst_17, main_v85, main_v86, main_v87, main_v88, main_v89, main_v90, main_v91,
   main_v92, main_v93, main_v94, main_v95, main_v96, main_call3_cst, main_call3_v0, main_v97]

theorem S9_sub : (S9 : List (HloOp τ sig (Elt F))).Forall fun op => op.bufs ⊆ tcRefs τ sig := by
  unfold S9
  exact ⟨unary_bufs_sub .., unary_bufs_sub .., binary_bufs_sub .., nullary_bufs_sub .., unary_bufs_sub ..,
    binary_bufs_sub .., unary_bufs_sub .., unary_bufs_sub .., unary_bufs_sub .., binary_bufs_sub ..,
    unary_bufs_sub .., unary_bufs_sub .., binary_bufs_sub .., unary_bufs_sub .., unary_bufs_sub ..,
    binary_bufs_sub .., nullary_bufs_sub .., unary_bufs_sub .., binary_bufs_sub ..⟩

theorem S9_fresh : (S9 : List (HloOp τ sig (Elt F))).Forall fun op => op.fresh = ∅ := by
  unfold S9; simp only [List.Forall]; repeat' constructor

theorem S9_writes : (S9 : List (HloOp τ sig (Elt F))).Forall fun op => op.writes ⊆ (S9_W.map (Proc.devRef (τ := τ) .tc)).toFinset := by
  unfold S9
  simp only [List.Forall, nullary_writes, unary_writes, binary_writes, ternary_writes, reshape_writes, Finset.singleton_subset_iff, List.mem_toFinset]
  repeat' constructor
  all_goals exact List.mem_map_of_mem (by decide)

/-- a buffer they do not write keeps its contents -/
theorem S9_of (W : Valuation τ sig (Elt F)) (r : Ref sig .tc) (h : r ∉ S9_W) : after S9 W (Proc.devRef .tc r) = W (Proc.devRef .tc r) :=
  after_of_writes_sub S9 W S9_writes h

end Cert.ReferenceIdeal.Hand

end
-- ==== Proof.RefOpsAll.lean ====
/-
  The reference program as one list of host operations: the nine runs in order.  The program's text is that list run
  in order; the list touches only buffers of the core and every operation determines its result; so from any memory
  with zero counters every fair execution ends, each buffer of the core at the list's fold over the launch contents.
-/
import proofs.«168245_j45801531245071_1_alg».proof.Proof.RefOps1
import proofs.«168245_j45801531245071_1_alg».proof.Proof.RefOps2

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- the whole program: the nine runs in order -/
def ops : List (HloOp τ sig (Elt F)) := S1 ++ (S2 ++ (S3 ++ (S4 ++ (S5 ++ (S6 ++ (S7 ++ (S8 ++ S9)))))))

/-- the contents after two lists in a row -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- the contents after the program: run after run -/
theorem after_ops (V : Valuation τ sig (Elt F)) :
    after ops V = after S9 (after S8 (after S7 (after S6 (after S5 (after S4 (after S3 (after S2 (after S1 V)))))))) := by
  unfold ops; simp only [after_app]

/-- the program's text is the list run in order -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops; simp only [List.forall_append]
  exact ⟨S1_sub, S2_sub, S3_sub, S4_sub, S5_sub, S6_sub, S7_sub, S8_sub, S9_sub⟩

theorem ops_fresh : ∀ op ∈ (ops : List (HloOp τ sig (Elt F))), op.fresh = ∅ := by
  have h : (ops : List (HloOp τ sig (Elt F))).Forall fun op => op.fresh = ∅ := by
    unfold ops; simp only [List.forall_append]
    exact ⟨S1_fresh, S2_fresh, S3_fresh, S4_fresh, S5_fresh, S6_fresh, S7_fresh, S8_fresh, S9_fresh⟩
  exact List.forall_iff_forall_mem.1 h

/-- from any memory with zero counters every fair execution ends, each buffer of the core at the fold -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.LibTypedRef.lean ====
/-
  Contents carried to a typed buffer reference and back.

  A module-local function of a host program names its buffers by references that carry the type of the tensor value
  they hold; contents stated at that type are moved to the buffer's own type, and back, along the equation between
  the two.  Moving there and back again, in either order, changes nothing.  Any signature, any value types.
-/
import Idealize.ShloMosaic.Lib.StableHlo

noncomputable section

namespace Cert.Lib.TypedRef

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, hd, hs⟩ := x
  subst h
  rfl

/-- Contents of the buffer moved to the value's type and back are the contents. -/
theorem toBuf_ofBuf (x : TRef sig T) (w : x.ref.ty.Contents Val) : x.toBuf (x.ofBuf w) = w := by
  obtain ⟨r, h, hd, hs⟩ := x
  subst h
  rfl

end Cert.Lib.TypedRef

end
-- ==== Proof.RefOpsRead1.lean ====
/-
  What the first half of the reference program's operations leaves, read from any contents of the buffers: the two
  index vectors after the first run, and after the four runs of the first layer one layer of them, the node features
  and the first five parameters.  Each run's result is stated over the contents before it, at any float type.
-/
import proofs.«168245_j45801531245071_1_alg».proof.Proof.RefOps1
import proofs.«168245_j45801531245071_1_alg».proof.Proof.RefDefs
import proofs.«168245_j45801531245071_1_alg».proof.Proof.LibTypedRef

noncomputable section

namespace Cert.ReferenceIdeal.Hand

open Cert.Lib.TypedRef Cert.ReferenceIdeal Cert.ReferenceIdeal.Facts₀ Idealize.ShloMosaic Idealize.ShloMosaic.TcCoe Idealize.SL.Sem Idealize.ShloMosaic.StableHlo

variable {F : FTy → Type} [FloatOps F]

attribute [local irreducible] Host.scatterAdd Host.gather Host.reduceAdd

/-- whole rows taken, rows added, scalars added: the program's index records are the ones the neighbourhood mean is stated over -/
theorem gatherRows_eq : gather_S50000x128_S1600000x1_S1600000x128_1_0_n_n_0_1_1128 = Cert.Sage.gatherRows := rfl
theorem scatterRows_eq : scatter_S50000x128_S1600000x1_S1600000x128_1_0_0_1 = Cert.Sage.scatterRows := rfl
theorem scatterVec_eq : scatter_S50000_S1600000x1_S1600000_n_0_0_1 = Cert.Sage.scatterVec := rfl

/-- normalise, scale, shift, maximum with zero, from a given mean and variance -/
def bnreluOf (H : FVec F S50000x128 .f32) (mean var g be : FVec F S128 .f32) : FVec F S50000x128 .f32 :=
  maximumf
    (addf
      (mulf
        (mulf (subf H (overNodes (asRow mean)))
          (overNodes (asRow (Host.rsqrt (addf var (broadcastInDim S128 ![] bcast_S_S128 (constant (F := F) S_ .f32 0x3727C5AC#32)))))))
        (overNodes (asRow g)))
      (overNodes (asRow be)))
    (broadcastInDim S50000x128 ![] bcast_S_S50000x128 (zeroS (F := F)))

theorem bnrelu_eq (H : FVec F S50000x128 .f32) (g be : FVec F S128 .f32) :
    bnrelu H g be = bnreluOf H (meanV H) (varV H) g be := rfl

/-- the first row of the edge index as a vector -/
theorem S1_v1 (W : Valuation τ sig (Elt F)) : after S1 W (Proc.devRef .tc main_v1) = srcOf (W (Proc.devRef .tc main_arg1)) := by
  unfold S1; after_results_simp; rfl

/-- the second row of the edge index as a vector -/
theorem S1_v3 (W : Valuation τ sig (Elt F)) : after S1 W (Proc.devRef .tc main_v3) = dstOf (W (Proc.devRef .tc main_arg1)) := by
  unfold S1; after_results_simp; rfl

/-- first layer: the quotient buffer holds the neighbourhood mean -/
theorem S2_v22 (W : Valuation τ sig (Elt F)) :
    after S2 W (Proc.devRef .tc main_v22) = Cert.Sage.agg (W (Proc.devRef .tc main_arg0)) (W (Proc.devRef .tc main_v1)) (W (Proc.devRef .tc main_v3)) := by
  unfold S2; after_results_simp; rfl

/-- first layer: the sum of the two products and the bias -/
theorem S3_v30 (W : Valuation τ sig (Elt F)) :
    after S3 W (Proc.devRef .tc main_v30)
      = pre (W (Proc.devRef .tc main_v22)) (W (Proc.devRef .tc main_arg0)) (W (Proc.devRef .tc main_arg2)) (W (Proc.devRef .tc main_arg3)) (W (Proc.devRef .tc main_arg4)) := by
  unfold S3; after_results_simp; rfl

/-- first layer: its mean over the nodes -/
theorem S3_v33 (W : Valuation τ sig (Elt F)) :
    after S3 W (Proc.devRef .tc main_v33)
      = meanV (pre (W (Proc.devRef .tc main_v22)) (W (Proc.devRef .tc main_arg0)) (W (Proc.devRef .tc main_arg2)) (W (Proc.devRef .tc main_arg3)) (W (Proc.devRef .tc main_arg4))) := by
  unfold S3; after_results_simp; rfl

/-- first layer: the correction passed to the variance is the integer zero -/
theorem S3_c_6 (W : Valuation τ sig (Elt F)) :
    after S3 W (Proc.devRef .tc main_c_6) = constantI S_ 32 0#32 := by
  unfold S3; after_results_simp

/-- first layer: the variance function's result, the correction being zero, is the mean squared deviation -/
theorem S4_v34 (W : Valuation τ sig (Elt F)) (hc : W (Proc.devRef .tc main_c_6) = constantI S_ 32 0#32) :
    after S4 W (Proc.devRef .tc main_v34) = varV (W (Proc.devRef .tc main_v30)) := by
  unfold S4; after_results_simp
  simp only [ofBuf_toBuf, toBuf_ofBuf]
  rw [hc]; rfl

/-- first layer: the normalised, scaled, shifted rows, floored at zero, from the sum, its mean and its variance -/
theorem S5_v50 (W : Valuation τ sig (Elt F)) :
    after S5 W (Proc.devRef .tc main_v50)
      = bnreluOf (W (Proc.devRef .tc main_v30)) (W (Proc.devRef .tc main_v33)) (W (Proc.devRef .tc main_v34)) (W (Proc.devRef .tc main_arg5)) (W (Proc.devRef .tc main_arg6)) := by
  unfold S5; after_results_simp
  simp only [ofBuf_toBuf, toBuf_ofBuf]
  rfl

/-- a buffer none of the first layer's four runs writes keeps its contents through them -/
theorem L1_of (W : Valuation τ sig (Elt F)) (r : Ref sig .tc) (ha : r ∉ S2_W := by decide) (hb : r ∉ S3_W := by decide)
    (hc : r ∉ S4_W := by decide) (hd : r ∉ S5_W := by decide) :
    after S5 (after S4 (after S3 (after S2 W))) (Proc.devRef .tc r) = W (Proc.devRef .tc r) := by
  rw [S5_of _ r hd, S4_of _ r hc, S3_of _ r hb, S2_of _ r ha]

/-- the first layer's four runs leave its result: one layer of the two index vectors, the features and the parameters -/
theorem L1_out (W : Valuation τ sig (Elt F)) :
    after S5 (after S4 (after S3 (after S2 W))) (Proc.devRef .tc main_v50)
      = layer (W (Proc.devRef .tc main_arg0)) (W (Proc.devRef .tc main_v1)) (W (Proc.devRef .tc main_v3)) (W (Proc.devRef .tc main_arg2)) (W (Proc.devRef .tc main_arg3)) (W (Proc.devRef .tc main_arg4)) (W (Proc.devRef .tc main_arg5)) (W (Proc.devRef .tc main_arg6)) := by
  rw [S5_v50, S4_v34 _ (S3_c_6 _),
    S4_of _ main_v30 (by decide), S4_of _ main_v33 (by decide), S4_of _ main_arg5 (by decide), S4_of _ main_arg6 (by decide),
    S3_v30, S3_v33, S3_of _ main_arg5 (by decide), S3_of _ main_arg6 (by decide),
    S2_v22, S2_of _ main_arg0 (by decide), S2_of _ main_arg2 (by decide), S2_of _ main_arg3 (by decide), S2_of _ main_arg4 (by decide),
    S2_of _ main_arg5 (by decide), S2_of _ main_arg6 (by decide)]
  unfold layer; rw [bnrelu_eq]

end Cert.ReferenceIdeal.Hand

end
-- ==== Proof.RefOpsRead2.lean ====
/-
  What the second half of the reference program's operations leaves, read from any contents of the buffers: after the
  four runs of the second layer one layer of the two index vectors, the first layer's result and the last five
  parameters.  Each run's result is stated over the contents before it, at any float type.
-/
import proofs.«168245_j45801531245071_1_alg».proof.Proof.RefOps2
import proofs.«168245_j45801531245071_1_alg».proof.Proof.RefOpsRead1

noncomputable section

namespace Cert.ReferenceIdeal.Hand

open Cert.Lib.TypedRef Cert.ReferenceIdeal Cert.ReferenceIdeal.Facts₀ Idealize.ShloMosaic Idealize.ShloMosaic.TcCoe Idealize.SL.Sem Idealize.ShloMosaic.StableHlo

variable {F : FTy → Type} [FloatOps F]

attribute [local irreducible] Host.scatterAdd Host.gather Host.reduceAdd

/-- second layer: the quotient buffer holds the neighbourhood mean -/
theorem S6_v69 (W : Valuation τ sig (Elt F)) :
    after S6 W (Proc.devRef .tc main_v69) = Cert.Sage.agg (W (Proc.devRef .tc main_v50)) (W (Proc.devRef .tc main_v1)) (W (Proc.devRef .tc main_v3)) := by
  unfold S6; after_results_simp; rfl

/-- second layer: the sum of the two products and the bias -/
theorem S7_v77 (W : Valuation τ sig (Elt F)) :
    after S7 W (Proc.devRef .tc main_v77)
      = pre (W (Proc.devRef .tc main_v69)) (W (Proc.devRef .tc main_v50)) (W (Proc.devRef .tc main_arg7)) (W (Proc.devRef .tc main_arg8)) (W (Proc.devRef .tc main_arg9)) := by
  unfold S7; after_results_simp; rfl

/-- second layer: its mean over the nodes -/
theorem S7_v80 (W : Valuation τ sig (Elt F)) :
    after S7 W (Proc.devRef .tc main_v80)
      = meanV (pre (W (Proc.devRef .tc main_v69)) (W (Proc.devRef .tc main_v50)) (W (Proc.devRef .tc main_arg7)) (W (Proc.devRef .tc main_arg8)) (W (Proc.devRef .tc main_arg9))) := by
  unfold S7; after_results_simp; rfl

/-- second layer: the correction passed to the variance is the integer zero -/
theorem S7_c_16 (W : Valuation τ sig (Elt F)) :
    after S7 W (Proc.devRef .tc main_c_16) = constantI S_ 32 0#32 := by
  unfold S7; after_results_simp

/-- second layer: the variance function's result, the correction being zero, is the mean squared deviation -/
theorem S8_v81 (W : Valuation τ sig (Elt F)) (hc : W (Proc.devRef .tc main_c_16) = constantI S_ 32 0#32) :
    after S8 W (Proc.devRef .tc main_v81) = varV (W (Proc.devRef .tc main_v77)) := by
  unfold S8; after_results_simp
  simp only [ofBuf_toBuf, toBuf_ofBuf]
  rw [hc]; rfl

/-- second layer: the normalised, scaled, shifted rows, floored at zero, from the sum, its mean and its variance -/
theorem S9_v97 (W : Valuation τ sig (Elt F)) :
    after S9 W (Proc.devRef .tc main_v97)
      = bnreluOf (W (Proc.devRef .tc main_v77)) (W (Proc.devRef .tc main_v80)) (W (Proc.devRef .tc main_v81)) (W (Proc.devRef .tc main_arg10)) (W (Proc.devRef .tc main_arg11)) := by
  unfold S9; after_results_simp
  simp only [ofBuf_toBuf, toBuf_ofBuf]
  rfl

/-- a buffer none of the second layer's four runs writes keeps its contents through them -/
theorem L2_of (W : Valuation τ sig (Elt F)) (r : Ref sig .tc) (ha : r ∉ S6_W := by decide) (hb : r ∉ S7_W := by decide)
    (hc : r ∉ S8_W := by decide) (hd : r ∉ S9_W := by decide) :
    after S9 (after S8 (after S7 (after S6 W))) (Proc.devRef .tc r) = W (Proc.devRef .tc r) := by
  rw [S9_of _ r hd, S8_of _ r hc, S7_of _ r hb, S6_of _ r ha]

/-- the second layer's four runs leave its result: one layer of the two index vectors, the features and the parameters -/
theorem L2_out (W : Valuation τ sig (Elt F)) :
    after S9 (after S8 (after S7 (after S6 W))) (Proc.devRef .tc main_v97)
      = layer (W (Proc.devRef .tc main_v50)) (W (Proc.devRef .tc main_v1)) (W (Proc.devRef .tc main_v3)) (W (Proc.devRef .tc main_arg7)) (W (Proc.devRef .tc main_arg8)) (W (Proc.devRef .tc main_arg9)) (W (Proc.devRef .tc main_arg10)) (W (Proc.devRef .tc main_arg11)) := by
  rw [S9_v97, S8_v81 _ (S7_c_16 _),
    S8_of _ main_v77 (by decide), S8_of _ main_v80 (by decide), S8_of _ main_arg10 (by decide), S8_of _ main_arg11 (by decide),
    S7_v77, S7_v80, S7_of _ main_arg10 (by decide), S7_of _ main_arg11 (by decide),
    S6_v69, S6_of _ main_v50 (by decide), S6_of _ main_arg7 (by decide), S6_of _ main_arg8 (by decide), S6_of _ main_arg9 (by decide),
    S6_of _ main_arg10 (by decide), S6_of _ main_arg11 (by decide)]
  unfold layer; rw [bnrelu_eq]

end Cert.ReferenceIdeal.Hand

end
-- ==== Proof.RefRun.lean ====
/-
  The reference program's run: from any memory with zero counters, on every core, every fair execution ends with the
  result buffer at the program's result as one function of the twelve argument buffers' launch contents (two graph
  layers over the same two index vectors), and with the twelve argument buffers unchanged.  At any float type.
-/
import proofs.«168245_j45801531245071_1_alg».proof.Proof.RefOpsAll
import proofs.«168245_j45801531245071_1_alg».proof.Proof.RefOpsRead1
import proofs.«168245_j45801531245071_1_alg».proof.Proof.RefOpsRead2

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- a buffer none of the nine runs writes keeps its contents through the program -/
theorem ops_of (V : Valuation τ sig (Elt F)) (r : Ref sig .tc) (h1 : r ∉ S1_W := by decide) (h2 : r ∉ S2_W := by decide) (h3 : r ∉ S3_W := by decide) (h4 : r ∉ S4_W := by decide)
    (h5 : r ∉ S5_W := by decide) (h6 : r ∉ S6_W := by decide) (h7 : r ∉ S7_W := by decide) (h8 : r ∉ S8_W := by decide) (h9 : r ∉ S9_W := by decide) :
    after ops V (Proc.devRef .tc r) = V (Proc.devRef .tc r) := by
  rw [after_ops, S9_of _ r h9, S8_of _ r h8, S7_of _ r h7, S6_of _ r h6, S5_of _ r h5, S4_of _ r h4, S3_of _ r h3, S2_of _ r h2,
    S1_of _ r h1]

/-- the program leaves, in its result buffer, two layers over the two rows of the edge index -/
theorem ops_out (V : Valuation τ sig (Elt F)) :
    after ops V (Proc.devRef .tc main_v97)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, L2_out, L1_out, L1_of _ main_v1, L1_of _ main_v3, L1_of _ main_arg7, L1_of _ main_arg8, L1_of _ main_arg9,
    L1_of _ main_arg10, L1_of _ main_arg11, S1_v1, S1_v3,
    S1_of _ main_arg0 (by decide), S1_of _ main_arg2 (by decide), S1_of _ main_arg3 (by decide), S1_of _ main_arg4 (by decide), S1_of _ main_arg5 (by decide), S1_of _ main_arg6 (by decide), S1_of _ main_arg7 (by decide), S1_of _ main_arg8 (by decide), S1_of _ main_arg9 (by decide), S1_of _ main_arg10 (by decide), S1_of _ main_arg11 (by decide)]
  rfl

/-- On every core, at any float type, from any memory with zero counters: every fair execution of the program ends
    with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v97)
          = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v97).trans (ops_out _),
      (h c main_arg0).trans (ops_of _ main_arg0),
      (h c main_arg1).trans (ops_of _ main_arg1),
      (h c main_arg2).trans (ops_of _ main_arg2),
      (h c main_arg3).trans (ops_of _ main_arg3),
      (h c main_arg4).trans (ops_of _ main_arg4),
      (h c main_arg5).trans (ops_of _ main_arg5),
      (h c main_arg6).trans (ops_of _ main_arg6),
      (h c main_arg7).trans (ops_of _ main_arg7),
      (h c main_arg8).trans (ops_of _ main_arg8),
      (h c main_arg9).trans (ops_of _ main_arg9),
      (h c main_arg10).trans (ops_of _ main_arg10),
      (h c main_arg11).trans (ops_of _ main_arg11)⟩)
    (run_ops m ρ)

/-- the same, the arguments only -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun _ h c => (h c).2) (run m ρ)

end Cert.ReferenceIdeal.Hand

end
-- ==== Proof.FiniteInputs.lean ====
import Idealize.ShloMosaic.Lib.ReduceAll
import Idealize.ShloMosaic.PureOps.Ideal.Laws
import Idealize.ShloMosaic.Lib.ValueIdx
import proofs.«168245_j45801531245071_1_alg».proof.Pre_finite_inputs

/-!
  From the precondition to real-valued inputs, at exact extended-real arithmetic.

  The precondition is the conjunction, over the eleven float arrays, of all(|x| < +inf). The pattern
  0x7F800000 denotes the top element ⊤ of the extended reals, |x| is max x (-x), and an extended real x
  with max x (-x) < ⊤ is neither ⊤ nor ⊥, hence a real. A conjunction of one-bit words is 1 exactly when each
  is, and a reduction by "and" onto a single index is 1 only when every entry is 1.
-/

namespace Cert.Pre_finite_inputs.Hand
open Idealize.ShloMosaic

/-- the rank-0 shape has a single index -/
instance : Subsingleton S_.Idx := ⟨fun a b => funext fun d => d.elim0⟩

/-- an extended real whose absolute value lies below the top element is a real -/
theorem real_of_abs_lt_top (x : EReal) (h : max x (-x) < ⊤) : ∃ r : ℝ, x = (r : EReal) := by
  induction x using EReal.rec with
  | bot => simp at h
  | coe r => exact ⟨r, rfl⟩
  | top => simp at h

/-- the pattern 0x7F800000 denotes +∞ -/
theorem ofBits_inf_f32 : Ideal.ofBits .f32 0x7F800000#32 = ⊤ := by simp [Ideal.ofBits, Ideal.ieee]

/-- all(|x| < +inf) = 1 gives that every entry of x is real -/
theorem real_of_all {s : Shape} {axes : List (Fin s.rank)} (a : FVec Ideal s .f32) (bc : S_.BroadcastsInDim s (![] : Fin 0 → Fin s.rank))
    (hr : s.ReducesTo axes S_) (hu : 0 < S_.numel) (j : S_.Idx)
    (h : Host.reduce IntOp.andi (cmpf .olt (Host.absf a) (broadcastInDim s ![] bc (constant S_ .f32 0x7F800000#32)))
        (constantI S_ 1 1#1) hr hu j = 1#1) :
    ∀ i, ∃ r : ℝ, a i = (r : EReal) := by
  intro i
  have e := Host.reduce_andi_all _ _ hr hu j h i
  apply real_of_abs_lt_top
  simp only [cmpf, Host.absf, broadcastInDim, constant, Ideal.hostAbsf_def, Ideal.cmpf_def, Ideal.absf_def, Ideal.ofBits_def, ofBits_inf_f32, Ideal.cmp] at e
  have e' : decide (max (a i) (-a i) < ⊤) = true := by
    revert e; cases decide (max (a i) (-a i) < ⊤) <;> decide
  exact of_decide_eq_true e'

/-- every float argument array of which the precondition holds has only real entries -/
theorem real_of_pre [Facts] (a0 : FVec Ideal S50000x128 .f32) (a1 : IVec S2x1600000 32) (a2 : FVec Ideal S128x128 .f32) (a3 : FVec Ideal S128 .f32) (a4 : FVec Ideal S128x128 .f32) (a5 a6 : FVec Ideal S128 .f32) (a7 : FVec Ideal S128x128 .f32) (a8 : FVec Ideal S128 .f32) (a9 : FVec Ideal S128x128 .f32) (a10 a11 : FVec Ideal S128 .f32)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) := by
  have h0 := congrFun h ValueIdx.ix0
  dsimp only [fn, fn_part1, fn_part2, fn_part3, andi] at h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨real_of_all a0 _ _ _ _ h0, real_of_all a2 _ _ _ _ h2, real_of_all a3 _ _ _ _ h3, real_of_all a4 _ _ _ _ h4,
    real_of_all a5 _ _ _ _ h5, real_of_all a6 _ _ _ _ h6, real_of_all a7 _ _ _ _ h7, real_of_all a8 _ _ _ _ h8,
    real_of_all a9 _ _ _ _ h9, real_of_all a10 _ _ _ _ h10, real_of_all a11 _ _ _ _ h11⟩

end Cert.Pre_finite_inputs.Hand
-- ==== Proof.Claims.lean ====
/-
  The five claims.  The three frames: the kernel programs' by the generated frame proofs, the reference's by its run
  with the result dropped.  Nothing was rewritten by the idealisation, so it preserves trivially.  The value claim:
  the idealised kernel program ends with its result at two stacked layers in the kernel's form, the reference at two
  stacked layers in its own form, of the same arguments; the precondition makes every float argument real, and on real
  arguments the two forms are one function (the variance law, layer by layer).
-/
import proofs.«168245_j45801531245071_1_alg».proof.Defs
import proofs.«168245_j45801531245071_1_alg».proof.Proof.Gen.Kernel.Frame
import proofs.«168245_j45801531245071_1_alg».proof.Proof.Gen.KernelIdeal.Frame
import proofs.«168245_j45801531245071_1_alg».proof.Proof.Gen.ReferenceIdeal
import proofs.«168245_j45801531245071_1_alg».proof.Proof.Gen.Pre_finite_inputs
import proofs.«168245_j45801531245071_1_alg».proof.Proof.KRun
import proofs.«168245_j45801531245071_1_alg».proof.Proof.KChain3
import proofs.«168245_j45801531245071_1_alg».proof.Proof.BridgeLayer
import proofs.«168245_j45801531245071_1_alg».proof.Proof.RefRun
import proofs.«168245_j45801531245071_1_alg».proof.Proof.FiniteInputs

noncomputable section

open Idealize.ShloMosaic Idealize.ShloMosaic.TcCoe Idealize.SL.Sem

namespace Cert.Proof.SageClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Hand.frame (F := Ideal) m ρ
theorem preserves : Cert.preserves_Kernel_KernelIdeal := trivial

/-- both programs read the two rows of the edge index by the same slice and reshape -/
theorem srcOf_eq (e : IVec Cert.KernelIdeal.S2x1600000 32) : Cert.KernelIdeal.HostRead.srcOfK e = Cert.ReferenceIdeal.Hand.srcOf e := rfl
theorem dstOf_eq (e : IVec Cert.KernelIdeal.S2x1600000 32) : Cert.KernelIdeal.HostRead.dstOfK e = Cert.ReferenceIdeal.Hand.dstOf e := rfl

theorem algebraic : Cert.algebraic_KernelIdeal_ReferenceIdeal := by
  intro m ρ m' ρ' hpre hagree
  refine ⟨fun c => Cert.ReferenceIdeal.Hand.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run (Cert.KernelIdeal.defs (F := Ideal)) _ _).mono (fun r h c => ⟨?_, (h c).2⟩) (Cert.KernelIdeal.Run.run_out (F := Ideal) m ρ)
    obtain ⟨h0, h2, h3, h4, h5, h6, h7, h8, h9, h10, h11⟩ := Cert.Pre_finite_inputs.Hand.real_of_pre _ _ _ _ _ _ _ _ _ _ _ _ (hpre c)
    rw [(h c).1, Cert.KernelIdeal.Chain.value_out m ρ c, srcOf_eq, dstOf_eq]
    unfold Cert.ReferenceIdeal.Hand.out
    exact Cert.SageBridge.two_layers _ _ _ _ _ _ _ _ _ _ _ _ _ h0 h2 h3 h4 h5 h6 h7 h8 h9
  · refine (θ_run (Cert.ReferenceIdeal.defs (F := Ideal)) _ _).mono (fun r h c => ⟨?_, (h c).2⟩) (Cert.ReferenceIdeal.Hand.run (F := Ideal) m' ρ')
    obtain ⟨e0, e1, e2, e3, e4, e5, e6, e7, e8, e9, e10, e11⟩ := hagree c
    rw [(h c).1, e0, e1, e2, e3, e4, e5, e6, e7, e8, e9, e10, e11]

end Cert.Proof.SageClaims

end
-- ==== Proof.lean ====
/- The proof of `Cert.Claim`.  Two stacked graph layers — neighbourhood mean, two products with transposed weights
   and a bias, normalisation over the nodes, scale, shift, maximum with zero — computed by a kernel program in row
   blocks with running column sums, and by a whole-array reference.  The kernel program's result is read through its
   four regions and four host stretches as two layers in its own form (Proof/Stats*.lean: the row blocks tile the
   pre-activation array and the running sums end at the column sums over all rows; Proof/Bn*.lean: the normalise
   region row block by row block; Proof/KHost*.lean, Proof/KChain*.lean: the host stretches and the fold through the
   program; Proof/KRun.lean: the run); the reference's run gives two layers in its form (Proof/RefOps*.lean,
   Proof/RefRun.lean, Proof/RefRead*.lean).  On real arguments — which the precondition gives
   (Proof/FiniteInputs.lean), the neighbourhood mean keeping them real (Proof/AggReal.lean) — the kernel's variance,
   the mean of squares less the squared mean, is the reference's mean squared deviation, so the layers are one function
   (Proof/Bridge*.lean), and Proof/Claims.lean assembles the five claims behind the witnesses of the programs' stated
   facts. -/
import proofs.«168245_j45801531245071_1_alg».proof.Defs
import proofs.«168245_j45801531245071_1_alg».proof.Proof.Claims
import proofs.«168245_j45801531245071_1_alg».proof.Proof.Gen.Kernel
import proofs.«168245_j45801531245071_1_alg».proof.Proof.Gen.KernelIdeal
import proofs.«168245_j45801531245071_1_alg».proof.Proof.Gen.ReferenceIdeal
import proofs.«168245_j45801531245071_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
